-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v102_0)) (v2 : (c : Dev Cert.KernelIdeal.nD) → Buf (Elt Ideal) ((c.tc : Thread Cert.KernelIdeal.nD Cert.KernelIdeal.τ).loc Cert.KernelIdeal.main_v102_1)) (v3 : (c : Dev Cert.KernelIdeal.nD) → Buf (Elt Ideal) ((c.tc : Thread Cert.KernelIdeal.nD Cert.KernelIdeal.τ).loc Cert.KernelIdeal.main_v102_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v102_0) = v1 c
          ∧ r.2.mem ((c.tc : Thread Cert.KernelIdeal.nD Cert.KernelIdeal.τ).loc Cert.KernelIdeal.main_v102_1) = v2 c
          ∧ r.2.mem ((c.tc : Thread Cert.KernelIdeal.nD Cert.KernelIdeal.τ).loc Cert.KernelIdeal.main_v102_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64x64 .f32) (main_arg11 : FVec F S64 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S100000x64 .f32) (main_arg1 : IVec S2x1250000 32) (main_arg2 : IVec S2x1250000 32) (main_arg3 : IVec S2x1250000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S100000x3 : Shape := ⟨2, ![100000, 3]⟩
abbrev S5000x3 : Shape := ⟨2, ![5000, 3]⟩
abbrev S5000x1 : Shape := ⟨2, ![5000, 1]⟩

abbrev nBuf : Space → Nat
  | .hbm => 144
  | .vmem => 38
  | .smem => 0
  | _ => 0

abbrev hbmTy0_0 (i : Nat) : BufTy := match i % 128 with
  | 0 => ⟨S100000x64, .f32⟩
  | 1 => ⟨S2x1250000, .i32⟩
  | 2 => ⟨S2x1250000, .i32⟩
  | 3 => ⟨S2x1250000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S1x64, .f32⟩
  | 13 => ⟨S100000x64, .f32⟩
  | 14 => ⟨S100000x64, .f32⟩
  | 15 => ⟨S100000x64, .f32⟩
  | 16 => ⟨S100000x64, .f32⟩
  | 17 => ⟨S1x1250000, .i32⟩
  | 18 => ⟨S1250000, .i32⟩
  | 19 => ⟨S1x1250000, .i32⟩
  | 20 => ⟨S1250000, .i32⟩
  | 21 => ⟨S_, .f32⟩
  | 22 => ⟨S1250000, .f32⟩
  | 23 => ⟨S_, .f32⟩
  | 24 => ⟨S100000, .f32⟩
  | 25 => ⟨S1250000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S_, .i32⟩
  | 41 => ⟨S1250000, .i32⟩
  | 42 => ⟨S1250000, .i1⟩
  | 43 => ⟨S_, .i32⟩
  | 44 => ⟨S1250000, .i32⟩
  | 45 => ⟨S1250000, .i32⟩
  | 46 => ⟨S1250000, .i32⟩
  | 47 => ⟨S1250000x1, .i32⟩
  | 48 => ⟨S1250000, .f32⟩
  | 49 => ⟨S1250000x1, .f32⟩
  | 50 => ⟨S1250000x64, .f32⟩
  | 51 => ⟨S1250000x64, .f32⟩
  | 52 => ⟨S_, .f32⟩
  | 53 => ⟨S100000x64, .f32⟩
  | 54 => ⟨S1250000x1, .i32⟩
  | 55 => ⟨S100000x64, .f32⟩
  | 56 => ⟨S1x1250000, .i32⟩
  | 57 => ⟨S1250000, .i32⟩
  | 58 => ⟨S1x1250000, .i32⟩
  | 59 => ⟨S1250000, .i32⟩
  | 60 => ⟨S_, .f32⟩
  | 61 => ⟨S1250000, .f32⟩
  | 62 => ⟨S_, .f32⟩
  | 63 => ⟨S100000, .f32⟩
  | 64 => ⟨S1250000x1, .i32⟩
  | 65 => ⟨S100000, .f32⟩
  | 66 => ⟨S_, .f32⟩
  | 67 => ⟨S100000, .f32⟩
  | 68 => ⟨S100000, .f32⟩
  | 69 => ⟨S100000, .f32⟩
  | 70 => ⟨S_, .i32⟩
  | 71 => ⟨S1250000, .i32⟩
  | 72 => ⟨S1250000, .i1⟩
  | 73 => ⟨S_, .i32⟩
  | 74 => ⟨S1250000, .i32⟩
  | 75 => ⟨S1250000, .i32⟩
  | 76 => ⟨S1250000, .i32⟩
  | 77 => ⟨S1250000x1, .i32⟩
  | 78 => ⟨S1250000x64, .f32⟩
  | 79 => ⟨S_, .i32⟩
  | 80 => ⟨S1250000, .i32⟩
  | 81 => ⟨S1250000, .i1⟩
  | 82 => ⟨S_, .i32⟩
  | 83 => ⟨S1250000, .i32⟩
  | 84 => ⟨S1250000, .i32⟩
  | 85 => ⟨S1250000, .i32⟩
  | 86 => ⟨S1250000x1, .i32⟩
  | 87 => ⟨S1250000, .f32⟩
  | 88 => ⟨S1250000x1, .f32⟩
  | 89 => ⟨S1250000x64, .f32⟩
  | 90 => ⟨S1250000x64, .f32⟩
  | 91 => ⟨S_, .f32⟩
  | 92 => ⟨S100000x64, .f32⟩
  | 93 => ⟨S1250000x1, .i32⟩
  | 94 => ⟨S100000x64, .f32⟩
  | 95 => ⟨S1x1250000, .i32⟩
  | 96 => ⟨S1250000, .i32⟩
  | 97 => ⟨S1x1250000, .i32⟩
  | 98 => ⟨S1250000, .i32⟩
  | 99 => ⟨S_, .f32⟩
  | 100 => ⟨S1250000, .f32⟩
  | 101 => ⟨S_, .f32⟩
  | 102 => ⟨S100000, .f32⟩
  | 103 => ⟨S1250000x1, .i32⟩
  | 104 => ⟨S100000, .f32⟩
  | 105 => ⟨S_, .f32⟩
  | 106 => ⟨S100000, .f32⟩
  | 107 => ⟨S100000, .f32⟩
  | 108 => ⟨S100000, .f32⟩
  | 109 => ⟨S_, .i32⟩
  | 110 => ⟨S1250000, .i32⟩
  | 111 => ⟨S1250000, .i1⟩
  | 112 => ⟨S_, .i32⟩
  | 113 => ⟨S1250000, .i32⟩
  | 114 => ⟨S1250000, .i32⟩
  | 115 => ⟨S1250000, .i32⟩
  | 116 => ⟨S1250000x1, .i32⟩
  | 117 => ⟨S1250000x64, .f32⟩
  | 118 => ⟨S_, .i32⟩
  | 119 => ⟨S1250000, .i32⟩
  | 120 => ⟨S1250000, .i1⟩
  | 121 => ⟨S_, .i32⟩
  | 122 => ⟨S1250000, .i32⟩
  | 123 => ⟨S1250000, .i32⟩
  | 124 => ⟨S1250000, .i32⟩
  | 125 => ⟨S1250000x1, .i32⟩
  | 126 => ⟨S1250000, .f32⟩
  | 127 => ⟨S1250000x1, .f32⟩
  | _ => ⟨S100000x64, .f32⟩

abbrev hbmTy0_1 (i : Nat) : BufTy := match i % 128 with
  | 0 => ⟨S1250000x64, .f32⟩
  | 1 => ⟨S1250000x64, .f32⟩
  | 2 => ⟨S_, .f32⟩
  | 3 => ⟨S100000x64, .f32⟩
  | 4 => ⟨S1250000x1, .i32⟩
  | 5 => ⟨S100000x64, .f32⟩
  | 6 => ⟨S100000x1, .f32⟩
  | 7 => ⟨S100000x1, .f32⟩
  | 8 => ⟨S100000x1, .f32⟩
  | 9 => ⟨S100000x3, .f32⟩
  | 10 => ⟨S1x64, .f32⟩
  | 11 => ⟨S1x64, .f32⟩
  | 12 => ⟨S1x64, .f32⟩
  | 13 => ⟨S100000x64, .f32⟩
  | 14 => ⟨S100000x64, .f32⟩
  | 15 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x3, .f32⟩
  | .local _ .vmem, ⟨22, _⟩ => ⟨S5000x3, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_c_20 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102_0 : Ref sig .tc := ⟨.hbm, 141, rfl⟩
abbrev main_v102_1 : Ref sig .tc := ⟨.hbm, 142, rfl⟩
abbrev main_v102_2 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  inb_S5000x3_S5000x1_0_0 : ∀ a, (![0, 0] : Fin 2 → Nat) a + S5000x1.size a ≤ S5000x3.size a
  h_S5000x1 : 0 < S5000x1.numel
  shapeCasts_S5000x1_S5000x1 : S5000x1.ShapeCasts S5000x1
  inb_S5000x3_S5000x1_0_1 : ∀ a, (![0, 1] : Fin 2 → Nat) a + S5000x1.size a ≤ S5000x3.size a
  inb_S5000x3_S5000x1_0_2 : ∀ a, (![0, 2] : Fin 2 → Nat) a + S5000x1.size a ≤ S5000x3.size a
  shapeCasts_S5000x64_S5000x64 : S5000x64.ShapeCasts S5000x64
  broadcasts_S5000x1_S5000x64 : S5000x1.Broadcasts S5000x64
  dot_S5000x64_S64x64_S5000x64_1_0_0_1_n_n_wf : DotDims.WF S5000x64 S64x64 S5000x64 [1] [0] [0] [1] [] []
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .f32 = 32 ∨ (Rect.block (s := S100000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x3.size a ≤ S100000x3.size a
  hwx1_3 : ∀ i : grid1.Coords, EltTy.bits .f32 = 32 ∨ (Rect.block (s := S100000x3) S5000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .f32 = 32 ∨ (Rect.block (s := S100000x64) S5000x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_3) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1_1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_2) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_3) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v98) S5000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v63) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v94) S5000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v99) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v100) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v101) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v102_0) S5000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v102_1) S5000x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v102_2) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x64 : Shape := ⟨2, ![1, 64]⟩
abbrev S1x1250000 : Shape := ⟨2, ![1, 1250000]⟩
abbrev S1250000 : Shape := ⟨1, ![1250000]⟩
abbrev S100000 : Shape := ⟨1, ![100000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩

abbrev nBuf : Space → Nat
  | .hbm => 196
  | .vmem => 0
  | .smem => 0
  | _ => 0

abbrev hbmTy0_0 (i : Nat) : BufTy := match i % 128 with
  | 0 => ⟨S100000x64, .f32⟩
  | 1 => ⟨S2x1250000, .i32⟩
  | 2 => ⟨S2x1250000, .i32⟩
  | 3 => ⟨S2x1250000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S100000x64, .f32⟩
  | 13 => ⟨S1x64, .f32⟩
  | 14 => ⟨S100000x64, .f32⟩
  | 15 => ⟨S100000x64, .f32⟩
  | 16 => ⟨S1x1250000, .i32⟩
  | 17 => ⟨S1250000, .i32⟩
  | 18 => ⟨S1x1250000, .i32⟩
  | 19 => ⟨S1250000, .i32⟩
  | 20 => ⟨S100000, .i32⟩
  | 21 => ⟨S1350000, .i32⟩
  | 22 => ⟨S1350000, .i32⟩
  | 23 => ⟨S_, .f32⟩
  | 24 => ⟨S1350000, .f32⟩
  | 25 => ⟨S_, .f32⟩
  | 26 => ⟨S100000, .f32⟩
  | 27 => ⟨S1350000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1350000, .i32⟩
  | 39 => ⟨S1350000, .i1⟩
  | 40 => ⟨S_, .i32⟩
  | 41 => ⟨S1350000, .i32⟩
  | 42 => ⟨S1350000, .i32⟩
  | 43 => ⟨S1350000, .i32⟩
  | 44 => ⟨S1350000x1, .i32⟩
  | 45 => ⟨S1350000, .f32⟩
  | 46 => ⟨S_, .i32⟩
  | 47 => ⟨S1350000, .i32⟩
  | 48 => ⟨S1350000, .i1⟩
  | 49 => ⟨S_, .i32⟩
  | 50 => ⟨S1350000, .i32⟩
  | 51 => ⟨S1350000, .i32⟩
  | 52 => ⟨S1350000, .i32⟩
  | 53 => ⟨S1350000x1, .i32⟩
  | 54 => ⟨S1350000, .f32⟩
  | 55 => ⟨S1350000, .f32⟩
  | 56 => ⟨S100000x64, .f32⟩
  | 57 => ⟨S_, .i32⟩
  | 58 => ⟨S1350000, .i32⟩
  | 59 => ⟨S1350000, .i1⟩
  | 60 => ⟨S_, .i32⟩
  | 61 => ⟨S1350000, .i32⟩
  | 62 => ⟨S1350000, .i32⟩
  | 63 => ⟨S1350000, .i32⟩
  | 64 => ⟨S1350000x1, .i32⟩
  | 65 => ⟨S1350000x64, .f32⟩
  | 66 => ⟨S1350000x1, .f32⟩
  | 67 => ⟨S1350000x64, .f32⟩
  | 68 => ⟨S1350000x64, .f32⟩
  | 69 => ⟨S_, .f32⟩
  | 70 => ⟨S100000x64, .f32⟩
  | 71 => ⟨S1350000x1, .i32⟩
  | 72 => ⟨S100000x64, .f32⟩
  | 73 => ⟨S1x64, .f32⟩
  | 74 => ⟨S100000x64, .f32⟩
  | 75 => ⟨S100000x64, .f32⟩
  | 76 => ⟨S1x1250000, .i32⟩
  | 77 => ⟨S1250000, .i32⟩
  | 78 => ⟨S1x1250000, .i32⟩
  | 79 => ⟨S1250000, .i32⟩
  | 80 => ⟨S100000, .i32⟩
  | 81 => ⟨S1350000, .i32⟩
  | 82 => ⟨S1350000, .i32⟩
  | 83 => ⟨S_, .f32⟩
  | 84 => ⟨S1350000, .f32⟩
  | 85 => ⟨S_, .f32⟩
  | 86 => ⟨S100000, .f32⟩
  | 87 => ⟨S1350000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1350000, .i32⟩
  | 99 => ⟨S1350000, .i1⟩
  | 100 => ⟨S_, .i32⟩
  | 101 => ⟨S1350000, .i32⟩
  | 102 => ⟨S1350000, .i32⟩
  | 103 => ⟨S1350000, .i32⟩
  | 104 => ⟨S1350000x1, .i32⟩
  | 105 => ⟨S1350000, .f32⟩
  | 106 => ⟨S_, .i32⟩
  | 107 => ⟨S1350000, .i32⟩
  | 108 => ⟨S1350000, .i1⟩
  | 109 => ⟨S_, .i32⟩
  | 110 => ⟨S1350000, .i32⟩
  | 111 => ⟨S1350000, .i32⟩
  | 112 => ⟨S1350000, .i32⟩
  | 113 => ⟨S1350000x1, .i32⟩
  | 114 => ⟨S1350000, .f32⟩
  | 115 => ⟨S1350000, .f32⟩
  | 116 => ⟨S100000x64, .f32⟩
  | 117 => ⟨S_, .i32⟩
  | 118 => ⟨S1350000, .i32⟩
  | 119 => ⟨S1350000, .i1⟩
  | 120 => ⟨S_, .i32⟩
  | 121 => ⟨S1350000, .i32⟩
  | 122 => ⟨S1350000, .i32⟩
  | 123 => ⟨S1350000, .i32⟩
  | 124 => ⟨S1350000x1, .i32⟩
  | 125 => ⟨S1350000x64, .f32⟩
  | 126 => ⟨S1350000x1, .f32⟩
  | 127 => ⟨S1350000x64, .f32⟩
  | _ => ⟨S100000x64, .f32⟩

abbrev hbmTy0_1 (i : Nat) : BufTy := match i % 128 with
  | 0 => ⟨S1350000x64, .f32⟩
  | 1 => ⟨S_, .f32⟩
  | 2 => ⟨S100000x64, .f32⟩
  | 3 => ⟨S1350000x1, .i32⟩
  | 4 => ⟨S100000x64, .f32⟩
  | 5 => ⟨S1x64, .f32⟩
  | 6 => ⟨S100000x64, .f32⟩
  | 7 => ⟨S100000x64, .f32⟩
  | 8 => ⟨S1x1250000, .i32⟩
  | 9 => ⟨S1250000, .i32⟩
  | 10 => ⟨S1x1250000, .i32⟩
  | 11 => ⟨S1250000, .i32⟩
  | 12 => ⟨S100000, .i32⟩
  | 13 => ⟨S1350000, .i32⟩
  | 14 => ⟨S1350000, .i32⟩
  | 15 => ⟨S_, .f32⟩
  | 16 => ⟨S1350000, .f32⟩
  | 17 => ⟨S_, .f32⟩
  | 18 => ⟨S100000, .f32⟩
  | 19 => ⟨S1350000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1350000, .i32⟩
  | 31 => ⟨S1350000, .i1⟩
  | 32 => ⟨S_, .i32⟩
  | 33 => ⟨S1350000, .i32⟩
  | 34 => ⟨S1350000, .i32⟩
  | 35 => ⟨S1350000, .i32⟩
  | 36 => ⟨S1350000x1, .i32⟩
  | 37 => ⟨S1350000, .f32⟩
  | 38 => ⟨S_, .i32⟩
  | 39 => ⟨S1350000, .i32⟩
  | 40 => ⟨S1350000, .i1⟩
  | 41 => ⟨S_, .i32⟩
  | 42 => ⟨S1350000, .i32⟩
  | 43 => ⟨S1350000, .i32⟩
  | 44 => ⟨S1350000, .i32⟩
  | 45 => ⟨S1350000x1, .i32⟩
  | 46 => ⟨S1350000, .f32⟩
  | 47 => ⟨S1350000, .f32⟩
  | 48 => ⟨S100000x64, .f32⟩
  | 49 => ⟨S_, .i32⟩
  | 50 => ⟨S1350000, .i32⟩
  | 51 => ⟨S1350000, .i1⟩
  | 52 => ⟨S_, .i32⟩
  | 53 => ⟨S1350000, .i32⟩
  | 54 => ⟨S1350000, .i32⟩
  | 55 => ⟨S1350000, .i32⟩
  | 56 => ⟨S1350000x1, .i32⟩
  | 57 => ⟨S1350000x64, .f32⟩
  | 58 => ⟨S1350000x1, .f32⟩
  | 59 => ⟨S1350000x64, .f32⟩
  | 60 => ⟨S1350000x64, .f32⟩
  | 61 => ⟨S_, .f32⟩
  | 62 => ⟨S100000x64, .f32⟩
  | 63 => ⟨S1350000x1, .i32⟩
  | 64 => ⟨S100000x64, .f32⟩
  | 65 => ⟨S1x64, .f32⟩
  | 66 => ⟨S100000x64, .f32⟩
  | 67 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_call1_v0 : Ref sig .tc := ⟨.hbm, 94, rfl⟩
abbrev main_call1_v1 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_17 : Ref sig .tc := ⟨.hbm, 117, rfl⟩
abbrev main_v82 : Ref sig .tc := ⟨.hbm, 118, rfl⟩
abbrev main_v83 : Ref sig .tc := ⟨.hbm, 119, rfl⟩
abbrev main_c_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_20 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_22 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_23 : Ref sig .tc := ⟨.hbm, 153, rfl⟩
abbrev main_call2_v0 : Ref sig .tc := ⟨.hbm, 154, rfl⟩
abbrev main_call2_v1 : Ref sig .tc := ⟨.hbm, 155, rfl⟩
abbrev main_v112 : Ref sig .tc := ⟨.hbm, 156, rfl⟩
abbrev main_c_24 : Ref sig .tc := ⟨.hbm, 157, rfl⟩
abbrev main_v113 : Ref sig .tc := ⟨.hbm, 158, rfl⟩
abbrev main_v114 : Ref sig .tc := ⟨.hbm, 159, rfl⟩
abbrev main_c_25 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_26 : Ref sig .tc := ⟨.hbm, 166, rfl⟩
abbrev main_v120 : Ref sig .tc := ⟨.hbm, 167, rfl⟩
abbrev main_v121 : Ref sig .tc := ⟨.hbm, 168, rfl⟩
abbrev main_c_27 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_c_28 : Ref sig .tc := ⟨.hbm, 177, rfl⟩
abbrev main_v129 : Ref sig .tc := ⟨.hbm, 178, rfl⟩
abbrev main_v130 : Ref sig .tc := ⟨.hbm, 179, rfl⟩
abbrev main_c_29 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_30 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S1250000_S100000_S1350000_d0 : Shape.Concatenates [S1250000, S100000] S1350000 0
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.KRegion0.lean ====
/- The frame of the kernel program, region 0 (the projection kernel's pipeline), at a parameter `V`: the
   TensorCore's buffer contents when the region is entered. Each window's block at a grid point, what the body
   leaves in each output window's staging buffer as a closed form over the input blocks, the body's triple, the
   pipeline's proof data and the body obligation. Generic in the float instance. -/
import proofs.«157301_j41343355191554_2_alg».proof.Proof.Gen.Kernel.Launch
import proofs.«157301_j41343355191554_2_alg».proof.Proof.Gen.Kernel.Skeleton
import proofs.«157301_j41343355191554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole 5000x64 block. -/
abbrev r0_0 : Rect S5000x64 := Rect.unit (s := S5000x64) ![0, 0] S5000x64.size inb_S5000x64_S5000x64_0_0
/-- The whole 64x64 weight. -/
abbrev r0_1 : Rect S64x64 := Rect.unit (s := S64x64) ![0, 0] S64x64.size inb_S64x64_S64x64_0_0
/-- The whole 1x64 bias row. -/
abbrev r0_2 : Rect S1x64 := Rect.unit (s := S1x64) ![0, 0] S1x64.size inb_S1x64_S1x64_0_0

/-! ## What the body leaves in each output window's buffer -/

/-- Window 6's staging buffer after the body: the row block times the first weight, plus the bias row. -/
def out0_6 (x0 : Vec F S5000x64 .f32) (x1 : Vec F S64x64 .f32) (x5 : Vec F S1x64 .f32) : Vec F S5000x64 .f32 :=
  View.canon [⟨r0_0, k0_pay1 (View.ld x0 r0_0) (View.ld x1 r0_1) (View.ld x5 r0_2)⟩]
/-- Window 7's staging buffer after the body: the row block times the second weight. -/
def out0_7 (x0 : Vec F S5000x64 .f32) (x2 : Vec F S64x64 .f32) : Vec F S5000x64 .f32 :=
  View.canon [⟨r0_0, k0_pay2 (View.ld x0 r0_0) (View.ld x2 r0_1)⟩]
/-- Window 8's staging buffer after the body: the row block times the third weight. -/
def out0_8 (x0 : Vec F S5000x64 .f32) (x3 : Vec F S64x64 .f32) : Vec F S5000x64 .f32 :=
  View.canon [⟨r0_0, k0_pay3 (View.ld x0 r0_0) (View.ld x3 r0_1)⟩]
/-- Window 9's staging buffer after the body: the row block times the fourth weight. -/
def out0_9 (x0 : Vec F S5000x64 .f32) (x4 : Vec F S64x64 .f32) : Vec F S5000x64 .f32 :=
  View.canon [⟨r0_0, k0_pay4 (View.ld x0 r0_0) (View.ld x4 r0_1)⟩]

/-! ## The pipeline's proof data -/

/-- The proof data of pipeline 0 on core `c`: the arrays as the region finds them (`V`); after the body at
    point `t` each input's buffer at its block and each output's at `out0_W` of the input blocks; the class
    invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 5 t)
    | ⟨7, _⟩ => out0_7 (iblk0 V c 0 t) (iblk0 V c 2 t)
    | ⟨8, _⟩ => out0_8 (iblk0 V c 0 t) (iblk0 V c 3 t)
    | ⟨9, _⟩ => out0_9 (iblk0 V c 0 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 5 t) := by dsimp only [dat0]
theorem after0_7 (c : Dev nD) (t : Fin cfg0.N) : (dat0 V c).after 7 t = out0_7 (iblk0 V c 0 t) (iblk0 V c 2 t) := by dsimp only [dat0]
theorem after0_8 (c : Dev nD) (t : Fin cfg0.N) : (dat0 V c).after 8 t = out0_8 (iblk0 V c 0 t) (iblk0 V c 3 t) := by dsimp only [dat0]
theorem after0_9 (c : Dev nD) (t : Fin cfg0.N) : (dat0 V c).after 9 t = out0_9 (iblk0 V c 0 t) (iblk0 V c 4 t) := by dsimp only [dat0]

/-! ## The inputs' staging buffers hold their blocks -/

/-- An input window's current staging buffer holds its block at every point, fetched there or not, for any proof
    data whose array is `V`'s and whose body leaves the block in place (unfetched, the index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stores tile the buffer -/

theorem cover0_6 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y
theorem cover0_7 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y
theorem cover0_8 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y
theorem cover0_9 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S5000x64 .f32) (harg10 : arg10.IsWhole)
    (x0 : Vec F S5000x64 .f32) (x1 : Vec F S64x64 .f32) (x2 : Vec F S64x64 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x5) ∗ owns (c : Thread nD τ) arg8 fullShare (out0_7 x0 x2) ∗ owns (c : Thread nD τ) arg9 fullShare (out0_8 x0 x3) ∗ owns (c : Thread nD τ) arg10 fullShare (out0_9 x0 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- The frame of the kernel program, region 1 (the combine kernel's pipeline), at a parameter `V`: the
   TensorCore's buffer contents when the region is entered. Each window's block at a grid point, what the body
   leaves in each output window's staging buffer as a closed form over the input blocks, the body's triple, the
   pipeline's proof data and the body obligation. Generic in the float instance. -/
import proofs.«157301_j41343355191554_2_alg».proof.Proof.Gen.Kernel.Launch
import proofs.«157301_j41343355191554_2_alg».proof.Proof.Gen.Kernel.Skeleton
import proofs.«157301_j41343355191554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole 5000x64 block. -/
abbrev r1_0 : Rect S5000x64 := Rect.unit (s := S5000x64) ![0, 0] S5000x64.size inb_S5000x64_S5000x64_0_0
/-- Column 0 of the 5000x3 block of scales. -/
abbrev r1_c0 : Rect S5000x3 := Rect.unit (s := S5000x3) ![0, 0] S5000x1.size inb_S5000x3_S5000x1_0_0
/-- Column 1 of the 5000x3 block of scales. -/
abbrev r1_c1 : Rect S5000x3 := Rect.unit (s := S5000x3) ![0, 1] S5000x1.size inb_S5000x3_S5000x1_0_1
/-- Column 2 of the 5000x3 block of scales. -/
abbrev r1_c2 : Rect S5000x3 := Rect.unit (s := S5000x3) ![0, 2] S5000x1.size inb_S5000x3_S5000x1_0_2
/-- The whole 1x64 bias row. -/
abbrev r1_b : Rect S1x64 := Rect.unit (s := S1x64) ![0, 0] S1x64.size inb_S1x64_S1x64_0_0

/-! ## What the body leaves in each output window's buffer (arguments in window order) -/

/-- Window 10's staging buffer after the body, from the blocks of windows 0 (projection), 3 (scales: column 0),
    4 (aggregate) and 7 (bias): aggregate times scale, plus projection times scale squared, plus bias. -/
def out1_10 (x0 : Vec F S5000x64 .f32) (x3 : Vec F S5000x3 .f32) (x4 : Vec F S5000x64 .f32) (x7 : Vec F S1x64 .f32) : Vec F S5000x64 .f32 :=
  View.canon [⟨r1_0, k1_pay3 (View.ld x3 r1_c0) (View.ld x4 r1_0) (View.ld x0 r1_0) (View.ld x7 r1_b)⟩]
/-- Window 11's staging buffer after the body, from the blocks of windows 1, 3 (column 1), 5 and 8. -/
def out1_11 (x1 : Vec F S5000x64 .f32) (x3 : Vec F S5000x3 .f32) (x5 : Vec F S5000x64 .f32) (x8 : Vec F S1x64 .f32) : Vec F S5000x64 .f32 :=
  View.canon [⟨r1_0, k1_pay4 (View.ld x3 r1_c1) (View.ld x5 r1_0) (View.ld x1 r1_0) (View.ld x8 r1_b)⟩]
/-- Window 12's staging buffer after the body, from the blocks of windows 2, 3 (column 2), 6 and 9. -/
def out1_12 (x2 : Vec F S5000x64 .f32) (x3 : Vec F S5000x3 .f32) (x6 : Vec F S5000x64 .f32) (x9 : Vec F S1x64 .f32) : Vec F S5000x64 .f32 :=
  View.canon [⟨r1_0, k1_pay1 (k1_pay2 (View.ld x3 r1_c2)) (View.ld x6 r1_0) (View.ld x2 r1_0) (View.ld x9 r1_b)⟩]

/-! ## The pipeline's proof data -/

/-- The proof data of pipeline 1 on core `c`: the arrays as the region finds them (`V`); after the body at
    point `t` each input's buffer at its block and each output's at `out1_W` of the input blocks; the class
    invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 3 t) (iblk1 V c 4 t) (iblk1 V c 7 t)
    | ⟨11, _⟩ => out1_11 (iblk1 V c 1 t) (iblk1 V c 3 t) (iblk1 V c 5 t) (iblk1 V c 8 t)
    | ⟨12, _⟩ => out1_12 (iblk1 V c 2 t) (iblk1 V c 3 t) (iblk1 V c 6 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 3 t) (iblk1 V c 4 t) (iblk1 V c 7 t) := by dsimp only [dat1]
theorem after1_11 (c : Dev nD) (t : Fin cfg1.N) : (dat1 V c).after 11 t = out1_11 (iblk1 V c 1 t) (iblk1 V c 3 t) (iblk1 V c 5 t) (iblk1 V c 8 t) := by dsimp only [dat1]
theorem after1_12 (c : Dev nD) (t : Fin cfg1.N) : (dat1 V c).after 12 t = out1_12 (iblk1 V c 2 t) (iblk1 V c 3 t) (iblk1 V c 6 t) (iblk1 V c 9 t) := by dsimp only [dat1]

/-! ## The inputs' staging buffers hold their blocks -/

/-- An input window's current staging buffer holds its block at every point, fetched there or not, for any proof
    data whose array is `V`'s and whose body leaves the block in place (unfetched, the index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The stores tile the buffer -/

theorem cover1_10 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y
theorem cover1_11 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y
theorem cover1_12 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x3 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x64 .f32) (harg12 : arg12.IsWhole) (arg13 : Memref sig .tc .vmem S5000x64 .f32) (harg13 : arg13.IsWhole)
    (x0 : Vec F S5000x64 .f32) (x1 : Vec F S5000x64 .f32) (x2 : Vec F S5000x64 .f32) (x3 : Vec F S5000x3 .f32) (x4 : Vec F S5000x64 .f32) (x5 : Vec F S5000x64 .f32) (x6 : Vec F S5000x64 .f32) (x7 : Vec F S1x64 .f32) (x8 : Vec F S1x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x3 x4 x7) ∗ owns (c : Thread nD τ) arg12 fullShare (out1_11 x1 x3 x5 x8) ∗ owns (c : Thread nD τ) arg13 fullShare (out1_12 x2 x3 x6 x9)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12 arg13 harg13) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1_10 _)
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 4000000 in
/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KKeep.lean ====
/- Which buffers the two host stretches of the kernel program leave alone: a buffer no operation of a stretch
   writes holds after the stretch what it held before. Stated for the argument arrays and for the projection
   pipeline's results, which the second stretch only reads. Generic in the float instance. -/
import proofs.«157301_j41343355191554_2_alg».proof.Proof.Gen.Kernel.Launch

set_option maxRecDepth 16384

noncomputable section

namespace Cert.Kernel.Hand

open Cert.Kernel.Gen
open Idealize.ShloMosaic Idealize.ShloMosaic.TcCoe
open Idealize.SL Idealize.SL.Sem

variable {F : FTy → Type} [FloatOps F]

/-- The first host stretch writes only the reshaped bias row. -/
theorem keep0 (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second host stretch writes none of these. -/
theorem keep1_main_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg2 (W : Valuation τ sig (Elt F)) :
    StableHlo.after hostOps1 W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg3 (W : Valuation τ sig (Elt F)) :
    StableHlo.after hostOps1 W (Proc.devRef .tc main_arg3) = W (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg4 (W : Valuation τ sig (Elt F)) :
    StableHlo.after hostOps1 W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg5 (W : Valuation τ sig (Elt F)) :
    StableHlo.after hostOps1 W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg6 (W : Valuation τ sig (Elt F)) :
    StableHlo.after hostOps1 W (Proc.devRef .tc main_arg6) = W (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg7 (W : Valuation τ sig (Elt F)) :
    StableHlo.after hostOps1 W (Proc.devRef .tc main_arg7) = W (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg8 (W : Valuation τ sig (Elt F)) :
    StableHlo.after hostOps1 W (Proc.devRef .tc main_arg8) = W (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg9 (W : Valuation τ sig (Elt F)) :
    StableHlo.after hostOps1 W (Proc.devRef .tc main_arg9) = W (Proc.devRef .tc main_arg9) :=
  StableHlo.after_of_forall_not_mem (b := Proc.devRef .tc main_arg9) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg10 (W : Valuation τ sig (Elt F)) :
    StableHlo.after hostOps1 W (Proc.devRef .tc main_arg10) = W (Proc.devRef .tc main_arg10) :=
  StableHlo.after_of_forall_not_mem (b := Proc.devRef .tc main_arg10) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg11 (W : Valuation τ sig (Elt F)) :
    StableHlo.after hostOps1 W (Proc.devRef .tc main_arg11) = W (Proc.devRef .tc main_arg11) :=
  StableHlo.after_of_forall_not_mem (b := Proc.devRef .tc main_arg11) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_0 (W : Valuation τ sig (Elt F)) :
    StableHlo.after hostOps1 W (Proc.devRef .tc main_v1_0) = W (Proc.devRef .tc main_v1_0) :=
  StableHlo.after_of_forall_not_mem (b := Proc.devRef .tc main_v1_0) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_1 (W : Valuation τ sig (Elt F)) :
    StableHlo.after hostOps1 W (Proc.devRef .tc main_v1_1) = W (Proc.devRef .tc main_v1_1) :=
  StableHlo.after_of_forall_not_mem (b := Proc.devRef .tc main_v1_1) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_2 (W : Valuation τ sig (Elt F)) :
    StableHlo.after hostOps1 W (Proc.devRef .tc main_v1_2) = W (Proc.devRef .tc main_v1_2) :=
  StableHlo.after_of_forall_not_mem (b := Proc.devRef .tc main_v1_2) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_3 (W : Valuation τ sig (Elt F)) :
    StableHlo.after hostOps1 W (Proc.devRef .tc main_v1_3) = W (Proc.devRef .tc main_v1_3) :=
  StableHlo.after_of_forall_not_mem (b := Proc.devRef .tc main_v1_3) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

end Cert.Kernel.Hand

end
-- ==== Proof.KRun.lean ====
/- The run of the kernel program, generic in the float instance: the TensorCore's buffer contents at each boundary
   of @main (launch, after the first host stretch, after the projection pipeline, after the second host stretch,
   after the combine pipeline), the two pipelines as segments over the thread state "every unscoped buffer at the
   boundary's contents", and the run itself with every result array named: each result is what its pipeline's
   write-backs leave (`Dat.arrAt … N`), each argument is as launched. -/
import proofs.«157301_j41343355191554_2_alg».proof.Proof.KRegion0
import proofs.«157301_j41343355191554_2_alg».proof.Proof.KRegion1
import proofs.«157301_j41343355191554_2_alg».proof.Proof.KKeep

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, the results at what their pipelines leave -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1_main_arg0 _
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 _ main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1_main_arg1 _
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep1_main_arg2 _
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep1_main_arg3 _
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keep1_main_arg4 _
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := keep0 _ main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep1_main_arg5 _
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1_main_arg6 _
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := keep0 _ main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := keep1_main_arg7 _
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := keep1_main_arg8 _
    _ = W1 m ρ c (Proc.devRef .tc main_arg8) := (W2_arr m ρ c 3).trans (((dat0 (V1 m ρ) c).arrAt_in 3 rfl _).trans (A_eq0 (V1 m ρ) c 3))
    _ = W0 m ρ c (Proc.devRef .tc main_arg8) := keep0 _ main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keep1_main_arg9 _
    _ = W1 m ρ c (Proc.devRef .tc main_arg9) := W2_of_ne m ρ c main_arg9 (by decide)
    _ = W0 m ρ c (Proc.devRef .tc main_arg9) := keep0 _ main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep1_main_arg10 _
    _ = W1 m ρ c (Proc.devRef .tc main_arg10) := (W2_arr m ρ c 4).trans (((dat0 (V1 m ρ) c).arrAt_in 4 rfl _).trans (A_eq0 (V1 m ρ) c 4))
    _ = W0 m ρ c (Proc.devRef .tc main_arg10) := keep0 _ main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := keep1_main_arg11 _
    _ = W1 m ρ c (Proc.devRef .tc main_arg11) := W2_of_ne m ρ c main_arg11 (by decide)
    _ = W0 m ρ c (Proc.devRef .tc main_arg11) := keep0 _ main_arg11 (by decide)
    _ = m ((c : Thread nD τ).loc main_arg11) := rfl

/-- The projection pipeline's first result is not touched after its region. -/
theorem W4_main_v1_0 (c : Dev nD) : W4 m ρ c (Proc.devRef .tc main_v1_0) = (dat0 (V1 m ρ) c).arrAt 6 cfg0.N :=
  calc W4 m ρ c (Proc.devRef .tc main_v1_0)
    _ = W3 m ρ c (Proc.devRef .tc main_v1_0) := W4_of_ne m ρ c main_v1_0 (by decide)
    _ = W2 m ρ c (Proc.devRef .tc main_v1_0) := keep1_main_v1_0 _
    _ = (dat0 (V1 m ρ) c).arrAt 6 cfg0.N := W2_arr m ρ c 6
/-- The combine pipeline's results. -/
theorem W4_main_v102_0 (c : Dev nD) : W4 m ρ c (Proc.devRef .tc main_v102_0) = (dat1 (V3 m ρ) c).arrAt 10 cfg1.N := W4_arr m ρ c 10
theorem W4_main_v102_1 (c : Dev nD) : W4 m ρ c (Proc.devRef .tc main_v102_1) = (dat1 (V3 m ρ) c).arrAt 11 cfg1.N := W4_arr m ρ c 11
theorem W4_main_v102_2 (c : Dev nD) : W4 m ρ c (Proc.devRef .tc main_v102_2) = (dat1 (V3 m ρ) c).arrAt 12 cfg1.N := W4_arr m ρ c 12

/-! ## What the regions' entry contents are, for the value proof -/

/-- Region 0 reads the arguments as launched (the first host stretch writes only the reshaped bias row). -/
theorem V1_arg (c : Dev nD) (b : Ref sig .tc) (hb : b ≠ main_v0) : V1 m ρ c b = m ((c : Thread nD τ).loc b) :=
  keep0 _ b hb
/-- Region 1 reads region 0's other three results as its write-backs left them (the second host stretch writes none). -/
theorem V3_main_v1_1 (c : Dev nD) : V3 m ρ c main_v1_1 = (dat0 (V1 m ρ) c).arrAt 7 cfg0.N :=
  (keep1_main_v1_1 _).trans (W2_arr m ρ c 7)
theorem V3_main_v1_2 (c : Dev nD) : V3 m ρ c main_v1_2 = (dat0 (V1 m ρ) c).arrAt 8 cfg0.N :=
  (keep1_main_v1_2 _).trans (W2_arr m ρ c 8)
theorem V3_main_v1_3 (c : Dev nD) : V3 m ρ c main_v1_3 = (dat0 (V1 m ρ) c).arrAt 9 cfg0.N :=
  (keep1_main_v1_3 _).trans (W2_arr m ρ c 9)
/-- Off region 0's arrays, region 1's entry contents are the second host stretch's results over the first's. -/
theorem V3_eq (c : Dev nD) (b : Ref sig .tc) : V3 m ρ c b = StableHlo.after hostOps1 (W2 m ρ c) (Proc.devRef .tc b) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal match. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the entry contents, left at the exit
    contents. Its arrays split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit
    contents. Its arrays split out of the unscoped buffers and put back at the exit contents; the generator register
    into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has each result array at what its pipeline's
    write-backs leave and the argument arrays as launched. -/
theorem run_main : θ_run defs (onTc (τ := τ) (main (F := F))) ⟨m, fun _ => 0, ρ⟩ (fun r => ∀ c : Dev nD,
      r.2.mem ((c.tc : Thread nD τ).loc main_v1_0) = (dat0 (V1 m ρ) c).arrAt 6 cfg0.N
      ∧ r.2.mem ((c.tc : Thread nD τ).loc main_v102_0) = (dat1 (V3 m ρ) c).arrAt 10 cfg1.N
      ∧ r.2.mem ((c.tc : Thread nD τ).loc main_v102_1) = (dat1 (V3 m ρ) c).arrAt 11 cfg1.N
      ∧ r.2.mem ((c.tc : Thread nD τ).loc main_v102_2) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => ⟨(h c _ (mem_uc main_v1_0 (by decide))).trans (W4_main_v1_0 m ρ c),
        (h c _ (mem_uc main_v102_0 (by decide))).trans (W4_main_v102_0 m ρ c),
        (h c _ (mem_uc main_v102_1 (by decide))).trans (W4_main_v102_1 m ρ c),
        (h c _ (mem_uc main_v102_2 (by decide))).trans (W4_main_v102_2 m ρ c),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c),
        (h c _ (mem_uc main_arg8 (by decide))).trans (W4_main_arg8 m ρ c),
        (h c _ (mem_uc main_arg9 (by decide))).trans (W4_main_arg9 m ρ c),
        (h c _ (mem_uc main_arg10 (by decide))).trans (W4_main_arg10 m ρ c),
        (h c _ (mem_uc main_arg11 (by decide))).trans (W4_main_arg11 m ρ c)⟩)

/-- THE FRAME: the run with the results forgotten — the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2.2.2) (run_main m ρ)

end Cert.Kernel.Hand

end
-- ==== Proof.KIRegion0.lean ====
/- The frame of the kernel program, region 0 (the projection kernel's pipeline), at a parameter `V`: the
   TensorCore's buffer contents when the region is entered. Each window's block at a grid point, what the body
   leaves in each output window's staging buffer as a closed form over the input blocks, the body's triple, the
   pipeline's proof data and the body obligation. Generic in the float instance. -/
import proofs.«157301_j41343355191554_2_alg».proof.Proof.Gen.KernelIdeal.Launch
import proofs.«157301_j41343355191554_2_alg».proof.Proof.Gen.KernelIdeal.Skeleton
import proofs.«157301_j41343355191554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole 5000x64 block. -/
abbrev r0_0 : Rect S5000x64 := Rect.unit (s := S5000x64) ![0, 0] S5000x64.size inb_S5000x64_S5000x64_0_0
/-- The whole 64x64 weight. -/
abbrev r0_1 : Rect S64x64 := Rect.unit (s := S64x64) ![0, 0] S64x64.size inb_S64x64_S64x64_0_0
/-- The whole 1x64 bias row. -/
abbrev r0_2 : Rect S1x64 := Rect.unit (s := S1x64) ![0, 0] S1x64.size inb_S1x64_S1x64_0_0

/-! ## What the body leaves in each output window's buffer -/

/-- Window 6's staging buffer after the body: the row block times the first weight, plus the bias row. -/
def out0_6 (x0 : Vec F S5000x64 .f32) (x1 : Vec F S64x64 .f32) (x5 : Vec F S1x64 .f32) : Vec F S5000x64 .f32 :=
  View.canon [⟨r0_0, k0_pay1 (View.ld x0 r0_0) (View.ld x1 r0_1) (View.ld x5 r0_2)⟩]
/-- Window 7's staging buffer after the body: the row block times the second weight. -/
def out0_7 (x0 : Vec F S5000x64 .f32) (x2 : Vec F S64x64 .f32) : Vec F S5000x64 .f32 :=
  View.canon [⟨r0_0, k0_pay2 (View.ld x0 r0_0) (View.ld x2 r0_1)⟩]
/-- Window 8's staging buffer after the body: the row block times the third weight. -/
def out0_8 (x0 : Vec F S5000x64 .f32) (x3 : Vec F S64x64 .f32) : Vec F S5000x64 .f32 :=
  View.canon [⟨r0_0, k0_pay3 (View.ld x0 r0_0) (View.ld x3 r0_1)⟩]
/-- Window 9's staging buffer after the body: the row block times the fourth weight. -/
def out0_9 (x0 : Vec F S5000x64 .f32) (x4 : Vec F S64x64 .f32) : Vec F S5000x64 .f32 :=
  View.canon [⟨r0_0, k0_pay4 (View.ld x0 r0_0) (View.ld x4 r0_1)⟩]

/-! ## The pipeline's proof data -/

/-- The proof data of pipeline 0 on core `c`: the arrays as the region finds them (`V`); after the body at
    point `t` each input's buffer at its block and each output's at `out0_W` of the input blocks; the class
    invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 5 t)
    | ⟨7, _⟩ => out0_7 (iblk0 V c 0 t) (iblk0 V c 2 t)
    | ⟨8, _⟩ => out0_8 (iblk0 V c 0 t) (iblk0 V c 3 t)
    | ⟨9, _⟩ => out0_9 (iblk0 V c 0 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 5 t) := by dsimp only [dat0]
theorem after0_7 (c : Dev nD) (t : Fin cfg0.N) : (dat0 V c).after 7 t = out0_7 (iblk0 V c 0 t) (iblk0 V c 2 t) := by dsimp only [dat0]
theorem after0_8 (c : Dev nD) (t : Fin cfg0.N) : (dat0 V c).after 8 t = out0_8 (iblk0 V c 0 t) (iblk0 V c 3 t) := by dsimp only [dat0]
theorem after0_9 (c : Dev nD) (t : Fin cfg0.N) : (dat0 V c).after 9 t = out0_9 (iblk0 V c 0 t) (iblk0 V c 4 t) := by dsimp only [dat0]

/-! ## The inputs' staging buffers hold their blocks -/

/-- An input window's current staging buffer holds its block at every point, fetched there or not, for any proof
    data whose array is `V`'s and whose body leaves the block in place (unfetched, the index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stores tile the buffer -/

theorem cover0_6 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y
theorem cover0_7 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y
theorem cover0_8 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y
theorem cover0_9 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S5000x64 .f32) (harg10 : arg10.IsWhole)
    (x0 : Vec F S5000x64 .f32) (x1 : Vec F S64x64 .f32) (x2 : Vec F S64x64 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x5) ∗ owns (c : Thread nD τ) arg8 fullShare (out0_7 x0 x2) ∗ owns (c : Thread nD τ) arg9 fullShare (out0_8 x0 x3) ∗ owns (c : Thread nD τ) arg10 fullShare (out0_9 x0 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/- The frame of the kernel program, region 1 (the combine kernel's pipeline), at a parameter `V`: the
   TensorCore's buffer contents when the region is entered. Each window's block at a grid point, what the body
   leaves in each output window's staging buffer as a closed form over the input blocks, the body's triple, the
   pipeline's proof data and the body obligation. Generic in the float instance. -/
import proofs.«157301_j41343355191554_2_alg».proof.Proof.Gen.KernelIdeal.Launch
import proofs.«157301_j41343355191554_2_alg».proof.Proof.Gen.KernelIdeal.Skeleton
import proofs.«157301_j41343355191554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole 5000x64 block. -/
abbrev r1_0 : Rect S5000x64 := Rect.unit (s := S5000x64) ![0, 0] S5000x64.size inb_S5000x64_S5000x64_0_0
/-- Column 0 of the 5000x3 block of scales. -/
abbrev r1_c0 : Rect S5000x3 := Rect.unit (s := S5000x3) ![0, 0] S5000x1.size inb_S5000x3_S5000x1_0_0
/-- Column 1 of the 5000x3 block of scales. -/
abbrev r1_c1 : Rect S5000x3 := Rect.unit (s := S5000x3) ![0, 1] S5000x1.size inb_S5000x3_S5000x1_0_1
/-- Column 2 of the 5000x3 block of scales. -/
abbrev r1_c2 : Rect S5000x3 := Rect.unit (s := S5000x3) ![0, 2] S5000x1.size inb_S5000x3_S5000x1_0_2
/-- The whole 1x64 bias row. -/
abbrev r1_b : Rect S1x64 := Rect.unit (s := S1x64) ![0, 0] S1x64.size inb_S1x64_S1x64_0_0

/-! ## What the body leaves in each output window's buffer (arguments in window order) -/

/-- Window 10's staging buffer after the body, from the blocks of windows 0 (projection), 3 (scales: column 0),
    4 (aggregate) and 7 (bias): aggregate times scale, plus projection times scale squared, plus bias. -/
def out1_10 (x0 : Vec F S5000x64 .f32) (x3 : Vec F S5000x3 .f32) (x4 : Vec F S5000x64 .f32) (x7 : Vec F S1x64 .f32) : Vec F S5000x64 .f32 :=
  View.canon [⟨r1_0, k1_pay3 (View.ld x3 r1_c0) (View.ld x4 r1_0) (View.ld x0 r1_0) (View.ld x7 r1_b)⟩]
/-- Window 11's staging buffer after the body, from the blocks of windows 1, 3 (column 1), 5 and 8. -/
def out1_11 (x1 : Vec F S5000x64 .f32) (x3 : Vec F S5000x3 .f32) (x5 : Vec F S5000x64 .f32) (x8 : Vec F S1x64 .f32) : Vec F S5000x64 .f32 :=
  View.canon [⟨r1_0, k1_pay4 (View.ld x3 r1_c1) (View.ld x5 r1_0) (View.ld x1 r1_0) (View.ld x8 r1_b)⟩]
/-- Window 12's staging buffer after the body, from the blocks of windows 2, 3 (column 2), 6 and 9. -/
def out1_12 (x2 : Vec F S5000x64 .f32) (x3 : Vec F S5000x3 .f32) (x6 : Vec F S5000x64 .f32) (x9 : Vec F S1x64 .f32) : Vec F S5000x64 .f32 :=
  View.canon [⟨r1_0, k1_pay1 (k1_pay2 (View.ld x3 r1_c2)) (View.ld x6 r1_0) (View.ld x2 r1_0) (View.ld x9 r1_b)⟩]

/-! ## The pipeline's proof data -/

/-- The proof data of pipeline 1 on core `c`: the arrays as the region finds them (`V`); after the body at
    point `t` each input's buffer at its block and each output's at `out1_W` of the input blocks; the class
    invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 3 t) (iblk1 V c 4 t) (iblk1 V c 7 t)
    | ⟨11, _⟩ => out1_11 (iblk1 V c 1 t) (iblk1 V c 3 t) (iblk1 V c 5 t) (iblk1 V c 8 t)
    | ⟨12, _⟩ => out1_12 (iblk1 V c 2 t) (iblk1 V c 3 t) (iblk1 V c 6 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 3 t) (iblk1 V c 4 t) (iblk1 V c 7 t) := by dsimp only [dat1]
theorem after1_11 (c : Dev nD) (t : Fin cfg1.N) : (dat1 V c).after 11 t = out1_11 (iblk1 V c 1 t) (iblk1 V c 3 t) (iblk1 V c 5 t) (iblk1 V c 8 t) := by dsimp only [dat1]
theorem after1_12 (c : Dev nD) (t : Fin cfg1.N) : (dat1 V c).after 12 t = out1_12 (iblk1 V c 2 t) (iblk1 V c 3 t) (iblk1 V c 6 t) (iblk1 V c 9 t) := by dsimp only [dat1]

/-! ## The inputs' staging buffers hold their blocks -/

/-- An input window's current staging buffer holds its block at every point, fetched there or not, for any proof
    data whose array is `V`'s and whose body leaves the block in place (unfetched, the index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The stores tile the buffer -/

theorem cover1_10 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y
theorem cover1_11 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y
theorem cover1_12 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x3 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x64 .f32) (harg12 : arg12.IsWhole) (arg13 : Memref sig .tc .vmem S5000x64 .f32) (harg13 : arg13.IsWhole)
    (x0 : Vec F S5000x64 .f32) (x1 : Vec F S5000x64 .f32) (x2 : Vec F S5000x64 .f32) (x3 : Vec F S5000x3 .f32) (x4 : Vec F S5000x64 .f32) (x5 : Vec F S5000x64 .f32) (x6 : Vec F S5000x64 .f32) (x7 : Vec F S1x64 .f32) (x8 : Vec F S1x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x3 x4 x7) ∗ owns (c : Thread nD τ) arg12 fullShare (out1_11 x1 x3 x5 x8) ∗ owns (c : Thread nD τ) arg13 fullShare (out1_12 x2 x3 x6 x9)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12 arg13 harg13) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1_10 _)
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 4000000 in
/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIKeep.lean ====
/- Which buffers the two host stretches of the kernel program leave alone: a buffer no operation of a stretch
   writes holds after the stretch what it held before. Stated for the argument arrays and for the projection
   pipeline's results, which the second stretch only reads. Generic in the float instance. -/
import proofs.«157301_j41343355191554_2_alg».proof.Proof.Gen.KernelIdeal.Launch

set_option maxRecDepth 16384

noncomputable section

namespace Cert.KernelIdeal.Hand

open Cert.KernelIdeal.Gen
open Idealize.ShloMosaic Idealize.ShloMosaic.TcCoe
open Idealize.SL Idealize.SL.Sem

variable {F : FTy → Type} [FloatOps F]

/-- The first host stretch writes only the reshaped bias row. -/
theorem keep0 (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second host stretch writes none of these. -/
theorem keep1_main_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg2 (W : Valuation τ sig (Elt F)) :
    StableHlo.after hostOps1 W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg3 (W : Valuation τ sig (Elt F)) :
    StableHlo.after hostOps1 W (Proc.devRef .tc main_arg3) = W (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg4 (W : Valuation τ sig (Elt F)) :
    StableHlo.after hostOps1 W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg5 (W : Valuation τ sig (Elt F)) :
    StableHlo.after hostOps1 W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg6 (W : Valuation τ sig (Elt F)) :
    StableHlo.after hostOps1 W (Proc.devRef .tc main_arg6) = W (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg7 (W : Valuation τ sig (Elt F)) :
    StableHlo.after hostOps1 W (Proc.devRef .tc main_arg7) = W (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg8 (W : Valuation τ sig (Elt F)) :
    StableHlo.after hostOps1 W (Proc.devRef .tc main_arg8) = W (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg9 (W : Valuation τ sig (Elt F)) :
    StableHlo.after hostOps1 W (Proc.devRef .tc main_arg9) = W (Proc.devRef .tc main_arg9) :=
  StableHlo.after_of_forall_not_mem (b := Proc.devRef .tc main_arg9) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg10 (W : Valuation τ sig (Elt F)) :
    StableHlo.after hostOps1 W (Proc.devRef .tc main_arg10) = W (Proc.devRef .tc main_arg10) :=
  StableHlo.after_of_forall_not_mem (b := Proc.devRef .tc main_arg10) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_arg11 (W : Valuation τ sig (Elt F)) :
    StableHlo.after hostOps1 W (Proc.devRef .tc main_arg11) = W (Proc.devRef .tc main_arg11) :=
  StableHlo.after_of_forall_not_mem (b := Proc.devRef .tc main_arg11) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_0 (W : Valuation τ sig (Elt F)) :
    StableHlo.after hostOps1 W (Proc.devRef .tc main_v1_0) = W (Proc.devRef .tc main_v1_0) :=
  StableHlo.after_of_forall_not_mem (b := Proc.devRef .tc main_v1_0) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_1 (W : Valuation τ sig (Elt F)) :
    StableHlo.after hostOps1 W (Proc.devRef .tc main_v1_1) = W (Proc.devRef .tc main_v1_1) :=
  StableHlo.after_of_forall_not_mem (b := Proc.devRef .tc main_v1_1) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_2 (W : Valuation τ sig (Elt F)) :
    StableHlo.after hostOps1 W (Proc.devRef .tc main_v1_2) = W (Proc.devRef .tc main_v1_2) :=
  StableHlo.after_of_forall_not_mem (b := Proc.devRef .tc main_v1_2) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
theorem keep1_main_v1_3 (W : Valuation τ sig (Elt F)) :
    StableHlo.after hostOps1 W (Proc.devRef .tc main_v1_3) = W (Proc.devRef .tc main_v1_3) :=
  StableHlo.after_of_forall_not_mem (b := Proc.devRef .tc main_v1_3) _ _ (List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

end Cert.KernelIdeal.Hand

end
-- ==== Proof.KIRun.lean ====
/- The run of the kernel program, generic in the float instance: the TensorCore's buffer contents at each boundary
   of @main (launch, after the first host stretch, after the projection pipeline, after the second host stretch,
   after the combine pipeline), the two pipelines as segments over the thread state "every unscoped buffer at the
   boundary's contents", and the run itself with every result array named: each result is what its pipeline's
   write-backs leave (`Dat.arrAt … N`), each argument is as launched. -/
import proofs.«157301_j41343355191554_2_alg».proof.Proof.KIRegion0
import proofs.«157301_j41343355191554_2_alg».proof.Proof.KIRegion1
import proofs.«157301_j41343355191554_2_alg».proof.Proof.KIKeep

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, the results at what their pipelines leave -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1_main_arg0 _
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 _ main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1_main_arg1 _
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep1_main_arg2 _
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep1_main_arg3 _
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keep1_main_arg4 _
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := keep0 _ main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep1_main_arg5 _
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1_main_arg6 _
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := keep0 _ main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := keep1_main_arg7 _
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := keep1_main_arg8 _
    _ = W1 m ρ c (Proc.devRef .tc main_arg8) := (W2_arr m ρ c 3).trans (((dat0 (V1 m ρ) c).arrAt_in 3 rfl _).trans (A_eq0 (V1 m ρ) c 3))
    _ = W0 m ρ c (Proc.devRef .tc main_arg8) := keep0 _ main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keep1_main_arg9 _
    _ = W1 m ρ c (Proc.devRef .tc main_arg9) := W2_of_ne m ρ c main_arg9 (by decide)
    _ = W0 m ρ c (Proc.devRef .tc main_arg9) := keep0 _ main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep1_main_arg10 _
    _ = W1 m ρ c (Proc.devRef .tc main_arg10) := (W2_arr m ρ c 4).trans (((dat0 (V1 m ρ) c).arrAt_in 4 rfl _).trans (A_eq0 (V1 m ρ) c 4))
    _ = W0 m ρ c (Proc.devRef .tc main_arg10) := keep0 _ main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := keep1_main_arg11 _
    _ = W1 m ρ c (Proc.devRef .tc main_arg11) := W2_of_ne m ρ c main_arg11 (by decide)
    _ = W0 m ρ c (Proc.devRef .tc main_arg11) := keep0 _ main_arg11 (by decide)
    _ = m ((c : Thread nD τ).loc main_arg11) := rfl

/-- The projection pipeline's first result is not touched after its region. -/
theorem W4_main_v1_0 (c : Dev nD) : W4 m ρ c (Proc.devRef .tc main_v1_0) = (dat0 (V1 m ρ) c).arrAt 6 cfg0.N :=
  calc W4 m ρ c (Proc.devRef .tc main_v1_0)
    _ = W3 m ρ c (Proc.devRef .tc main_v1_0) := W4_of_ne m ρ c main_v1_0 (by decide)
    _ = W2 m ρ c (Proc.devRef .tc main_v1_0) := keep1_main_v1_0 _
    _ = (dat0 (V1 m ρ) c).arrAt 6 cfg0.N := W2_arr m ρ c 6
/-- The combine pipeline's results. -/
theorem W4_main_v102_0 (c : Dev nD) : W4 m ρ c (Proc.devRef .tc main_v102_0) = (dat1 (V3 m ρ) c).arrAt 10 cfg1.N := W4_arr m ρ c 10
theorem W4_main_v102_1 (c : Dev nD) : W4 m ρ c (Proc.devRef .tc main_v102_1) = (dat1 (V3 m ρ) c).arrAt 11 cfg1.N := W4_arr m ρ c 11
theorem W4_main_v102_2 (c : Dev nD) : W4 m ρ c (Proc.devRef .tc main_v102_2) = (dat1 (V3 m ρ) c).arrAt 12 cfg1.N := W4_arr m ρ c 12

/-! ## What the regions' entry contents are, for the value proof -/

/-- Region 0 reads the arguments as launched (the first host stretch writes only the reshaped bias row). -/
theorem V1_arg (c : Dev nD) (b : Ref sig .tc) (hb : b ≠ main_v0) : V1 m ρ c b = m ((c : Thread nD τ).loc b) :=
  keep0 _ b hb
/-- Region 1 reads region 0's other three results as its write-backs left them (the second host stretch writes none). -/
theorem V3_main_v1_1 (c : Dev nD) : V3 m ρ c main_v1_1 = (dat0 (V1 m ρ) c).arrAt 7 cfg0.N :=
  (keep1_main_v1_1 _).trans (W2_arr m ρ c 7)
theorem V3_main_v1_2 (c : Dev nD) : V3 m ρ c main_v1_2 = (dat0 (V1 m ρ) c).arrAt 8 cfg0.N :=
  (keep1_main_v1_2 _).trans (W2_arr m ρ c 8)
theorem V3_main_v1_3 (c : Dev nD) : V3 m ρ c main_v1_3 = (dat0 (V1 m ρ) c).arrAt 9 cfg0.N :=
  (keep1_main_v1_3 _).trans (W2_arr m ρ c 9)
/-- Off region 0's arrays, region 1's entry contents are the second host stretch's results over the first's. -/
theorem V3_eq (c : Dev nD) (b : Ref sig .tc) : V3 m ρ c b = StableHlo.after hostOps1 (W2 m ρ c) (Proc.devRef .tc b) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal match. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the entry contents, left at the exit
    contents. Its arrays split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit
    contents. Its arrays split out of the unscoped buffers and put back at the exit contents; the generator register
    into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has each result array at what its pipeline's
    write-backs leave and the argument arrays as launched. -/
theorem run_main : θ_run defs (onTc (τ := τ) (main (F := F))) ⟨m, fun _ => 0, ρ⟩ (fun r => ∀ c : Dev nD,
      r.2.mem ((c.tc : Thread nD τ).loc main_v1_0) = (dat0 (V1 m ρ) c).arrAt 6 cfg0.N
      ∧ r.2.mem ((c.tc : Thread nD τ).loc main_v102_0) = (dat1 (V3 m ρ) c).arrAt 10 cfg1.N
      ∧ r.2.mem ((c.tc : Thread nD τ).loc main_v102_1) = (dat1 (V3 m ρ) c).arrAt 11 cfg1.N
      ∧ r.2.mem ((c.tc : Thread nD τ).loc main_v102_2) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => ⟨(h c _ (mem_uc main_v1_0 (by decide))).trans (W4_main_v1_0 m ρ c),
        (h c _ (mem_uc main_v102_0 (by decide))).trans (W4_main_v102_0 m ρ c),
        (h c _ (mem_uc main_v102_1 (by decide))).trans (W4_main_v102_1 m ρ c),
        (h c _ (mem_uc main_v102_2 (by decide))).trans (W4_main_v102_2 m ρ c),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c),
        (h c _ (mem_uc main_arg8 (by decide))).trans (W4_main_arg8 m ρ c),
        (h c _ (mem_uc main_arg9 (by decide))).trans (W4_main_arg9 m ρ c),
        (h c _ (mem_uc main_arg10 (by decide))).trans (W4_main_arg10 m ρ c),
        (h c _ (mem_uc main_arg11 (by decide))).trans (W4_main_arg11 m ρ c)⟩)

/-- THE FRAME: the run with the results forgotten — the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2.2.2) (run_main m ρ)

end Cert.KernelIdeal.Hand

end
-- ==== Proof.KHost.lean ====
/-
  What the host operations between the two kernel launches compute, as named functions of the buffers they start from.

  Per branch, from the edge array A (two rows of 32-bit words: sources, destinations) and the projected features H:
    the degree array  deg = (zeros scattered-with-ones at the destinations) + ones,   dinv = 1 / sqrt deg,
    the messages      msg[e, :] = H[src e, :] · dinv[src e]   (a source word wrapped by N when negative, then clamped),
    their sums        es = zeros scatter-added with msg at the destinations;
  then the three dinv vectors side by side as the columns of an N × 3 array, and each bias as a one-row matrix.
  Every buffer the second launch takes is the corresponding function of the first launch's results and the arguments.
-/
import proofs.«157301_j41343355191554_2_alg».proof.Proof.Gen.KernelIdeal.Launch
import Idealize.ShloMosaic.Lib.StableHlo.Run

set_option maxRecDepth 4096

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]

/-- The source words of the edge array, as one vector. -/
def srcW (A : (⟨S2x1250000, .i32⟩ : BufTy).Contents (Elt F)) : (⟨S1250000, .i32⟩ : BufTy).Contents (Elt F) :=
  shapeCast _ (extractStridedSlice S1x1250000 ![0, 0] A slices_S2x1250000_S1x1250000_0_0) shapeCasts_S1x1250000_S1250000

/-- The destination words. -/
def dstW (A : (⟨S2x1250000, .i32⟩ : BufTy).Contents (Elt F)) : (⟨S1250000, .i32⟩ : BufTy).Contents (Elt F) :=
  shapeCast _ (extractStridedSlice S1x1250000 ![1, 0] A slices_S2x1250000_S1x1250000_1_0) shapeCasts_S1x1250000_S1250000

/-- The degree array: ones scatter-added into zeros at the destinations, plus one. -/
def degArr (A : (⟨S2x1250000, .i32⟩ : BufTy).Contents (Elt F)) : (⟨S100000, .f32⟩ : BufTy).Contents (Elt F) :=
  addf (Host.scatterAdd scatter_S100000_S1250000x1_S1250000_n_0_0_1
      (broadcastInDim S100000 ![] bcast_S_S100000 (constant S_ .f32 0x00000000#32))
      (broadcastInDim S1250000x1 ![0] bcast_S1250000_S1250000x1_0 (dstW (F := F) A))
      (broadcastInDim S1250000 ![] bcast_S_S1250000 (constant S_ .f32 0x3F800000#32)))
    (broadcastInDim S100000 ![] bcast_S_S100000 (constant S_ .f32 0x3F800000#32))

/-- Its inverse square root. -/
def dinvArr (A : (⟨S2x1250000, .i32⟩ : BufTy).Contents (Elt F)) : (⟨S100000, .f32⟩ : BufTy).Contents (Elt F) :=
  Host.rsqrt (degArr (F := F) A)

/-- The source words with a negative word wrapped by the number of nodes. -/
def wrapW (A : (⟨S2x1250000, .i32⟩ : BufTy).Contents (Elt F)) : (⟨S1250000, .i32⟩ : BufTy).Contents (Elt F) :=
  select (cmpi .slt (srcW (F := F) A) (broadcastInDim S1250000 ![] bcast_S_S1250000 (constantI S_ 32 0#32)))
    (addi (srcW (F := F) A) (broadcastInDim S1250000 ![] bcast_S_S1250000 (constantI S_ 32 100000#32))) (srcW (F := F) A)

/-- The messages: each edge's source row of H times the source's factor. -/
def msgArr (A : (⟨S2x1250000, .i32⟩ : BufTy).Contents (Elt F)) (H : (⟨S100000x64, .f32⟩ : BufTy).Contents (Elt F)) :
    (⟨S1250000x64, .f32⟩ : BufTy).Contents (Elt F) :=
  mulf (Host.gather gather_S100000x64_S1250000x1_S1250000x64_1_0_n_n_0_1_164 H
      (broadcastInDim S1250000x1 ![0] bcast_S1250000_S1250000x1_0 (wrapW (F := F) A)))
    (broadcastInDim S1250000x64 ![0, 1] bcast_S1250000x1_S1250000x64_0_1
      (broadcastInDim S1250000x1 ![0] bcast_S1250000_S1250000x1_0
        (Host.gather gather_S100000_S1250000x1_S1250000_n_0_n_n_0_1_1 (dinvArr (F := F) A)
          (broadcastInDim S1250000x1 ![0] bcast_S1250000_S1250000x1_0 (wrapW (F := F) A)))))

/-- The messages summed at their destinations. -/
def esArr (A : (⟨S2x1250000, .i32⟩ : BufTy).Contents (Elt F)) (H : (⟨S100000x64, .f32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 (dstW (F := F) A))
    (msgArr (F := F) A H)

/-- The three branches' factors as the columns of one array. -/
def dcat (A1 A2 A3 : (⟨S2x1250000, .i32⟩ : BufTy).Contents (Elt F)) : (⟨S100000x3, .f32⟩ : BufTy).Contents (Elt F) :=
  concatenate S100000x3 1 [⟨S100000x1, broadcastInDim S100000x1 ![0] bcast_S100000_S100000x1_0 (dinvArr (F := F) A1)⟩,
    ⟨S100000x1, broadcastInDim S100000x1 ![0] bcast_S100000_S100000x1_0 (dinvArr (F := F) A2)⟩,
    ⟨S100000x1, broadcastInDim S100000x1 ![0] bcast_S100000_S100000x1_0 (dinvArr (F := F) A3)⟩]
    concatenates_S100000x1_S100000x1_S100000x1_S100000x3_d1

/-- A bias as a one-row matrix. -/
def brow (b : (⟨S64, .f32⟩ : BufTy).Contents (Elt F)) : (⟨S1x64, .f32⟩ : BufTy).Contents (Elt F) :=
  shapeCast _ b shapeCasts_S64_S1x64

variable (W : Valuation τ sig (Elt F))

set_option maxHeartbeats 4000000 in
/-- The first branch's summed messages. -/
theorem after_v32 : StableHlo.after hostOps1 W (Proc.devRef .tc main_v32)
    = esArr (F := F) (W (Proc.devRef .tc main_arg1)) (W (Proc.devRef .tc main_v1_1)) := by
  unfold esArr msgArr dinvArr degArr wrapW srcW dstW
  after_results_simp <;> rfl

set_option maxHeartbeats 4000000 in
/-- The second branch's summed messages. -/
theorem after_v63 : StableHlo.after hostOps1 W (Proc.devRef .tc main_v63)
    = esArr (F := F) (W (Proc.devRef .tc main_arg2)) (W (Proc.devRef .tc main_v1_2)) := by
  unfold esArr msgArr dinvArr degArr wrapW srcW dstW
  after_results_simp <;> rfl

set_option maxHeartbeats 4000000 in
/-- The third branch's summed messages. -/
theorem after_v94 : StableHlo.after hostOps1 W (Proc.devRef .tc main_v94)
    = esArr (F := F) (W (Proc.devRef .tc main_arg3)) (W (Proc.devRef .tc main_v1_3)) := by
  unfold esArr msgArr dinvArr degArr wrapW srcW dstW
  after_results_simp <;> rfl

set_option maxHeartbeats 4000000 in
/-- The packed factors. -/
theorem after_v98 : StableHlo.after hostOps1 W (Proc.devRef .tc main_v98)
    = dcat (F := F) (W (Proc.devRef .tc main_arg1)) (W (Proc.devRef .tc main_arg2)) (W (Proc.devRef .tc main_arg3)) := by
  unfold dcat dinvArr degArr dstW
  after_results_simp <;> rfl

set_option maxHeartbeats 4000000 in
/-- The three bias rows. -/
theorem after_v99 : StableHlo.after hostOps1 W (Proc.devRef .tc main_v99) = brow (F := F) (W (Proc.devRef .tc main_arg7)) := by
  unfold brow
  after_results_simp <;> rfl
set_option maxHeartbeats 4000000 in
theorem after_v100 : StableHlo.after hostOps1 W (Proc.devRef .tc main_v100) = brow (F := F) (W (Proc.devRef .tc main_arg9)) := by
  unfold brow
  after_results_simp <;> rfl
set_option maxHeartbeats 4000000 in
theorem after_v101 : StableHlo.after hostOps1 W (Proc.devRef .tc main_v101) = brow (F := F) (W (Proc.devRef .tc main_arg11)) := by
  unfold brow
  after_results_simp <;> rfl

set_option maxHeartbeats 4000000 in
/-- The first launch's projected features pass through the host chain unchanged. -/
theorem after_v1_1 : StableHlo.after hostOps1 W (Proc.devRef .tc main_v1_1) = W (Proc.devRef .tc main_v1_1) := by
  after_results_simp <;> rfl
set_option maxHeartbeats 4000000 in
theorem after_v1_2 : StableHlo.after hostOps1 W (Proc.devRef .tc main_v1_2) = W (Proc.devRef .tc main_v1_2) := by
  after_results_simp <;> rfl
set_option maxHeartbeats 4000000 in
theorem after_v1_3 : StableHlo.after hostOps1 W (Proc.devRef .tc main_v1_3) = W (Proc.devRef .tc main_v1_3) := by
  after_results_simp <;> rfl

end Cert.KernelIdeal.HostChain

end
-- ==== Proof.Spec.lean ====
/-
  The mathematics both programs compute, as functions of the argument arrays, entry by entry, on the extended reals.

  A graph-convolution layer on N = 100000 nodes with 64 features and E = 1250000 directed edges (src e → dst e),
  self-loops added:   out = D^{-1/2} (A + I) D^{-1/2} (X W) + b,
  where D is the in-degree of A + I. Entry (n, q):
      deg n  = 1 + #{e : dst e = n}
      dinv n = 1 / sqrt (deg n)
      out n q = Σ_{e : dst e = n} H (src e) q · dinv (src e) · dinv n  +  H n q · dinv n · dinv n  +  b q,   H = X W.
  Edge words are 32-bit integers that nothing constrains: a source word reads the row it names after the
  usual wrap of a negative word by N and a clamp into [0, N-1] (`row`), and an edge contributes to node n exactly
  when its destination word, read as a signed integer, IS n (an edge whose destination names no node is dropped).

  `gcn` below is the form in which the factor dinv n is taken out of the sum over the edges; `gcnRef` is the form
  with the self-loops listed as N further edges (n → n) and the whole coefficient inside the sum. They agree when
  H and dinv are finite (`Algebra`).
-/
import Idealize.ShloMosaic.Lib.ValueIdx
import Idealize.ShloMosaic.PureOps.Ideal.Laws

noncomputable section

namespace Cert.Spec

open Idealize.ShloMosaic Idealize.ShloMosaic.ValueIdx
open scoped BigOperators

/-- The shapes of the arguments, spelt literally. -/
abbrev SX : Shape := ⟨2, ![100000, 64]⟩
abbrev SA : Shape := ⟨2, ![2, 1250000]⟩
abbrev SW : Shape := ⟨2, ![64, 64]⟩
abbrev SB : Shape := ⟨1, ![64]⟩

/-- A negative index word wraps once by the number of nodes. -/
def wrap (v : BitVec 32) : BitVec 32 := if v.slt 0#32 then v + 100000#32 else v

/-- The row a source word reads: wrapped, then clamped into the array. -/
def row (v : BitVec 32) : Fin 100000 := ⟨min (wrap v).toInt.toNat 99999, by omega⟩

/-- The linear layer's entry (n, q): Σ_k X[n, k] · W[k, q]. -/
def lin (X : SX.Idx → EReal) (W : SW.Idx → EReal) (n : Fin 100000) (q : Fin 64) : EReal :=
  ∑ k : Fin 64, X (ix2 n k) * W (ix2 k q)

/-- The first result: the linear layer plus its bias. -/
def dense (X : SX.Idx → EReal) (W : SW.Idx → EReal) (b : SB.Idx → EReal) (n : Fin 100000) (q : Fin 64) : EReal :=
  lin X W n q + b (ix1 q)

/-- The degree of node n in A + I: the number of edges whose destination word is n, plus the self-loop. -/
def deg (A : IVec SA 32) (n : Fin 100000) : EReal :=
  (0 + ∑ e : Fin 1250000, if (A (ix2 (1 : Fin 2) e)).toInt = (n.val : ℤ) then (1 : EReal) else 0) + 1

/-- The inverse square root of the degree. -/
def dinv (A : IVec SA 32) (n : Fin 100000) : EReal := Ideal.rsqrt (deg A n)

/-- The messages of the edges into node n, each scaled by its source's factor only. -/
def agg (A : IVec SA 32) (H : Fin 100000 → Fin 64 → EReal) (n : Fin 100000) (q : Fin 64) : EReal :=
  0 + ∑ e : Fin 1250000, if (A (ix2 (1 : Fin 2) e)).toInt = (n.val : ℤ) then
      H (row (A (ix2 (0 : Fin 2) e))) q * dinv A (row (A (ix2 (0 : Fin 2) e))) else 0

/-- A graph-convolution result, the destination's factor taken out of the sum:
    (Σ_e H (src e) q · dinv (src e)) · dinv n + H n q · (dinv n · dinv n) + b q. -/
def gcn (A : IVec SA 32) (H : Fin 100000 → Fin 64 → EReal) (b : SB.Idx → EReal) (n : Fin 100000) (q : Fin 64) : EReal :=
  (agg A H n q * dinv A n + H n q * (dinv A n * dinv A n)) + b (ix1 q)

/-! ## The same result with the self-loops listed as edges

The second program lists, after the E edges, one further edge n → n per node (positions E … E + N − 1), counts
degrees over the whole list, guards the inverse square root by "degree positive", and keeps the whole coefficient
dinv (src) · dinv (dst) inside the sum. -/

/-- The destination word at position j of the extended edge list. -/
def dstx (A : IVec SA 32) (j : Fin 1350000) : BitVec 32 :=
  if h : j.val < 1250000 then A (ix2 (1 : Fin 2) (⟨j.val, h⟩ : Fin 1250000)) else BitVec.ofNat 32 (j.val - 1250000)

/-- The source word at position j of the extended edge list. -/
def srcx (A : IVec SA 32) (j : Fin 1350000) : BitVec 32 :=
  if h : j.val < 1250000 then A (ix2 (0 : Fin 2) (⟨j.val, h⟩ : Fin 1250000)) else BitVec.ofNat 32 (j.val - 1250000)

/-- The degree counted over the extended list. -/
def degx (A : IVec SA 32) (n : Fin 100000) : EReal :=
  0 + ∑ j : Fin 1350000, if (dstx A j).toInt = (n.val : ℤ) then (1 : EReal) else 0

/-- The guarded inverse square root: zero where the degree is not positive. -/
def dinvx (A : IVec SA 32) (n : Fin 100000) : EReal :=
  if 0 < degx A n then Ideal.rsqrt (degx A n) else 0

/-- The reference's form of a graph-convolution result. -/
def gcnRef (A : IVec SA 32) (H : Fin 100000 → Fin 64 → EReal) (b : SB.Idx → EReal) (n : Fin 100000) (q : Fin 64) : EReal :=
  (0 + ∑ j : Fin 1350000, if (dstx A j).toInt = (n.val : ℤ) then
      H (row (srcx A j)) q * (dinvx A (row (srcx A j)) * dinvx A (row (dstx A j))) else 0) + b (ix1 q)

end Cert.Spec

end
-- ==== Proof.LibScatterRead.lean ====
/-
  The host's accumulating scatter read at one element, for ANY dimension record of the "rows by a column of
  indices" form.

  The scatter indices are an E × 1 array: update e carries ONE signed index z(e). The operand's first axis is the
  one the index names and is not an axis of the updates; every other operand axis is a window axis the update carries
  along unchanged. So update element (e, q…) lands at operand element (z(e), q…) when 0 ≤ z(e) < n and is dropped
  otherwise, and at the ideal instance the result at (i, q…) is the operand's element plus the sum, over the updates
  e with z(e) = i, of the update's element (e, q…). The record is a variable, its fields given by hypotheses, so one
  proof serves every scatter of this form.
-/
import Idealize.ShloMosaic.Lib.ValueIdx
import Idealize.ShloMosaic.PureOps.Ideal.Laws

noncomputable section

namespace Idealize.ShloMosaic.ScatterRead

open Idealize.ShloMosaic Idealize.ShloMosaic.ValueIdx
open scoped BigOperators

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

/-- A one-element list read at any position gives its element. -/
private theorem getElem_of_eq_singleton {β : Type} {l : List β} {x : β} (hl : l = [x]) (k : Nat) (hk : k < l.length) :
    l[k] = x := by
  subst hl
  have hk0 : k = 0 := by simpa using hk
  subst hk0
  rfl

/-- A rank-1 index built from a coordinate has that coordinate, at whatever name of its one axis. -/
private theorem ix1_val {n : ℕ} (e : Fin n) (x : Fin (⟨1, ![n]⟩ : Shape).rank) : (ix1 e x).val = e.val := by
  match x with
  | ⟨0, _⟩ => rfl

/-- An update lands at operand element i exactly when, on every operand axis, its start plus its window
    coordinate IS i's coordinate (being a coordinate of the operand, that is inside it). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hc =>
      have hf := Option.some.inj h
      have ha := congrArg (fun f => (f a).val) hf
      simp only at ha
      have := (hc a).1
      omega
    · exact absurd h (by simp)
  · intro h
    have hc : ∀ a, 0 ≤ d.start j idx a + (d.window j a : ℤ) ∧ d.start j idx a + (d.window j a : ℤ) < s.size a := by
      intro a; rw [h a]; exact ⟨Int.natCast_nonneg _, by exact_mod_cast (i a).isLt⟩
    rw [dif_pos hc]
    congr 1; funext a; apply Fin.ext
    simp only [h a, Int.toNat_natCast]

/-- A rank-1 index set is its one coordinate's range … -/
def idxEquiv1 {n : Nat} : (⟨1, ![n]⟩ : Shape).Idx ≃ Fin n where
  toFun i := i 0
  invFun := ix1
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## One axis: n counters, E updates of one number each -/

section OneAxis
variable {n E : ℕ} (d : ScatterDims (⟨1, ![n]⟩ : Shape) (⟨2, ![E, 1]⟩ : Shape) (⟨1, ![E]⟩ : Shape))

/-- Accumulation into a flat array of counters, u(e) added at position z(e): no window axis, the operand's one axis inserted and named by
    the one-component index vector on the indices' second axis. -/
structure Flat : Prop where
  uw : d.updateWindowDims = []
  iw : d.insertedWindowDims = [0]
  sd : d.scatterDimsToOperandDims = [0]
  iv : d.indexVectorDim = 1

variable {d}

/-- Update e reads its start off the index array at (e, 0). -/
theorem Flat.start_eq (h : Flat d) {w : Nat} (e : Fin E) (idx : IVec (⟨2, ![E, 1]⟩ : Shape) w)
    (a : Fin (⟨1, ![n]⟩ : Shape).rank) : d.start (ix1 e) idx a = (idx (ix2 e (0 : Fin 1))).toInt := by
  obtain rfl : a = 0 := Subsingleton.elim _ _
  have ha : (0 : Fin (⟨1, ![n]⟩ : Shape).rank) ∈ d.scatterDimsToOperandDims := by rw [h.sd]; exact List.mem_singleton.mpr rfl
  have hsi : d.siIdx (ix1 e) ⟨List.idxOf (0 : Fin (⟨1, ![n]⟩ : Shape).rank) d.scatterDimsToOperandDims,
      List.idxOf_lt_length_iff.2 ha⟩ = ix2 e (0 : Fin 1) := by
    funext b
    refine Fin.ext ?_
    match b with
    | ⟨0, _⟩ =>
      unfold ScatterDims.siIdx
      rw [dif_neg (by rw [h.iv]; exact Nat.zero_ne_one)]
      unfold ScatterDims.siCoord
      simp only [Fin.val_cast]
      exact ix1_val e _
    | ⟨1, _⟩ =>
      unfold ScatterDims.siIdx
      rw [dif_pos (by rw [h.iv])]
      simp [h.sd]
  unfold ScatterDims.start
  rw [dif_pos ha, hsi]

/-- No operand axis is a window axis. -/
theorem Flat.window_eq (h : Flat d) (j : (⟨1, ![E]⟩ : Shape).Idx) (a : Fin (⟨1, ![n]⟩ : Shape).rank) :
    d.window j a = 0 := by
  obtain rfl : a = 0 := Subsingleton.elim _ _
  unfold ScatterDims.window
  rw [dif_neg]
  rw [ScatterDims.sKept, h.iw]
  simp [Shape.kept]

/-- Update e lands at counter i exactly when its index, read signed, is i. -/
theorem Flat.resultIdx?_iff (h : Flat d) {w : Nat} (e : Fin E) (idx : IVec (⟨2, ![E, 1]⟩ : Shape) w) (i : Fin n) :
    d.resultIdx? (ix1 e) idx = some (ix1 i) ↔ (idx (ix2 e (0 : Fin 1))).toInt = (i.val : ℤ) := by
  rw [resultIdx?_eq_some_iff]
  constructor
  · intro H
    have := H 0
    rw [h.start_eq, h.window_eq, Nat.cast_zero, add_zero] at this
    exact this
  · intro H a
    obtain rfl : a = 0 := Subsingleton.elim _ _
    rw [h.start_eq, h.window_eq, H, Nat.cast_zero, add_zero]
    rfl

/-- THE ONE-AXIS SCATTER-ADD AT COUNTER i: the operand's element plus the updates whose index is i. -/
theorem Flat.scatterAdd_ix1 (h : Flat d) {φ : FTy} (x : FVec Ideal (⟨1, ![n]⟩ : Shape) φ)
    (idx : IVec (⟨2, ![E, 1]⟩ : Shape) 32) (u : FVec Ideal (⟨1, ![E]⟩ : Shape) φ) (i : Fin n) :
    Host.scatterAdd d x idx u (ix1 i)
      = x (ix1 i) + ∑ e : Fin E, if (idx (ix2 e (0 : Fin 1))).toInt = (i.val : ℤ) then u (ix1 e) else 0 := by
  show x (ix1 i) + ∑ j ∈ Finset.univ.filter (fun j => d.resultIdx? j idx = some (ix1 i)), u j = _
  congr 1
  rw [Finset.sum_filter, sum_idx1]
  refine Finset.sum_congr rfl fun e _ => ?_
  exact if_congr (h.resultIdx?_iff e idx i) rfl rfl

end OneAxis

/-! ## Rows: an n × c operand, E updates of one row of c numbers each -/

section Rows
variable {n c E : ℕ} (d : ScatterDims (⟨2, ![n, c]⟩ : Shape) (⟨2, ![E, 1]⟩ : Shape) (⟨2, ![E, c]⟩ : Shape))

/-- Accumulation of rows, row u(e, ·) added into row z(e) of the operand: the updates' second axis is the one window
    axis and goes to the operand's second axis; the operand's first axis is inserted and named by the one-component
    index vector on the indices' second axis. -/
structure Rows : Prop where
  uw : d.updateWindowDims = [1]
  iw : d.insertedWindowDims = [0]
  sd : d.scatterDimsToOperandDims = [0]
  iv : d.indexVectorDim = 1

variable {d}

/-- On the operand's first axis update (e, q) reads its start off the index array at (e, 0) … -/
theorem Rows.start_zero (h : Rows d) {w : Nat} (e : Fin E) (q : Fin c) (idx : IVec (⟨2, ![E, 1]⟩ : Shape) w) :
    d.start (ix2 e q) idx 0 = (idx (ix2 e (0 : Fin 1))).toInt := by
  have ha : (0 : Fin (⟨2, ![n, c]⟩ : Shape).rank) ∈ d.scatterDimsToOperandDims := by rw [h.sd]; exact List.mem_singleton.mpr rfl
  have hsi : d.siIdx (ix2 e q) ⟨List.idxOf (0 : Fin (⟨2, ![n, c]⟩ : Shape).rank) d.scatterDimsToOperandDims,
      List.idxOf_lt_length_iff.2 ha⟩ = ix2 e (0 : Fin 1) := by
    funext b
    refine Fin.ext ?_
    match b with
    | ⟨0, _⟩ =>
      unfold ScatterDims.siIdx
      rw [dif_neg (by rw [h.iv]; exact Nat.zero_ne_one)]
      unfold ScatterDims.siCoord
      simp only [Fin.val_cast]
      have hu : d.uScatter = [0] := by rw [ScatterDims.uScatter, h.uw]; rfl
      exact val_congr (ix2 e q) _ 0 _ Nat.zero_lt_two (congrArg Fin.val (getElem_of_eq_singleton hu _ _))
    | ⟨1, _⟩ =>
      unfold ScatterDims.siIdx
      rw [dif_pos (by rw [h.iv])]
      simp [h.sd]
  unfold ScatterDims.start
  rw [dif_pos ha, hsi]

/-- … and on the second axis, which the index vector does not name, the start is 0. -/
theorem Rows.start_one (h : Rows d) {w : Nat} (j : (⟨2, ![E, c]⟩ : Shape).Idx) (idx : IVec (⟨2, ![E, 1]⟩ : Shape) w) :
    d.start j idx 1 = 0 := by
  unfold ScatterDims.start
  rw [dif_neg]
  rw [h.sd]
  simp

/-- The operand's first axis is not a window axis … -/
theorem Rows.window_zero (h : Rows d) (j : (⟨2, ![E, c]⟩ : Shape).Idx) : d.window j 0 = 0 := by
  unfold ScatterDims.window
  rw [dif_neg]
  rw [ScatterDims.sKept, h.iw]
  simp [Shape.kept]

/-- … and its second axis carries the update's column. -/
theorem Rows.window_one (h : Rows d) (j : (⟨2, ![E, c]⟩ : Shape).Idx) : d.window j 1 = (j 1).val := by
  have ha : (1 : Fin (⟨2, ![n, c]⟩ : Shape).rank) ∈ d.sKept := by rw [ScatterDims.sKept, h.iw]; simp [Shape.kept]
  unfold ScatterDims.window
  rw [dif_pos ha]
  exact val_congr j _ 1 _ Nat.one_lt_two (congrArg Fin.val (getElem_of_eq_singleton h.uw _ _))

/-- Update element (e, q') lands at operand element (i, q) exactly when update e's index, read signed, is i and the
    columns agree. -/
theorem Rows.resultIdx?_iff (h : Rows d) {w : Nat} (e : Fin E) (q' : Fin c) (idx : IVec (⟨2, ![E, 1]⟩ : Shape) w)
    (i : Fin n) (q : Fin c) :
    d.resultIdx? (ix2 e q') idx = some (ix2 i q) ↔ (idx (ix2 e (0 : Fin 1))).toInt = (i.val : ℤ) ∧ q' = q := by
  rw [resultIdx?_eq_some_iff]
  constructor
  · intro H
    have H0 := H 0
    have H1 := H 1
    rw [h.start_zero, h.window_zero, Nat.cast_zero, add_zero] at H0
    rw [h.start_one, h.window_one, zero_add] at H1
    exact ⟨H0, Fin.ext (by exact_mod_cast H1)⟩
  · rintro ⟨H, rfl⟩ a
    match a with
    | ⟨0, _⟩ =>
      show d.start (ix2 e q') idx 0 + ((d.window (ix2 e q') 0 : ℕ) : ℤ) = _
      rw [h.start_zero, h.window_zero, H, Nat.cast_zero, add_zero]
    | ⟨1, _⟩ =>
      show d.start (ix2 e q') idx 1 + ((d.window (ix2 e q') 1 : ℕ) : ℤ) = _
      rw [h.start_one, h.window_one, zero_add]
      rfl

/-- THE ROWS SCATTER-ADD AT ELEMENT (i, q): the operand's element plus, over the updates whose index is i, their
    element in column q. -/
theorem Rows.scatterAdd_ix2 (h : Rows d) {φ : FTy} (x : FVec Ideal (⟨2, ![n, c]⟩ : Shape) φ)
    (idx : IVec (⟨2, ![E, 1]⟩ : Shape) 32) (u : FVec Ideal (⟨2, ![E, c]⟩ : Shape) φ) (i : Fin n) (q : Fin c) :
    Host.scatterAdd d x idx u (ix2 i q)
      = x (ix2 i q) + ∑ e : Fin E, if (idx (ix2 e (0 : Fin 1))).toInt = (i.val : ℤ) then u (ix2 e q) else 0 := by
  show x (ix2 i q) + ∑ j ∈ Finset.univ.filter (fun j => d.resultIdx? j idx = some (ix2 i q)), u j = _
  congr 1
  rw [Finset.sum_filter, sum_idx2]
  refine Finset.sum_congr rfl fun e _ => ?_
  by_cases hz : (idx (ix2 e (0 : Fin 1))).toInt = (i.val : ℤ)
  · rw [if_pos hz, Finset.sum_eq_single q]
    · rw [if_pos ((h.resultIdx?_iff e q idx i q).mpr ⟨hz, rfl⟩)]
    · intro q' _ hq
      rw [if_neg fun H => hq ((h.resultIdx?_iff e q' idx i q).mp H).2]
    · intro hq
      exact absurd (Finset.mem_univ q) hq
  · rw [if_neg hz]
    exact Finset.sum_eq_zero fun q' _ => if_neg fun H => hz ((h.resultIdx?_iff e q' idx i q).mp H).1

end Rows

end Idealize.ShloMosaic.ScatterRead
-- ==== Proof.LibGatherRead.lean ====
/-
  The host's gather read at one element, for ANY dimension record of the "rows picked by a column of indices" form.

  The start indices are an E × 1 array: result row e carries ONE signed index z(e). The operand's first axis is the one
  the index names; it is collapsed (a slice of one row), every other operand axis is taken whole. The start is read as
  a signed integer and clamped into [0, n − 1], as a gather clamps every start index so that the slice fits: a negative
  index reads row 0, one at or past n reads row n − 1. So result element (e, q…) is the operand's element
  (min (max z(e) 0) (n − 1), q…). The record is a variable, its fields given by hypotheses, so one proof serves every
  gather of this form.
-/
import Idealize.ShloMosaic.Lib.ValueIdx

noncomputable section

namespace Idealize.ShloMosaic.GatherRead

open Idealize.ShloMosaic Idealize.ShloMosaic.ValueIdx

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

/-- A one-element list read at any position gives its element. -/
private theorem getElem_of_eq_singleton {β : Type} {l : List β} {x : β} (hl : l = [x]) (k : Nat) (hk : k < l.length) :
    l[k] = x := by
  subst hl
  have hk0 : k = 0 := by simpa using hk
  subst hk0
  rfl

/-- A rank-1 index built from a coordinate has that coordinate, at whatever name of its one axis. -/
private theorem ix1_val {n : ℕ} (e : Fin n) (x : Fin (⟨1, ![n]⟩ : Shape).rank) : (ix1 e x).val = e.val := by
  match x with
  | ⟨0, _⟩ => rfl

/-! ## One axis: a flat table of n entries, E lookups -/

section OneAxis
variable {α : Type} {n E : ℕ} (d : GatherDims (⟨1, ![n]⟩ : Shape) (⟨2, ![E, 1]⟩ : Shape) (⟨1, ![E]⟩ : Shape))

/-- A lookup x[z(e)] in a flat table: no offset axis, the operand's one axis collapsed (a slice of one entry)
    and named by the one-component index vector on the indices' second axis, no batching. -/
structure Flat : Prop where
  od : d.offsetDims = []
  cs : d.collapsedSliceDims = [0]
  ob : d.operandBatchingDims = []
  sim : d.startIndexMap = [0]
  iv : d.indexVectorDim = 1
  ss : d.sliceSizes 0 = 1

variable {d}

/-- Lookup e reads its start off the index array at (e, 0), signed, and clamps it into the table. -/
theorem Flat.start_eq (h : Flat d) {w : Nat} (e : Fin E) (idx : IVec (⟨2, ![E, 1]⟩ : Shape) w) :
    d.start (ix1 e) idx 0 = min (idx (ix2 e (0 : Fin 1))).toInt.toNat (n - 1) := by
  have ha : (0 : Fin (⟨1, ![n]⟩ : Shape).rank) ∈ d.startIndexMap := by rw [h.sim]; exact List.mem_singleton.mpr rfl
  have hsi : d.siIdx (ix1 e) ⟨List.idxOf (0 : Fin (⟨1, ![n]⟩ : Shape).rank) d.startIndexMap,
      List.idxOf_lt_length_iff.2 ha⟩ = ix2 e (0 : Fin 1) := by
    funext b
    refine Fin.ext ?_
    match b with
    | ⟨0, _⟩ =>
      unfold GatherDims.siIdx
      rw [dif_neg (by rw [h.iv]; exact Nat.zero_ne_one)]
      unfold GatherDims.siCoord
      simp only [Fin.val_cast]
      exact ix1_val e _
    | ⟨1, _⟩ =>
      unfold GatherDims.siIdx
      rw [dif_pos (by rw [h.iv])]
      simp [h.sim]
  unfold GatherDims.start
  rw [dif_pos ha, hsi, h.ss]
  rfl

/-- THE ONE-AXIS GATHER AT LOOKUP e: the table at the index, read signed and clamped into [0, n − 1]. -/
theorem Flat.gather_ix1 (h : Flat d) (hn : 0 < n) {w : Nat} (x : (⟨1, ![n]⟩ : Shape).Idx → α)
    (idx : IVec (⟨2, ![E, 1]⟩ : Shape) w) (e : Fin E) :
    Host.gather d x idx (ix1 e) = x (ix1 ⟨min (idx (ix2 e (0 : Fin 1))).toInt.toNat (n - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [GatherDims.batchCoord_eq_zero _ _ _ (by rw [h.ob]; exact List.not_mem_nil),
    GatherDims.offCoord_eq_zero _ _ _ (fun hk => ((GatherDims.mem_sKept _ _).mp hk).1 (by rw [h.cs]; exact List.mem_singleton.mpr rfl)),
    h.start_eq]
  rfl

end OneAxis

/-! ## Rows: an n × c table, E lookups of one row each -/

section Rows
variable {α : Type} {n c E : ℕ} (d : GatherDims (⟨2, ![n, c]⟩ : Shape) (⟨2, ![E, 1]⟩ : Shape) (⟨2, ![E, c]⟩ : Shape))

/-- A lookup of whole rows, x[z(e), ·]: the result's second axis is the one offset axis and reads the operand's second
    axis; the operand's first axis is collapsed (a slice of one row) and named by the one-component index vector on the
    indices' second axis; no batching. -/
structure Rows : Prop where
  od : d.offsetDims = [1]
  cs : d.collapsedSliceDims = [0]
  ob : d.operandBatchingDims = []
  sim : d.startIndexMap = [0]
  iv : d.indexVectorDim = 1
  ss : d.sliceSizes 0 = 1

variable {d}

/-- On the operand's first axis result element (e, q) reads its start off the index array at (e, 0), signed, and clamps
    it into the table … -/
theorem Rows.start_zero (h : Rows d) {w : Nat} (e : Fin E) (q : Fin c) (idx : IVec (⟨2, ![E, 1]⟩ : Shape) w) :
    d.start (ix2 e q) idx 0 = min (idx (ix2 e (0 : Fin 1))).toInt.toNat (n - 1) := by
  have ha : (0 : Fin (⟨2, ![n, c]⟩ : Shape).rank) ∈ d.startIndexMap := by rw [h.sim]; exact List.mem_singleton.mpr rfl
  have hsi : d.siIdx (ix2 e q) ⟨List.idxOf (0 : Fin (⟨2, ![n, c]⟩ : Shape).rank) d.startIndexMap,
      List.idxOf_lt_length_iff.2 ha⟩ = ix2 e (0 : Fin 1) := by
    funext b
    refine Fin.ext ?_
    match b with
    | ⟨0, _⟩ =>
      unfold GatherDims.siIdx
      rw [dif_neg (by rw [h.iv]; exact Nat.zero_ne_one)]
      unfold GatherDims.siCoord
      simp only [Fin.val_cast]
      have hu : d.batchDims = [0] := by rw [GatherDims.batchDims, h.od]; rfl
      exact val_congr (ix2 e q) _ 0 _ Nat.zero_lt_two (congrArg Fin.val (getElem_of_eq_singleton hu _ _))
    | ⟨1, _⟩ =>
      unfold GatherDims.siIdx
      rw [dif_pos (by rw [h.iv])]
      simp [h.sim]
  unfold GatherDims.start
  rw [dif_pos ha, hsi, h.ss]
  rfl

/-- … and on the second axis, which the index vector does not name, the start is 0. -/
theorem Rows.start_one (h : Rows d) {w : Nat} (j : (⟨2, ![E, c]⟩ : Shape).Idx) (idx : IVec (⟨2, ![E, 1]⟩ : Shape) w) :
    d.start j idx 1 = 0 := by
  unfold GatherDims.start
  rw [dif_neg]
  rw [h.sim]
  simp

/-- The operand's second axis is read at the result's column. -/
theorem Rows.offCoord_one (h : Rows d) (j : (⟨2, ![E, c]⟩ : Shape).Idx) : d.offCoord j 1 = (j 1).val := by
  have ha : (1 : Fin (⟨2, ![n, c]⟩ : Shape).rank) ∈ d.sKept := by
    rw [GatherDims.mem_sKept, h.cs, h.ob]; simp
  unfold GatherDims.offCoord
  rw [dif_pos ha]
  exact val_congr j _ 1 _ Nat.one_lt_two (congrArg Fin.val (getElem_of_eq_singleton h.od _ _))

/-- THE ROWS GATHER AT ELEMENT (e, q): the table's column q in the row at the index, read signed and clamped into
    [0, n − 1]. -/
theorem Rows.gather_ix2 (h : Rows d) (hn : 0 < n) {w : Nat} (x : (⟨2, ![n, c]⟩ : Shape).Idx → α)
    (idx : IVec (⟨2, ![E, 1]⟩ : Shape) w) (e : Fin E) (q : Fin c) :
    Host.gather d x idx (ix2 e q) = x (ix2 ⟨min (idx (ix2 e (0 : Fin 1))).toInt.toNat (n - 1), by omega⟩ q) := by
  unfold Host.gather
  congr 1
  funext a
  refine Fin.ext ?_
  match a with
  | ⟨0, _⟩ =>
    show d.start (ix2 e q) idx 0 + d.batchCoord (ix2 e q) 0 + d.offCoord (ix2 e q) 0 = _
    rw [GatherDims.batchCoord_eq_zero _ _ _ (by rw [h.ob]; exact List.not_mem_nil),
      GatherDims.offCoord_eq_zero _ _ _ (fun hk => ((GatherDims.mem_sKept _ _).mp hk).1 (by rw [h.cs]; exact List.mem_singleton.mpr rfl)),
      h.start_zero]
    rfl
  | ⟨1, _⟩ =>
    show d.start (ix2 e q) idx 1 + d.batchCoord (ix2 e q) 1 + d.offCoord (ix2 e q) 1 = _
    rw [GatherDims.batchCoord_eq_zero _ _ _ (by rw [h.ob]; exact List.not_mem_nil), h.start_one, h.offCoord_one,
      Nat.add_zero, Nat.zero_add]
    rfl

end Rows

end Idealize.ShloMosaic.GatherRead
-- ==== Proof.LibConcatRead.lean ====
/-
  A concatenation read at one element, in the two forms a graph program over an edge list uses, and an iota.

  Two flat arrays laid end to end: position j of the result is position j of the first array when j is below the
  first array's length E, and position j − E of the second otherwise. Three one-column arrays laid side by side:
  column k of the result is the k-th array's only column. An iota along an axis holds, at every index, that index's
  coordinate on the axis as a machine word. None of these enumerates an axis: each is the library's reading of a
  concatenation at the index of one piece, the coordinates matched by arithmetic.
-/
import Idealize.ShloMosaic.Lib.ValueIdx
import Idealize.ShloMosaic.Lib.Pipeline.Value

noncomputable section

namespace Idealize.ShloMosaic.ConcatRead

open Idealize.ShloMosaic Idealize.ShloMosaic.ValueIdx

variable {α : Type}

/-! ## Two flat arrays end to end -/

/-- Position j of "a then b": a at j below a's length E, else b at j − E. The total length m is E + n. -/
theorem concat2_ix1 {E n m : ℕ} (hm : m = E + n) (a : (⟨1, ![E]⟩ : Shape).Idx → α) (b : (⟨1, ![n]⟩ : Shape).Idx → α)
    (h : Shape.Concatenates [(⟨1, ![E]⟩ : Shape), (⟨1, ![n]⟩ : Shape)] (⟨1, ![m]⟩ : Shape) 0) (j : Fin m) :
    concatenate (⟨1, ![m]⟩ : Shape) 0 [⟨(⟨1, ![E]⟩ : Shape), a⟩, ⟨(⟨1, ![n]⟩ : Shape), b⟩] h (ix1 j)
      = if hj : j.val < E then a (ix1 ⟨j.val, hj⟩) else b (ix1 ⟨j.val - E, by have := j.isLt; omega⟩) := by
  by_cases hj : j.val < E
  · rw [dif_pos hj]
    refine concatenate_pair_apply_left 0 a b h (ix1 j) rfl (ix1 ⟨j.val, hj⟩) fun c => ?_
    obtain rfl : c = 0 := Subsingleton.elim _ _
    rfl
  · rw [dif_neg hj]
    refine concatenate_pair_apply_right 0 a b h (ix1 j) rfl rfl (ix1 ⟨j.val - E, by have := j.isLt; omega⟩)
      (fun c hc => absurd (Subsingleton.elim _ _) hc) ?_
    show j.val - E + E = j.val
    omega

/-! ## Three one-column arrays side by side -/

section Columns
variable {n : ℕ} (u0 u1 u2 : (⟨2, ![n, 1]⟩ : Shape).Idx → α)
  (h : Shape.Concatenates [(⟨2, ![n, 1]⟩ : Shape), (⟨2, ![n, 1]⟩ : Shape), (⟨2, ![n, 1]⟩ : Shape)] (⟨2, ![n, 3]⟩ : Shape) 1)

/-- Column 0 of the three columns side by side is the first array. -/
theorem concat3_col0 (i : Fin n) :
    concatenate (⟨2, ![n, 3]⟩ : Shape) 1 [⟨(⟨2, ![n, 1]⟩ : Shape), u0⟩, ⟨(⟨2, ![n, 1]⟩ : Shape), u1⟩, ⟨(⟨2, ![n, 1]⟩ : Shape), u2⟩] h
      (ix2 i (0 : Fin 3)) = u0 (ix2 i (0 : Fin 1)) := by
  refine concatenate_apply_piece (t := (⟨2, ![n, 3]⟩ : Shape)) 1
    [⟨(⟨2, ![n, 1]⟩ : Shape), u0⟩, ⟨(⟨2, ![n, 1]⟩ : Shape), u1⟩, ⟨(⟨2, ![n, 1]⟩ : Shape), u2⟩] h (ix2 i (0 : Fin 3)) 0 (by simp) _ u0 rfl rfl 0 rfl (ix2 i (0 : Fin 1)) (fun c hc => ?_) rfl
  match c with
  | ⟨0, _⟩ => rfl
  | ⟨1, _⟩ => exact absurd rfl hc

/-- Column 1 of the three columns side by side is the second array. -/
theorem concat3_col1 (i : Fin n) :
    concatenate (⟨2, ![n, 3]⟩ : Shape) 1 [⟨(⟨2, ![n, 1]⟩ : Shape), u0⟩, ⟨(⟨2, ![n, 1]⟩ : Shape), u1⟩, ⟨(⟨2, ![n, 1]⟩ : Shape), u2⟩] h
      (ix2 i (1 : Fin 3)) = u1 (ix2 i (0 : Fin 1)) := by
  refine concatenate_apply_piece (t := (⟨2, ![n, 3]⟩ : Shape)) 1
    [⟨(⟨2, ![n, 1]⟩ : Shape), u0⟩, ⟨(⟨2, ![n, 1]⟩ : Shape), u1⟩, ⟨(⟨2, ![n, 1]⟩ : Shape), u2⟩] h (ix2 i (1 : Fin 3)) 1 (by simp) _ u1 rfl rfl 1 rfl (ix2 i (0 : Fin 1)) (fun c hc => ?_) rfl
  match c with
  | ⟨0, _⟩ => rfl
  | ⟨1, _⟩ => exact absurd rfl hc

/-- Column 2 of the three columns side by side is the third array. -/
theorem concat3_col2 (i : Fin n) :
    concatenate (⟨2, ![n, 3]⟩ : Shape) 1 [⟨(⟨2, ![n, 1]⟩ : Shape), u0⟩, ⟨(⟨2, ![n, 1]⟩ : Shape), u1⟩, ⟨(⟨2, ![n, 1]⟩ : Shape), u2⟩] h
      (ix2 i (2 : Fin 3)) = u2 (ix2 i (0 : Fin 1)) := by
  refine concatenate_apply_piece (t := (⟨2, ![n, 3]⟩ : Shape)) 1
    [⟨(⟨2, ![n, 1]⟩ : Shape), u0⟩, ⟨(⟨2, ![n, 1]⟩ : Shape), u1⟩, ⟨(⟨2, ![n, 1]⟩ : Shape), u2⟩] h (ix2 i (2 : Fin 3)) 2 (by simp) _ u2 rfl rfl 2 rfl (ix2 i (0 : Fin 1)) (fun c hc => ?_) rfl
  match c with
  | ⟨0, _⟩ => rfl
  | ⟨1, _⟩ => exact absurd rfl hc

end Columns

/-! ## An iota -/

/-- The iota of a flat array holds at position i the word of i. -/
theorem iota_ix1 {n : ℕ} (w : ℕ) (i : Fin n) : iotaInDim (⟨1, ![n]⟩ : Shape) w 0 (ix1 i) = BitVec.ofNat w i.val := rfl

end Idealize.ShloMosaic.ConcatRead
-- ==== Proof.KHostRead.lean ====
/-
  The kernel program's host chain read at an index, at the ideal instance: each named stage is the specification's function.

  The degree array at node n is (0 + the number of edges whose destination word is n) + 1; its inverse square root is the
  node's factor; a wrapped source word is the specification's wrap of the word; column k of the packed factors is branch
  k's factor; a bias row at (0, q) is the bias at q; a message at (e, q) is the source row's feature times the source's
  factor; and the summed messages at (n, q) are the sum over the edges into n.
-/
import proofs.«157301_j41343355191554_2_alg».proof.Proof.KHost
import proofs.«157301_j41343355191554_2_alg».proof.Proof.Spec
import proofs.«157301_j41343355191554_2_alg».proof.Proof.LibScatterRead
import proofs.«157301_j41343355191554_2_alg».proof.Proof.LibGatherRead
import proofs.«157301_j41343355191554_2_alg».proof.Proof.LibConcatRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostRead

open Cert.KernelIdeal Cert.KernelIdeal.Gen Cert.KernelIdeal.HostChain Idealize.ShloMosaic Idealize.ShloMosaic.ValueIdx
open scoped BigOperators

/-! ## Constants and layout -/

/-- The word 0x3F800000 denotes one. -/
theorem ofBits_one : Ideal.ofBits .f32 0x3F800000#32 = 1 := by
  simp [Ideal.ofBits, Ideal.ieee, -EReal.coe_mul]; norm_num

/-- The one constant of rank 0 broadcast to any shape reads one everywhere. -/
theorem ones_apply {s : Shape} (h : (⟨0, ![]⟩ : Shape).BroadcastsInDim s ![]) (j : s.Idx) :
    broadcastInDim s ![] h (constant (F := Ideal) ⟨0, ![]⟩ .f32 0x3F800000#32) j = 1 := by
  rw [broadcastInDim_apply _ h _ j ix0 (fun a => a.elim0)]
  exact ofBits_one

/-- The zero constant likewise reads zero. -/
theorem zeros_apply {s : Shape} (h : (⟨0, ![]⟩ : Shape).BroadcastsInDim s ![]) (j : s.Idx) :
    broadcastInDim s ![] h (constant (F := Ideal) ⟨0, ![]⟩ .f32 0x00000000#32) j = 0 := by
  rw [broadcastInDim_apply _ h _ j ix0 (fun a => a.elim0)]
  exact Ideal.ofBits_zero_f32

/-- An integer constant of rank 0 broadcast to any shape reads the constant. -/
theorem constI_apply {s : Shape} {w : ℕ} (b : BitVec w) (h : (⟨0, ![]⟩ : Shape).BroadcastsInDim s ![]) (j : s.Idx) :
    broadcastInDim s ![] h (constantI ⟨0, ![]⟩ w b) j = b := by
  rw [broadcastInDim_apply _ h _ j ix0 (fun a => a.elim0)]
  rfl

/-- A vector of E entries as a column reads, at (e, 0), the vector at e. -/
theorem col_apply {α : Type} (x : S1250000.Idx → α) (e : Fin 1250000) :
    broadcastInDim S1250000x1 ![0] bcast_S1250000_S1250000x1_0 x (ix2 e (0 : Fin 1)) = x (ix1 e) :=
  broadcastInDim_apply _ _ x _ (ix1 e) (fun a => by
    match a with
    | ⟨0, _⟩ => show e.val = if (1250000 : ℕ) = 1 then 0 else e.val; rw [if_neg (by decide)])

/-- The source word of edge e. -/
theorem srcW_apply (A : S2x1250000.Idx → BitVec 32) (e : Fin 1250000) :
    srcW (F := Ideal) A (ix1 e) = A (ix2 (0 : Fin 2) e) := by
  unfold srcW
  rw [shapeCast_apply _ shapeCasts_S1x1250000_S1250000 (ix1 e) (ix2 (0 : Fin 1) e)
    (by rw [Shape.rowMajor_val_two, Shape.rowMajor_val_one]; show 0 * 1250000 + e.val = e.val; omega)]
  exact extractStridedSlice_apply _ A _ _ (ix2 (0 : Fin 2) e) (fun a => by
    match a with
    | ⟨0, _⟩ => rfl
    | ⟨1, _⟩ => show e.val = 0 + e.val; omega)

/-- The destination word of edge e. -/
theorem dstW_apply (A : S2x1250000.Idx → BitVec 32) (e : Fin 1250000) :
    dstW (F := Ideal) A (ix1 e) = A (ix2 (1 : Fin 2) e) := by
  unfold dstW
  rw [shapeCast_apply _ shapeCasts_S1x1250000_S1250000 (ix1 e) (ix2 (0 : Fin 1) e)
    (by rw [Shape.rowMajor_val_two, Shape.rowMajor_val_one]; show 0 * 1250000 + e.val = e.val; omega)]
  exact extractStridedSlice_apply _ A _ _ (ix2 (1 : Fin 2) e) (fun a => by
    match a with
    | ⟨0, _⟩ => rfl
    | ⟨1, _⟩ => show e.val = 0 + e.val; omega)

/-! ## Degrees and factors -/

/-- The degree array at node n is the specification's degree. -/
theorem degArr_apply (A : S2x1250000.Idx → BitVec 32) (n : Fin 100000) :
    degArr (F := Ideal) A (ix1 n) = Cert.Spec.deg A n := by
  unfold degArr Cert.Spec.deg
  rw [addf_apply, ScatterRead.Flat.scatterAdd_ix1 ⟨rfl, rfl, rfl, rfl⟩, zeros_apply, ones_apply]
  refine congrArg (fun s : EReal => (0 + s) + 1) (Finset.sum_congr rfl fun e _ => ?_)
  rw [col_apply, dstW_apply, ones_apply]

/-- The host's inverse square root of an array, at an index, is the inverse square root of the entry. -/
theorem rsqrt_apply {s : Shape} (x : FVec Ideal s .f32) (i : s.Idx) : Host.rsqrt x i = Ideal.rsqrt (x i) := rfl

/-- The factor array at node n is the specification's factor. -/
theorem dinvArr_apply (A : S2x1250000.Idx → BitVec 32) (n : Fin 100000) :
    dinvArr (F := Ideal) A (ix1 n) = Cert.Spec.dinv A n := by
  unfold dinvArr Cert.Spec.dinv
  rw [rsqrt_apply, degArr_apply]

/-- A wrapped source word is the specification's wrap of the word. -/
theorem wrapW_apply (A : S2x1250000.Idx → BitVec 32) (e : Fin 1250000) :
    wrapW (F := Ideal) A (ix1 e) = Cert.Spec.wrap (A (ix2 (0 : Fin 2) e)) := by
  unfold wrapW Cert.Spec.wrap
  rw [select_apply]
  show Scalar.select (IntOp.cmpi .slt (srcW (F := Ideal) A (ix1 e)) (broadcastInDim S1250000 ![] bcast_S_S1250000 (constantI S_ 32 0#32) (ix1 e)))
      (IntOp.addi (srcW (F := Ideal) A (ix1 e)) (broadcastInDim S1250000 ![] bcast_S_S1250000 (constantI S_ 32 100000#32) (ix1 e)))
      (srcW (F := Ideal) A (ix1 e)) = _
  rw [srcW_apply, constI_apply, constI_apply]
  unfold Scalar.select IntOp.cmpi IntOp.addi
  cases h : (A (ix2 (0 : Fin 2) e)).slt 0#32 <;> simp [h]

/-- Column k of the packed factors is branch k's factor. -/
theorem dcat_col0 (A1 A2 A3 : S2x1250000.Idx → BitVec 32) (n : Fin 100000) :
    dcat (F := Ideal) A1 A2 A3 (ix2 n (0 : Fin 3)) = Cert.Spec.dinv A1 n := by
  unfold dcat
  rw [ConcatRead.concat3_col0]
  rw [broadcastInDim_apply _ bcast_S100000_S100000x1_0 _ _ (ix1 n) (fun a => by
    match a with
    | ⟨0, _⟩ => show n.val = if (100000 : ℕ) = 1 then 0 else n.val; rw [if_neg (by decide)])]
  exact dinvArr_apply A1 n
theorem dcat_col1 (A1 A2 A3 : S2x1250000.Idx → BitVec 32) (n : Fin 100000) :
    dcat (F := Ideal) A1 A2 A3 (ix2 n (1 : Fin 3)) = Cert.Spec.dinv A2 n := by
  unfold dcat
  rw [ConcatRead.concat3_col1]
  rw [broadcastInDim_apply _ bcast_S100000_S100000x1_0 _ _ (ix1 n) (fun a => by
    match a with
    | ⟨0, _⟩ => show n.val = if (100000 : ℕ) = 1 then 0 else n.val; rw [if_neg (by decide)])]
  exact dinvArr_apply A2 n
theorem dcat_col2 (A1 A2 A3 : S2x1250000.Idx → BitVec 32) (n : Fin 100000) :
    dcat (F := Ideal) A1 A2 A3 (ix2 n (2 : Fin 3)) = Cert.Spec.dinv A3 n := by
  unfold dcat
  rw [ConcatRead.concat3_col2]
  rw [broadcastInDim_apply _ bcast_S100000_S100000x1_0 _ _ (ix1 n) (fun a => by
    match a with
    | ⟨0, _⟩ => show n.val = if (100000 : ℕ) = 1 then 0 else n.val; rw [if_neg (by decide)])]
  exact dinvArr_apply A3 n

/-- A bias row at (0, q) is the bias at q. -/
theorem brow_apply (b : S64.Idx → EReal) (q : Fin 64) : brow (F := Ideal) b (ix2 (0 : Fin 1) q) = b (ix1 q) := by
  unfold brow
  exact shapeCast_apply b shapeCasts_S64_S1x64 _ (ix1 q)
    (by rw [Shape.rowMajor_val_two, Shape.rowMajor_val_one]; show q.val = 0 * 64 + q.val; omega)

/-! ## Messages and their sums -/

/-- A column of E entries spread over 64 columns reads, at (e, q), the column's entry at (e, 0). -/
theorem spread_apply {α : Type} (x : S1250000x1.Idx → α) (e : Fin 1250000) (q : Fin 64) :
    broadcastInDim S1250000x64 ![0, 1] bcast_S1250000x1_S1250000x64_0_1 x (ix2 e q) = x (ix2 e (0 : Fin 1)) :=
  broadcastInDim_apply _ _ x _ (ix2 e (0 : Fin 1)) (fun a => by
    match a with
    | ⟨0, _⟩ => show e.val = if (1250000 : ℕ) = 1 then 0 else e.val; rw [if_neg (by decide)]
    | ⟨1, _⟩ => show (0 : ℕ) = if (1 : ℕ) = 1 then 0 else q.val; rw [if_pos rfl])

/-- The clamped row of a wrapped source word, read off the column of wrapped words, is the specification's row. -/
theorem row_col (A : S2x1250000.Idx → BitVec 32) (e : Fin 1250000)
    (h : min (broadcastInDim S1250000x1 ![0] bcast_S1250000_S1250000x1_0 (wrapW (F := Ideal) A) (ix2 e (0 : Fin 1))).toInt.toNat (100000 - 1) < 100000) :
    (⟨min (broadcastInDim S1250000x1 ![0] bcast_S1250000_S1250000x1_0 (wrapW (F := Ideal) A) (ix2 e (0 : Fin 1))).toInt.toNat (100000 - 1), h⟩ : Fin 100000)
      = Cert.Spec.row (A (ix2 (0 : Fin 2) e)) := by
  refine Fin.ext ?_
  show min (broadcastInDim S1250000x1 ![0] bcast_S1250000_S1250000x1_0 (wrapW (F := Ideal) A) (ix2 e (0 : Fin 1))).toInt.toNat (100000 - 1)
    = min (Cert.Spec.wrap (A (ix2 (0 : Fin 2) e))).toInt.toNat 99999
  rw [col_apply, wrapW_apply]

/-- A message at (e, q): the source row's feature q times the source's factor. -/
theorem msgArr_apply (A : S2x1250000.Idx → BitVec 32) (H : S100000x64.Idx → EReal) (e : Fin 1250000) (q : Fin 64) :
    msgArr (F := Ideal) A H (ix2 e q)
      = H (ix2 (Cert.Spec.row (A (ix2 (0 : Fin 2) e))) q) * Cert.Spec.dinv A (Cert.Spec.row (A (ix2 (0 : Fin 2) e))) := by
  unfold msgArr
  rw [mulf_apply,
    GatherRead.Rows.gather_ix2 (d := gather_S100000x64_S1250000x1_S1250000x64_1_0_n_n_0_1_164) ⟨rfl, rfl, rfl, rfl, rfl, rfl⟩ (by norm_num),
    row_col, spread_apply, col_apply,
    GatherRead.Flat.gather_ix1 (d := gather_S100000_S1250000x1_S1250000_n_0_n_n_0_1_1) ⟨rfl, rfl, rfl, rfl, rfl, rfl⟩ (by norm_num),
    row_col, dinvArr_apply]

/-- The summed messages at (n, q): the sum, over the edges into n, of their messages. -/
theorem esArr_apply (A : S2x1250000.Idx → BitVec 32) (H : S100000x64.Idx → EReal) (n : Fin 100000) (q : Fin 64) :
    esArr (F := Ideal) A H (ix2 n q) = Cert.Spec.agg A (fun n q => H (ix2 n q)) n q := by
  unfold esArr Cert.Spec.agg
  rw [ScatterRead.Rows.scatterAdd_ix2 (d := scatter_S100000x64_S1250000x1_S1250000x64_1_0_0_1) ⟨rfl, rfl, rfl, rfl⟩, zeros_apply]
  refine congrArg (fun s : EReal => 0 + s) (Finset.sum_congr rfl fun e _ => ?_)
  rw [col_apply, dstW_apply, msgArr_apply]

end Cert.KernelIdeal.HostRead

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KPayload.lean ====
/-
  The two kernel bodies' stored values read at one entry, at the ideal instance (floats are extended reals and every
  operation is exact).

  The first body stores four matrix products of a 5000 × 64 block of rows with a 64 × 64 matrix, the first with a
  one-row bias added to every row. The second body stores, for each of three branches, a block of rows scaled by a
  column d, plus another block scaled by d², plus a one-row bias.
-/
import proofs.«157301_j41343355191554_2_alg».proof.Proof.Gen.KernelIdeal.Skeleton
import proofs.«157301_j41343355191554_2_alg».proof.Proof.LibMatmulRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadRead

open Idealize.ShloMosaic Idealize.ShloMosaic.ValueIdx Idealize.SL.Sem
open scoped BigOperators

/-! ## Layout operations of the bodies, read at an entry -/

/-- A one-row matrix spread over 5000 rows reads, at `(p, q)`, the row at `q`. -/
theorem row_broadcast_apply {α : Type} (x : S1x64.Idx → α) (h : S1x64.Broadcasts S5000x64) (p : Fin 5000) (q : Fin 64) :
    broadcastTo S5000x64 x h (ix2 p q) = x (ix2 (0 : Fin 1) q) :=
  broadcastTo_apply x h (ix2 p q) (ix2 (0 : Fin 1) q) (fun a => by
    match a with
    | ⟨0, _⟩ => rfl
    | ⟨1, _⟩ => rfl)

/-- A one-column matrix spread over 64 columns reads, at `(p, q)`, the column at `p`. -/
theorem col_broadcast_apply {α : Type} (x : S5000x1.Idx → α) (h : S5000x1.Broadcasts S5000x64) (p : Fin 5000) (q : Fin 64) :
    broadcastTo S5000x64 x h (ix2 p q) = x (ix2 p (0 : Fin 1)) :=
  broadcastTo_apply x h (ix2 p q) (ix2 p (0 : Fin 1)) (fun a => by
    match a with
    | ⟨0, _⟩ => rfl
    | ⟨1, _⟩ => rfl)

/-- The product record of the first body is of the rows-by-columns form. -/
theorem rowsByCols : MatmulRead.RowsByCols (a := 5000) (K := 64) (b := 64) dot_S5000x64_S64x64_S5000x64_1_0_0_1_n_n :=
  ⟨rfl, rfl, rfl, rfl, rfl, rfl⟩

/-- A block of rows times a 64 × 64 matrix, accumulated into zero, at `(p, q)`. -/
theorem product_apply (x : FVec Ideal S5000x64 .f32) (w : FVec Ideal S64x64 .f32) (p : Fin 5000) (q : Fin 64) :
    matmul (F := Ideal) dot_S5000x64_S64x64_S5000x64_1_0_0_1_n_n none x w (constant (F := Ideal) S5000x64 .f32 0x00000000#32) (ix2 p q)
      = ∑ k : Fin 64, x (ix2 p k) * w (ix2 k q) :=
  MatmulRead.matmul_zero_ix2 rowsByCols rfl rfl none x w p q

/-! ## The first body's stored values -/

/-- The first product with its bias: entry `(p, q)` is `Σ_k x[p, k] · w[k, q] + b[0, q]`. -/
theorem pay_bias (v0 : Vec Ideal S5000x64 .f32) (v1 : Vec Ideal S64x64 .f32) (v3 : Vec Ideal S1x64 .f32) (p : Fin 5000) (q : Fin 64) :
    Gen.k0_pay1 (F := Ideal) v0 v1 v3 (ix2 p q) = (∑ k : Fin 64, v0 (ix2 p k) * v1 (ix2 k q)) + v3 (ix2 (0 : Fin 1) q) := by
  unfold Gen.k0_pay1
  rw [addf_apply, product_apply, row_broadcast_apply, shapeCast_self]

/-- The second product: entry `(p, q)` is `Σ_k x[p, k] · w[k, q]`. -/
theorem pay_lin2 (v0 : Vec Ideal S5000x64 .f32) (v8 : Vec Ideal S64x64 .f32) (p : Fin 5000) (q : Fin 64) :
    Gen.k0_pay2 (F := Ideal) v0 v8 (ix2 p q) = ∑ k : Fin 64, v0 (ix2 p k) * v8 (ix2 k q) := by
  unfold Gen.k0_pay2
  exact product_apply v0 v8 p q

/-- The third product. -/
theorem pay_lin3 (v0 : Vec Ideal S5000x64 .f32) (v11 : Vec Ideal S64x64 .f32) (p : Fin 5000) (q : Fin 64) :
    Gen.k0_pay3 (F := Ideal) v0 v11 (ix2 p q) = ∑ k : Fin 64, v0 (ix2 p k) * v11 (ix2 k q) := by
  unfold Gen.k0_pay3
  exact product_apply v0 v11 p q

/-- The fourth product. -/
theorem pay_lin4 (v0 : Vec Ideal S5000x64 .f32) (v14 : Vec Ideal S64x64 .f32) (p : Fin 5000) (q : Fin 64) :
    Gen.k0_pay4 (F := Ideal) v0 v14 (ix2 p q) = ∑ k : Fin 64, v0 (ix2 p k) * v14 (ix2 k q) := by
  unfold Gen.k0_pay4
  exact product_apply v0 v14 p q

/-! ## The second body's stored values -/

/-- One branch's combination with the column `d`, the two row blocks `e`, `h` and the bias row `b`, all already in
    their final shapes: entry `(p, q)` is `e[p, q] · d[p] + h[p, q] · (d[p] · d[p]) + b[0, q]`. -/
theorem combine_apply (d : FVec Ideal S5000x1 .f32) (e h : FVec Ideal S5000x64 .f32) (b : FVec Ideal S1x64 .f32)
    (hb : S5000x1.Broadcasts S5000x64) (hr : S1x64.Broadcasts S5000x64) (p : Fin 5000) (q : Fin 64) :
    addf (addf (mulf e (broadcastTo S5000x64 d hb)) (mulf h (broadcastTo S5000x64 (mulf d d) hb))) (broadcastTo S5000x64 b hr) (ix2 p q)
      = (e (ix2 p q) * d (ix2 p (0 : Fin 1)) + h (ix2 p q) * (d (ix2 p 0) * d (ix2 p 0))) + b (ix2 (0 : Fin 1) q) := by
  rw [addf_apply, addf_apply, mulf_apply, mulf_apply, row_broadcast_apply, col_broadcast_apply, col_broadcast_apply, mulf_apply]

/-- The first branch's combination. -/
theorem pay_comb3 (v0 : Vec Ideal S5000x1 .f32) (v6 v10 : Vec Ideal S5000x64 .f32) (v16 : Vec Ideal S1x64 .f32) (p : Fin 5000) (q : Fin 64) :
    Gen.k1_pay3 (F := Ideal) v0 v6 v10 v16 (ix2 p q)
      = (v6 (ix2 p q) * v0 (ix2 p (0 : Fin 1)) + v10 (ix2 p q) * (v0 (ix2 p 0) * v0 (ix2 p 0))) + v16 (ix2 (0 : Fin 1) q) := by
  unfold Gen.k1_pay3
  simp only [shapeCast_self]
  exact combine_apply v0 v6 v10 v16 _ _ p q

/-- The second branch's combination. -/
theorem pay_comb4 (v2 : Vec Ideal S5000x1 .f32) (v21 v25 : Vec Ideal S5000x64 .f32) (v31 : Vec Ideal S1x64 .f32) (p : Fin 5000) (q : Fin 64) :
    Gen.k1_pay4 (F := Ideal) v2 v21 v25 v31 (ix2 p q)
      = (v21 (ix2 p q) * v2 (ix2 p (0 : Fin 1)) + v25 (ix2 p q) * (v2 (ix2 p 0) * v2 (ix2 p 0))) + v31 (ix2 (0 : Fin 1) q) := by
  unfold Gen.k1_pay4
  simp only [shapeCast_self]
  exact combine_apply v2 v21 v25 v31 _ _ p q

/-- The third branch's combination; its column arrives already cast. -/
theorem pay_comb1 (v5 : FVec Ideal S5000x1 .f32) (v36 v40 : Vec Ideal S5000x64 .f32) (v46 : Vec Ideal S1x64 .f32) (p : Fin 5000) (q : Fin 64) :
    Gen.k1_pay1 (F := Ideal) v5 v36 v40 v46 (ix2 p q)
      = (v36 (ix2 p q) * v5 (ix2 p (0 : Fin 1)) + v40 (ix2 p q) * (v5 (ix2 p 0) * v5 (ix2 p 0))) + v46 (ix2 (0 : Fin 1) q) := by
  unfold Gen.k1_pay1
  simp only [shapeCast_self]
  exact combine_apply v5 v36 v40 v46 _ _ p q

/-- The third branch's column: a cast to its own shape changes nothing. -/
theorem pay_col2 (v4 : Vec Ideal S5000x1 .f32) : Gen.k1_pay2 (F := Ideal) v4 = v4 := by
  unfold Gen.k1_pay2
  exact shapeCast_self v4 _

end Cert.KernelIdeal.PayloadRead

end
-- ==== Proof.KFinal0.lean ====
/-
  The first region's four output arrays at the ideal instance, each as ONE function of the arrays the region finds.

  The region runs the projection body at twenty grid points; point t reads rows 5000 t … 5000 t + 4999 of the input, the
  four whole 64 × 64 weights and the whole bias row, and writes back rows 5000 t … 5000 t + 4999 of each output. What a
  point writes back is therefore the same rows of one whole-array function — rows times weight (plus the bias row for
  the first output) — and the twenty blocks cover the array, so the array ends holding that function.
-/
import proofs.«157301_j41343355191554_2_alg».proof.Proof.KIRegion0
import proofs.«157301_j41343355191554_2_alg».proof.Proof.KPayload
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Hand Cert.KernelIdeal.PayloadRead
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## The index maps of the first region, decided over its twenty grid points

The row-block windows (the input rows and the four outputs) sit at block `t` of the rows and block 0 of the columns; the
weight and bias windows at block 0 of both axes. -/

theorem idx0_0 : ∀ t : Fin cfg0.N, win0_0.index t (0 : Fin 2) = t.val ∧ win0_0.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)

/-- Row `p` of block `t` is row `5000 t + p` of the array. -/
abbrev row0 (t : Fin cfg0.N) (p : Fin 5000) : Fin 100000 :=
  ⟨t.val * 5000 + p.val, by have h1 := t.isLt; have h2 := p.isLt; have hN : cfg0.N = 20 := N_0; omega⟩

/-! ## The input blocks, read off the entry arrays -/

/-- The row-block input at point `t`, at `(p, k)`, is the array at row `5000 t + p`. -/
theorem iblk0_0_apply (c : Dev nD) (t : Fin cfg0.N) (p : Fin 5000) (k : Fin 64) :
    (iblk0 V c 0 t : Vec Ideal S5000x64 .f32) (ix2 p k) = (V c main_arg0 : S100000x64.Idx → EReal) (ix2 (row0 t p) k) := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 64 + 1 * k.val = k.val; rw [e1]; omega

/-- Weight window 1's block at any point is the whole weight. -/
theorem iblk0_1_eq (c : Dev nD) (t : Fin cfg0.N) : (iblk0 V c 1 t : Vec Ideal S64x64 .f32) = (V c main_arg4 : S64x64.Idx → EReal) := by
  obtain ⟨e0, e1⟩ := idx0_1 t
  unfold iblk0
  funext y
  rw [View.read_apply]
  show V c main_arg4 _ = V c main_arg4 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- Weight window 2's block at any point is the whole weight. -/
theorem iblk0_2_eq (c : Dev nD) (t : Fin cfg0.N) : (iblk0 V c 2 t : Vec Ideal S64x64 .f32) = (V c main_arg6 : S64x64.Idx → EReal) := by
  obtain ⟨e0, e1⟩ := idx0_2 t
  unfold iblk0
  funext y
  rw [View.read_apply]
  show V c main_arg6 _ = V c main_arg6 _
  congr 1
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

/-- Weight window 3's block at any point is the whole weight. -/
theorem iblk0_3_eq (c : Dev nD) (t : Fin cfg0.N) : (iblk0 V c 3 t : Vec Ideal S64x64 .f32) = (V c main_arg8 : S64x64.Idx → EReal) := by
  obtain ⟨e0, e1⟩ := idx0_3 t
  unfold iblk0
  funext y
  rw [View.read_apply]
  show V c main_arg8 _ = V c main_arg8 _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

/-- Weight window 4's block at any point is the whole weight. -/
theorem iblk0_4_eq (c : Dev nD) (t : Fin cfg0.N) : (iblk0 V c 4 t : Vec Ideal S64x64 .f32) = (V c main_arg10 : S64x64.Idx → EReal) := by
  obtain ⟨e0, e1⟩ := idx0_4 t
  unfold iblk0
  funext y
  rw [View.read_apply]
  show V c main_arg10 _ = V c main_arg10 _
  congr 1
  funext a
  apply Fin.ext
  match a with
  | ⟨0, _⟩ => show win0_4.index t 0 * 64 + 1 * (y 0).val = (y 0).val; rw [e0]; omega
  | ⟨1, _⟩ => show win0_4.index t 1 * 64 + 1 * (y 1).val = (y 1).val; rw [e1]; omega

/-- The bias window's block at any point is the whole bias row. -/
theorem iblk0_5_eq (c : Dev nD) (t : Fin cfg0.N) : (iblk0 V c 5 t : Vec Ideal S1x64 .f32) = (V c main_v0 : S1x64.Idx → EReal) := by
  obtain ⟨e0, e1⟩ := idx0_5 t
  unfold iblk0
  funext y
  rw [View.read_apply]
  show V c main_v0 _ = V c main_v0 _
  congr 1
  funext a
  apply Fin.ext
  match a with
  | ⟨0, _⟩ => show win0_5.index t 0 * 1 + 1 * (y 0).val = (y 0).val; rw [e0]; omega
  | ⟨1, _⟩ => show win0_5.index t 1 * 64 + 1 * (y 1).val = (y 1).val; rw [e1]; omega

/-! ## The outputs as whole-array functions of the entry arrays -/

/-- Rows times a 64 × 64 weight: entry `(r, q)` is `Σ_k A[r, k] · W[k, q]`. -/
abbrev lin (A : S100000x64.Idx → EReal) (W : S64x64.Idx → EReal) : S100000x64.Idx → EReal :=
  fun i => ∑ k : Fin 64, A (ix2 (i 0) k) * W (ix2 k (i 1))

/-- Rows times a weight, plus a bias row added to every row. -/
abbrev linBias (A : S100000x64.Idx → EReal) (W : S64x64.Idx → EReal) (B : S1x64.Idx → EReal) : S100000x64.Idx → EReal :=
  fun i => (∑ k : Fin 64, A (ix2 (i 0) k) * W (ix2 k (i 1))) + B (ix2 (0 : Fin 1) (i 1))

/-! ### Output window 6 -/

/-- Entry `(p, q)` of block `t` is entry `(5000 t + p, q)` of the array. -/
theorem emb0_6 (t : Fin cfg0.N) (p : Fin 5000) (q : Fin 64) :
    (((cfg0.win 6).blk t).view.emb (ix2 p q) : S100000x64.Idx) = ix2 (row0 t p) q := by
  obtain ⟨e0, e1⟩ := idx0_6 t
  funext a
  apply Fin.ext
  match a with
  | ⟨0, _⟩ => show win0_6.index t 0 * 5000 + 1 * p.val = t.val * 5000 + p.val; rw [e0]; omega
  | ⟨1, _⟩ => show win0_6.index t 1 * 64 + 1 * q.val = q.val; rw [e1]; omega

/-- What point `t` writes back is block `t` of the whole-array function. -/
theorem flushed0_6 (c : Dev nD) (t : Fin cfg0.N) :
    (dat0 V c).flushed 6 t = ((cfg0.win 6).blk t).view.read (Elt Ideal) (linBias (V c main_arg0) (V c main_arg4) (V c main_v0)) := by
  show (cfg0.win 6).cut (grid0.coords t) ((dat0 V c).after 6 t) = _
  rw [after0_6]
  unfold out0_6
  rw [View.canon_unit_zero zero_offsets]
  simp only [View.ld_unit_zero (S := S5000x64) zero_offsets, View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  rw [View.read_apply]
  show Gen.k0_pay1 (iblk0 V c 0 t) (iblk0 V c 1 t) (iblk0 V c 5 t) (ix2 p q) = (linBias (V c main_arg0) (V c main_arg4) (V c main_v0)) (((cfg0.win 6).blk t).view.emb (ix2 p q))
  rw [emb0_6, pay_bias, iblk0_1_eq, iblk0_5_eq]
  simp only [iblk0_0_apply]

/-- An index of the array is in point `t`'s block iff each coordinate is in the block's range on its axis. -/
theorem mem_blk0_6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v1_0).slice (win0_6.rect t)).set ↔ _
  rw [View.set_slice_whole, Rect.mem_set_unit]
  exact Iff.rfl

/-- Row `r` lies in block `r / 5000`: the twenty blocks cover the array. -/
theorem covered0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨e0, e1⟩ := idx0_6 t
  refine ⟨t, flush0_6 t, ?_⟩
  rw [mem_blk0_6]
  intro a
  match a with
  | ⟨0, _⟩ => show win0_6.index t 0 * 5000 ≤ (i 0).val ∧ (i 0).val < win0_6.index t 0 * 5000 + 5000; rw [e0, ht]; omega
  | ⟨1, _⟩ => show win0_6.index t 1 * 64 ≤ (i 1).val ∧ (i 1).val < win0_6.index t 1 * 64 + 64; rw [e1]; omega

/-- The array after the region. -/
theorem final0_6 (c : Dev nD) : (dat0 V c).arrAt 6 cfg0.N = linBias (V c main_arg0) (V c main_arg4) (V c main_v0) :=
  (dat0 V c).arrAt_eq_of_cover 6 (linBias (V c main_arg0) (V c main_arg4) (V c main_v0)) (fun t _ => flushed0_6 V c t) (covered0_6)

/-! ### Output window 7 -/

/-- Entry `(p, q)` of block `t` is entry `(5000 t + p, q)` of the array. -/
theorem emb0_7 (t : Fin cfg0.N) (p : Fin 5000) (q : Fin 64) :
    (((cfg0.win 7).blk t).view.emb (ix2 p q) : S100000x64.Idx) = ix2 (row0 t p) q := by
  obtain ⟨e0, e1⟩ := idx0_7 t
  funext a
  apply Fin.ext
  match a with
  | ⟨0, _⟩ => show win0_7.index t 0 * 5000 + 1 * p.val = t.val * 5000 + p.val; rw [e0]; omega
  | ⟨1, _⟩ => show win0_7.index t 1 * 64 + 1 * q.val = q.val; rw [e1]; omega

/-- What point `t` writes back is block `t` of the whole-array function. -/
theorem flushed0_7 (c : Dev nD) (t : Fin cfg0.N) :
    (dat0 V c).flushed 7 t = ((cfg0.win 7).blk t).view.read (Elt Ideal) (lin (V c main_arg0) (V c main_arg6)) := by
  show (cfg0.win 7).cut (grid0.coords t) ((dat0 V c).after 7 t) = _
  rw [after0_7]
  unfold out0_7
  rw [View.canon_unit_zero zero_offsets]
  simp only [View.ld_unit_zero (S := S5000x64) zero_offsets, View.ld_unit_zero (S := S64x64) zero_offsets]
  funext j
  obtain ⟨p, q, rfl⟩ : ∃ (p : Fin 5000) (q : Fin 64), j = ix2 p q := ⟨j 0, j 1, eq_ix2 j⟩
  rw [View.read_apply]
  show Gen.k0_pay2 (iblk0 V c 0 t) (iblk0 V c 2 t) (ix2 p q) = (lin (V c main_arg0) (V c main_arg6)) (((cfg0.win 7).blk t).view.emb (ix2 p q))
  rw [emb0_7, pay_lin2, iblk0_2_eq]
  simp only [iblk0_0_apply]

/-- An index of the array is in point `t`'s block iff each coordinate is in the block's range on its axis. -/
theorem mem_blk0_7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v1_1).slice (win0_7.rect t)).set ↔ _
  rw [View.set_slice_whole, Rect.mem_set_unit]
  exact Iff.rfl

/-- Row `r` lies in block `r / 5000`: the twenty blocks cover the array. -/
theorem covered0_7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨e0, e1⟩ := idx0_7 t
  refine ⟨t, flush0_7 t, ?_⟩
  rw [mem_blk0_7]
  intro a
  match a with
  | ⟨0, _⟩ => show win0_7.index t 0 * 5000 ≤ (i 0).val ∧ (i 0).val < win0_7.index t 0 * 5000 + 5000; rw [e0, ht]; omega
  | ⟨1, _⟩ => show win0_7.index t 1 * 64 ≤ (i 1).val ∧ (i 1).val < win0_7.index t 1 * 64 + 64; rw [e1]; omega

/-- The array after the region. -/
theorem final0_7 (c : Dev nD) : (dat0 V c).arrAt 7 cfg0.N = lin (V c main_arg0) (V c main_arg6) :=
  (dat0 V c).arrAt_eq_of_cover 7 (lin (V c main_arg0) (V c main_arg6)) (fun t _ => flushed0_7 V c t) (covered0_7)

/-! ### Output window 8 -/

/-- Entry `(p, q)` of block `t` is entry `(5000 t + p, q)` of the array. -/
theorem emb0_8 (t : Fin cfg0.N) (p : Fin 5000) (q : Fin 64) :
    (((cfg0.win 8).blk t).view.emb (ix2 p q) : S100000x64.Idx) = ix2 (row0 t p) q := by
  obtain ⟨e0, e1⟩ := idx0_8 t
  funext a
  apply Fin.ext
  match a with
  | ⟨0, _⟩ => show win0_8.index t 0 * 5000 + 1 * p.val = t.val * 5000 + p.val; rw [e0]; omega
  | ⟨1, _⟩ => show win0_8.index t 1 * 64 + 1 * q.val = q.val; rw [e1]; omega

/-- What point `t` writes back is block `t` of the whole-array function. -/
theorem flushed0_8 (c : Dev nD) (t : Fin cfg0.N) :
    (dat0 V c).flushed 8 t = ((cfg0.win 8).blk t).view.read (Elt Ideal) (lin (V c main_arg0) (V c main_arg8)) := by
  show (cfg0.win 8).cut (grid0.coords t) ((dat0 V c).after 8 t) = _
  rw [after0_8]
  unfold out0_8
  rw [View.canon_unit_zero zero_offsets]
  simp only [View.ld_unit_zero (S := S5000x64) zero_offsets, View.ld_unit_zero (S := S64x64) zero_offsets]
  funext j
  obtain ⟨p, q, rfl⟩ : ∃ (p : Fin 5000) (q : Fin 64), j = ix2 p q := ⟨j 0, j 1, eq_ix2 j⟩
  rw [View.read_apply]
  show Gen.k0_pay3 (iblk0 V c 0 t) (iblk0 V c 3 t) (ix2 p q) = (lin (V c main_arg0) (V c main_arg8)) (((cfg0.win 8).blk t).view.emb (ix2 p q))
  rw [emb0_8, pay_lin3, iblk0_3_eq]
  simp only [iblk0_0_apply]

/-- An index of the array is in point `t`'s block iff each coordinate is in the block's range on its axis. -/
theorem mem_blk0_8 (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v1_2).slice (win0_8.rect t)).set ↔ _
  rw [View.set_slice_whole, Rect.mem_set_unit]
  exact Iff.rfl

/-- Row `r` lies in block `r / 5000`: the twenty blocks cover the array. -/
theorem covered0_8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨e0, e1⟩ := idx0_8 t
  refine ⟨t, flush0_8 t, ?_⟩
  rw [mem_blk0_8]
  intro a
  match a with
  | ⟨0, _⟩ => show win0_8.index t 0 * 5000 ≤ (i 0).val ∧ (i 0).val < win0_8.index t 0 * 5000 + 5000; rw [e0, ht]; omega
  | ⟨1, _⟩ => show win0_8.index t 1 * 64 ≤ (i 1).val ∧ (i 1).val < win0_8.index t 1 * 64 + 64; rw [e1]; omega

/-- The array after the region. -/
theorem final0_8 (c : Dev nD) : (dat0 V c).arrAt 8 cfg0.N = lin (V c main_arg0) (V c main_arg8) :=
  (dat0 V c).arrAt_eq_of_cover 8 (lin (V c main_arg0) (V c main_arg8)) (fun t _ => flushed0_8 V c t) (covered0_8)

/-! ### Output window 9 -/

/-- Entry `(p, q)` of block `t` is entry `(5000 t + p, q)` of the array. -/
theorem emb0_9 (t : Fin cfg0.N) (p : Fin 5000) (q : Fin 64) :
    (((cfg0.win 9).blk t).view.emb (ix2 p q) : S100000x64.Idx) = ix2 (row0 t p) q := by
  obtain ⟨e0, e1⟩ := idx0_9 t
  funext a
  apply Fin.ext
  match a with
  | ⟨0, _⟩ => show win0_9.index t 0 * 5000 + 1 * p.val = t.val * 5000 + p.val; rw [e0]; omega
  | ⟨1, _⟩ => show win0_9.index t 1 * 64 + 1 * q.val = q.val; rw [e1]; omega

/-- What point `t` writes back is block `t` of the whole-array function. -/
theorem flushed0_9 (c : Dev nD) (t : Fin cfg0.N) :
    (dat0 V c).flushed 9 t = ((cfg0.win 9).blk t).view.read (Elt Ideal) (lin (V c main_arg0) (V c main_arg10)) := by
  show (cfg0.win 9).cut (grid0.coords t) ((dat0 V c).after 9 t) = _
  rw [after0_9]
  unfold out0_9
  rw [View.canon_unit_zero zero_offsets]
  simp only [View.ld_unit_zero (S := S5000x64) zero_offsets, View.ld_unit_zero (S := S64x64) zero_offsets]
  funext j
  obtain ⟨p, q, rfl⟩ : ∃ (p : Fin 5000) (q : Fin 64), j = ix2 p q := ⟨j 0, j 1, eq_ix2 j⟩
  rw [View.read_apply]
  show Gen.k0_pay4 (iblk0 V c 0 t) (iblk0 V c 4 t) (ix2 p q) = (lin (V c main_arg0) (V c main_arg10)) (((cfg0.win 9).blk t).view.emb (ix2 p q))
  rw [emb0_9, pay_lin4, iblk0_4_eq]
  simp only [iblk0_0_apply]

/-- An index of the array is in point `t`'s block iff each coordinate is in the block's range on its axis. -/
theorem mem_blk0_9 (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v1_3).slice (win0_9.rect t)).set ↔ _
  rw [View.set_slice_whole, Rect.mem_set_unit]
  exact Iff.rfl

/-- Row `r` lies in block `r / 5000`: the twenty blocks cover the array. -/
theorem covered0_9 (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨e0, e1⟩ := idx0_9 t
  refine ⟨t, flush0_9 t, ?_⟩
  rw [mem_blk0_9]
  intro a
  match a with
  | ⟨0, _⟩ => show win0_9.index t 0 * 5000 ≤ (i 0).val ∧ (i 0).val < win0_9.index t 0 * 5000 + 5000; rw [e0, ht]; omega
  | ⟨1, _⟩ => show win0_9.index t 1 * 64 ≤ (i 1).val ∧ (i 1).val < win0_9.index t 1 * 64 + 64; rw [e1]; omega

/-- The array after the region. -/
theorem final0_9 (c : Dev nD) : (dat0 V c).arrAt 9 cfg0.N = lin (V c main_arg0) (V c main_arg10) :=
  (dat0 V c).arrAt_eq_of_cover 9 (lin (V c main_arg0) (V c main_arg10)) (fun t _ => flushed0_9 V c t) (covered0_9)

end Cert.KernelIdeal.Final

end
-- ==== Proof.KFinal1.lean ====
/-
  The second region's three output arrays at the ideal instance, each as ONE function of the arrays the region finds.

  The region runs the combination body at twenty grid points; point t reads rows 5000 t … 5000 t + 4999 of the three
  projections, of the three aggregates and of the 3-column array of scales, and the three whole bias rows, and writes back
  rows 5000 t … 5000 t + 4999 of each output. For branch k the body stores aggregate · d + projection · (d · d) + bias, with d
  column k of the scales. What a point writes back is therefore the same rows of one whole-array function, and the twenty
  blocks cover the array, so the array ends holding that function.
-/
import proofs.«157301_j41343355191554_2_alg».proof.Proof.KIRegion1
import proofs.«157301_j41343355191554_2_alg».proof.Proof.KPayload
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Hand Cert.KernelIdeal.PayloadRead
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-block access, as a constant function. -/
theorem zero_offsets1 : (![0, 0] : Fin 2 → Nat) = fun _ => 0 := funext fun a => by fin_cases a <;> rfl

/-! ## The index maps of the second region, decided over its twenty grid points

The row-block windows (the three projections, the scales, the three aggregates and the three outputs) sit at block `t` of
the rows and block 0 of the columns; the three bias windows at block 0 of both axes. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

/-- Row `p` of block `t` is row `5000 t + p` of the array. -/
abbrev row1 (t : Fin cfg1.N) (p : Fin 5000) : Fin 100000 :=
  ⟨t.val * 5000 + p.val, by have h1 := t.isLt; have h2 := p.isLt; have hN : cfg1.N = 20 := N_1; omega⟩

/-! ## The input blocks, read off the entry arrays -/

/-- Row-block window 0 at point `t`, at `(p, q)`, is its array at row `5000 t + p`. -/
theorem iblk1_0_apply (c : Dev nD) (t : Fin cfg1.N) (p : Fin 5000) (q : Fin 64) :
    (iblk1 V c 0 t : Vec Ideal S5000x64 .f32) (ix2 p q) = (V c main_v1_1 : S100000x64.Idx → EReal) (ix2 (row1 t p) q) := by
  obtain ⟨e0, e1⟩ := idx1_0 t
  unfold iblk1
  rw [View.read_apply]
  show V c main_v1_1 _ = V c main_v1_1 _
  congr 1
  funext a
  apply Fin.ext
  match a with
  | ⟨0, _⟩ => show win1_0.index t 0 * 5000 + 1 * p.val = t.val * 5000 + p.val; rw [e0]; omega
  | ⟨1, _⟩ => show win1_0.index t 1 * 64 + 1 * q.val = q.val; rw [e1]; omega

/-- Row-block window 1 at point `t`, at `(p, q)`, is its array at row `5000 t + p`. -/
theorem iblk1_1_apply (c : Dev nD) (t : Fin cfg1.N) (p : Fin 5000) (q : Fin 64) :
    (iblk1 V c 1 t : Vec Ideal S5000x64 .f32) (ix2 p q) = (V c main_v1_2 : S100000x64.Idx → EReal) (ix2 (row1 t p) q) := by
  obtain ⟨e0, e1⟩ := idx1_1 t
  unfold iblk1
  rw [View.read_apply]
  show V c main_v1_2 _ = V c main_v1_2 _
  congr 1
  funext a
  apply Fin.ext
  match a with
  | ⟨0, _⟩ => show win1_1.index t 0 * 5000 + 1 * p.val = t.val * 5000 + p.val; rw [e0]; omega
  | ⟨1, _⟩ => show win1_1.index t 1 * 64 + 1 * q.val = q.val; rw [e1]; omega

/-- Row-block window 2 at point `t`, at `(p, q)`, is its array at row `5000 t + p`. -/
theorem iblk1_2_apply (c : Dev nD) (t : Fin cfg1.N) (p : Fin 5000) (q : Fin 64) :
    (iblk1 V c 2 t : Vec Ideal S5000x64 .f32) (ix2 p q) = (V c main_v1_3 : S100000x64.Idx → EReal) (ix2 (row1 t p) q) := by
  obtain ⟨e0, e1⟩ := idx1_2 t
  unfold iblk1
  rw [View.read_apply]
  show V c main_v1_3 _ = V c main_v1_3 _
  congr 1
  funext a
  apply Fin.ext
  match a with
  | ⟨0, _⟩ => show win1_2.index t 0 * 5000 + 1 * p.val = t.val * 5000 + p.val; rw [e0]; omega
  | ⟨1, _⟩ => show win1_2.index t 1 * 64 + 1 * q.val = q.val; rw [e1]; omega

/-- Row-block window 4 at point `t`, at `(p, q)`, is its array at row `5000 t + p`. -/
theorem iblk1_4_apply (c : Dev nD) (t : Fin cfg1.N) (p : Fin 5000) (q : Fin 64) :
    (iblk1 V c 4 t : Vec Ideal S5000x64 .f32) (ix2 p q) = (V c main_v32 : S100000x64.Idx → EReal) (ix2 (row1 t p) q) := by
  obtain ⟨e0, e1⟩ := idx1_4 t
  unfold iblk1
  rw [View.read_apply]
  show V c main_v32 _ = V c main_v32 _
  congr 1
  funext a
  apply Fin.ext
  match a with
  | ⟨0, _⟩ => show win1_4.index t 0 * 5000 + 1 * p.val = t.val * 5000 + p.val; rw [e0]; omega
  | ⟨1, _⟩ => show win1_4.index t 1 * 64 + 1 * q.val = q.val; rw [e1]; omega

/-- Row-block window 5 at point `t`, at `(p, q)`, is its array at row `5000 t + p`. -/
theorem iblk1_5_apply (c : Dev nD) (t : Fin cfg1.N) (p : Fin 5000) (q : Fin 64) :
    (iblk1 V c 5 t : Vec Ideal S5000x64 .f32) (ix2 p q) = (V c main_v63 : S100000x64.Idx → EReal) (ix2 (row1 t p) q) := by
  obtain ⟨e0, e1⟩ := idx1_5 t
  unfold iblk1
  rw [View.read_apply]
  show V c main_v63 _ = V c main_v63 _
  congr 1
  funext a
  apply Fin.ext
  match a with
  | ⟨0, _⟩ => show win1_5.index t 0 * 5000 + 1 * p.val = t.val * 5000 + p.val; rw [e0]; omega
  | ⟨1, _⟩ => show win1_5.index t 1 * 64 + 1 * q.val = q.val; rw [e1]; omega

/-- Row-block window 6 at point `t`, at `(p, q)`, is its array at row `5000 t + p`. -/
theorem iblk1_6_apply (c : Dev nD) (t : Fin cfg1.N) (p : Fin 5000) (q : Fin 64) :
    (iblk1 V c 6 t : Vec Ideal S5000x64 .f32) (ix2 p q) = (V c main_v94 : S100000x64.Idx → EReal) (ix2 (row1 t p) q) := by
  obtain ⟨e0, e1⟩ := idx1_6 t
  unfold iblk1
  rw [View.read_apply]
  show V c main_v94 _ = V c main_v94 _
  congr 1
  funext a
  apply Fin.ext
  match a with
  | ⟨0, _⟩ => show win1_6.index t 0 * 5000 + 1 * p.val = t.val * 5000 + p.val; rw [e0]; omega
  | ⟨1, _⟩ => show win1_6.index t 1 * 64 + 1 * q.val = q.val; rw [e1]; omega

/-- The scales' window at point `t`, at `(p, k)`, is the scales' array at row `5000 t + p`, column `k`. -/
theorem iblk1_3_apply (c : Dev nD) (t : Fin cfg1.N) (p : Fin 5000) (k : Fin 3) :
    (iblk1 V c 3 t : Vec Ideal S5000x3 .f32) (ix2 p k) = (V c main_v98 : S100000x3.Idx → EReal) (ix2 (row1 t p) k) := by
  obtain ⟨e0, e1⟩ := idx1_3 t
  unfold iblk1
  rw [View.read_apply]
  show V c main_v98 _ = V c main_v98 _
  congr 1
  funext a
  apply Fin.ext
  match a with
  | ⟨0, _⟩ => show win1_3.index t 0 * 5000 + 1 * p.val = t.val * 5000 + p.val; rw [e0]; omega
  | ⟨1, _⟩ => show win1_3.index t 1 * 3 + 1 * k.val = k.val; rw [e1]; omega

/-- Bias window 7's block at any point is the whole bias row. -/
theorem iblk1_7_eq (c : Dev nD) (t : Fin cfg1.N) : (iblk1 V c 7 t : Vec Ideal S1x64 .f32) = (V c main_v99 : S1x64.Idx → EReal) := by
  obtain ⟨e0, e1⟩ := idx1_7 t
  unfold iblk1
  funext y
  rw [View.read_apply]
  show V c main_v99 _ = V c main_v99 _
  congr 1
  funext a
  apply Fin.ext
  match a with
  | ⟨0, _⟩ => show win1_7.index t 0 * 1 + 1 * (y 0).val = (y 0).val; rw [e0]; omega
  | ⟨1, _⟩ => show win1_7.index t 1 * 64 + 1 * (y 1).val = (y 1).val; rw [e1]; omega

/-- Bias window 8's block at any point is the whole bias row. -/
theorem iblk1_8_eq (c : Dev nD) (t : Fin cfg1.N) : (iblk1 V c 8 t : Vec Ideal S1x64 .f32) = (V c main_v100 : S1x64.Idx → EReal) := by
  obtain ⟨e0, e1⟩ := idx1_8 t
  unfold iblk1
  funext y
  rw [View.read_apply]
  show V c main_v100 _ = V c main_v100 _
  congr 1
  funext a
  apply Fin.ext
  match a with
  | ⟨0, _⟩ => show win1_8.index t 0 * 1 + 1 * (y 0).val = (y 0).val; rw [e0]; omega
  | ⟨1, _⟩ => show win1_8.index t 1 * 64 + 1 * (y 1).val = (y 1).val; rw [e1]; omega

/-- Bias window 9's block at any point is the whole bias row. -/
theorem iblk1_9_eq (c : Dev nD) (t : Fin cfg1.N) : (iblk1 V c 9 t : Vec Ideal S1x64 .f32) = (V c main_v101 : S1x64.Idx → EReal) := by
  obtain ⟨e0, e1⟩ := idx1_9 t
  unfold iblk1
  funext y
  rw [View.read_apply]
  show V c main_v101 _ = V c main_v101 _
  congr 1
  funext a
  apply Fin.ext
  match a with
  | ⟨0, _⟩ => show win1_9.index t 0 * 1 + 1 * (y 0).val = (y 0).val; rw [e0]; omega
  | ⟨1, _⟩ => show win1_9.index t 1 * 64 + 1 * (y 1).val = (y 1).val; rw [e1]; omega

/-- A load of one column of a 5000 × 3 block: entry `(p, 0)` of the loaded column `k` is entry `(p, k)` of the block. -/
theorem col_ld {Val : EltTy → Type} {e : EltTy} (x : S5000x3.Idx → Val e) (off : Fin 2 → Nat) (inb : ∀ a, off a + S5000x1.size a ≤ S5000x3.size a)
    (k : Fin 3) (h0 : off 0 = 0) (h1 : off 1 = k.val) (p : Fin 5000) :
    View.ld (Val := Val) x (Rect.unit (s := S5000x3) off S5000x1.size inb) (ix2 p (0 : Fin 1)) = x (ix2 p k) := by
  show x _ = x _
  congr 1
  funext a
  apply Fin.ext
  match a with
  | ⟨0, _⟩ => show off 0 + 1 * p.val = p.val; omega
  | ⟨1, _⟩ => show off 1 + 1 * 0 = k.val; omega

/-! ## The outputs as whole-array functions of the entry arrays -/

/-- One branch's combination: entry `(r, q)` is `E[r, q] · D[r, k] + H[r, q] · (D[r, k] · D[r, k]) + B[0, q]`, with `D[·, k]` column
    `k` of the scales. -/
abbrev comb (E H : S100000x64.Idx → EReal) (D : S100000x3.Idx → EReal) (B : S1x64.Idx → EReal) (k : Fin 3) : S100000x64.Idx → EReal :=
  fun i => (E i * D (ix2 (i 0) k) + H i * (D (ix2 (i 0) k) * D (ix2 (i 0) k))) + B (ix2 (0 : Fin 1) (i 1))

/-! ### Output window 10 -/

/-- Entry `(p, q)` of block `t` is entry `(5000 t + p, q)` of the array. -/
theorem emb1_10 (t : Fin cfg1.N) (p : Fin 5000) (q : Fin 64) :
    (((cfg1.win 10).blk t).view.emb (ix2 p q) : S100000x64.Idx) = ix2 (row1 t p) q := by
  obtain ⟨e0, e1⟩ := idx1_10 t
  funext a
  apply Fin.ext
  match a with
  | ⟨0, _⟩ => show win1_10.index t 0 * 5000 + 1 * p.val = t.val * 5000 + p.val; rw [e0]; omega
  | ⟨1, _⟩ => show win1_10.index t 1 * 64 + 1 * q.val = q.val; rw [e1]; omega

/-- What point `t` writes back is block `t` of the whole-array function. -/
theorem flushed1_10 (c : Dev nD) (t : Fin cfg1.N) :
    (dat1 V c).flushed 10 t = ((cfg1.win 10).blk t).view.read (Elt Ideal) (comb (V c main_v32) (V c main_v1_1) (V c main_v98) (V c main_v99) 0) := by
  show (cfg1.win 10).cut (grid1.coords t) ((dat1 V c).after 10 t) = _
  rw [after1_10]
  unfold out1_10
  rw [View.canon_unit_zero zero_offsets1]
  simp only [View.ld_unit_zero (S := S5000x64) zero_offsets1, View.ld_unit_zero (S := S1x64) zero_offsets1]
  funext j
  obtain ⟨p, q, rfl⟩ : ∃ (p : Fin 5000) (q : Fin 64), j = ix2 p q := ⟨j 0, j 1, eq_ix2 j⟩
  rw [View.read_apply]
  show Gen.k1_pay3 (View.ld (iblk1 V c 3 t) r1_c0) (iblk1 V c 4 t) (iblk1 V c 0 t) (iblk1 V c 7 t) (ix2 p q) = (comb (V c main_v32) (V c main_v1_1) (V c main_v98) (V c main_v99) 0) (((cfg1.win 10).blk t).view.emb (ix2 p q))
  rw [emb1_10, pay_comb3, col_ld _ _ _ 0 rfl rfl, iblk1_7_eq]
  simp only [iblk1_3_apply, iblk1_4_apply, iblk1_0_apply]

/-- An index of the array is in point `t`'s block iff each coordinate is in the block's range on its axis. -/
theorem mem_blk1_10 (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v102_0).slice (win1_10.rect t)).set ↔ _
  rw [View.set_slice_whole, Rect.mem_set_unit]
  exact Iff.rfl

/-- Row `r` lies in block `r / 5000`: the twenty blocks cover the array. -/
theorem covered1_10 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1⟩ := idx1_10 t
  refine ⟨t, flush1_10 t, ?_⟩
  rw [mem_blk1_10]
  intro a
  match a with
  | ⟨0, _⟩ => show win1_10.index t 0 * 5000 ≤ (i 0).val ∧ (i 0).val < win1_10.index t 0 * 5000 + 5000; rw [e0, ht]; omega
  | ⟨1, _⟩ => show win1_10.index t 1 * 64 ≤ (i 1).val ∧ (i 1).val < win1_10.index t 1 * 64 + 64; rw [e1]; omega

/-- The array after the region. -/
theorem final1_10 (c : Dev nD) : (dat1 V c).arrAt 10 cfg1.N = comb (V c main_v32) (V c main_v1_1) (V c main_v98) (V c main_v99) 0 :=
  (dat1 V c).arrAt_eq_of_cover 10 (comb (V c main_v32) (V c main_v1_1) (V c main_v98) (V c main_v99) 0) (fun t _ => flushed1_10 V c t) (covered1_10)

/-! ### Output window 11 -/

/-- Entry `(p, q)` of block `t` is entry `(5000 t + p, q)` of the array. -/
theorem emb1_11 (t : Fin cfg1.N) (p : Fin 5000) (q : Fin 64) :
    (((cfg1.win 11).blk t).view.emb (ix2 p q) : S100000x64.Idx) = ix2 (row1 t p) q := by
  obtain ⟨e0, e1⟩ := idx1_11 t
  funext a
  apply Fin.ext
  match a with
  | ⟨0, _⟩ => show win1_11.index t 0 * 5000 + 1 * p.val = t.val * 5000 + p.val; rw [e0]; omega
  | ⟨1, _⟩ => show win1_11.index t 1 * 64 + 1 * q.val = q.val; rw [e1]; omega

/-- What point `t` writes back is block `t` of the whole-array function. -/
theorem flushed1_11 (c : Dev nD) (t : Fin cfg1.N) :
    (dat1 V c).flushed 11 t = ((cfg1.win 11).blk t).view.read (Elt Ideal) (comb (V c main_v63) (V c main_v1_2) (V c main_v98) (V c main_v100) 1) := by
  show (cfg1.win 11).cut (grid1.coords t) ((dat1 V c).after 11 t) = _
  rw [after1_11]
  unfold out1_11
  rw [View.canon_unit_zero zero_offsets1]
  simp only [View.ld_unit_zero (S := S5000x64) zero_offsets1, View.ld_unit_zero (S := S1x64) zero_offsets1]
  funext j
  obtain ⟨p, q, rfl⟩ : ∃ (p : Fin 5000) (q : Fin 64), j = ix2 p q := ⟨j 0, j 1, eq_ix2 j⟩
  rw [View.read_apply]
  show Gen.k1_pay4 (View.ld (iblk1 V c 3 t) r1_c1) (iblk1 V c 5 t) (iblk1 V c 1 t) (iblk1 V c 8 t) (ix2 p q) = (comb (V c main_v63) (V c main_v1_2) (V c main_v98) (V c main_v100) 1) (((cfg1.win 11).blk t).view.emb (ix2 p q))
  rw [emb1_11, pay_comb4, col_ld _ _ _ 1 rfl rfl, iblk1_8_eq]
  simp only [iblk1_3_apply, iblk1_5_apply, iblk1_1_apply]

/-- An index of the array is in point `t`'s block iff each coordinate is in the block's range on its axis. -/
theorem mem_blk1_11 (t : Fin cfg1.N) (i : S100000x64.Idx) :
    i ∈ ((cfg1.win 11).blk t).view.set ↔ ∀ a : Fin 2, win1_11.index t a * S5000x64.size a ≤ (i a).val ∧ (i a).val < win1_11.index t a * S5000x64.size a + S5000x64.size a := by
  show i ∈ ((View.whole main_v102_1).slice (win1_11.rect t)).set ↔ _
  rw [View.set_slice_whole, Rect.mem_set_unit]
  exact Iff.rfl

/-- Row `r` lies in block `r / 5000`: the twenty blocks cover the array. -/
theorem covered1_11 (i : S100000x64.Idx) :
    ∃ t : Fin cfg1.N, (cfg1.win 11).flush t = true ∧ i ∈ ((cfg1.win 11).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1⟩ := idx1_11 t
  refine ⟨t, flush1_11 t, ?_⟩
  rw [mem_blk1_11]
  intro a
  match a with
  | ⟨0, _⟩ => show win1_11.index t 0 * 5000 ≤ (i 0).val ∧ (i 0).val < win1_11.index t 0 * 5000 + 5000; rw [e0, ht]; omega
  | ⟨1, _⟩ => show win1_11.index t 1 * 64 ≤ (i 1).val ∧ (i 1).val < win1_11.index t 1 * 64 + 64; rw [e1]; omega

/-- The array after the region. -/
theorem final1_11 (c : Dev nD) : (dat1 V c).arrAt 11 cfg1.N = comb (V c main_v63) (V c main_v1_2) (V c main_v98) (V c main_v100) 1 :=
  (dat1 V c).arrAt_eq_of_cover 11 (comb (V c main_v63) (V c main_v1_2) (V c main_v98) (V c main_v100) 1) (fun t _ => flushed1_11 V c t) (covered1_11)

/-! ### Output window 12 -/

/-- Entry `(p, q)` of block `t` is entry `(5000 t + p, q)` of the array. -/
theorem emb1_12 (t : Fin cfg1.N) (p : Fin 5000) (q : Fin 64) :
    (((cfg1.win 12).blk t).view.emb (ix2 p q) : S100000x64.Idx) = ix2 (row1 t p) q := by
  obtain ⟨e0, e1⟩ := idx1_12 t
  funext a
  apply Fin.ext
  match a with
  | ⟨0, _⟩ => show win1_12.index t 0 * 5000 + 1 * p.val = t.val * 5000 + p.val; rw [e0]; omega
  | ⟨1, _⟩ => show win1_12.index t 1 * 64 + 1 * q.val = q.val; rw [e1]; omega

/-- What point `t` writes back is block `t` of the whole-array function. -/
theorem flushed1_12 (c : Dev nD) (t : Fin cfg1.N) :
    (dat1 V c).flushed 12 t = ((cfg1.win 12).blk t).view.read (Elt Ideal) (comb (V c main_v94) (V c main_v1_3) (V c main_v98) (V c main_v101) 2) := by
  show (cfg1.win 12).cut (grid1.coords t) ((dat1 V c).after 12 t) = _
  rw [after1_12]
  unfold out1_12
  rw [View.canon_unit_zero zero_offsets1]
  simp only [View.ld_unit_zero (S := S5000x64) zero_offsets1, View.ld_unit_zero (S := S1x64) zero_offsets1]
  funext j
  obtain ⟨p, q, rfl⟩ : ∃ (p : Fin 5000) (q : Fin 64), j = ix2 p q := ⟨j 0, j 1, eq_ix2 j⟩
  rw [View.read_apply]
  show Gen.k1_pay1 (Gen.k1_pay2 (View.ld (iblk1 V c 3 t) r1_c2)) (iblk1 V c 6 t) (iblk1 V c 2 t) (iblk1 V c 9 t) (ix2 p q) = (comb (V c main_v94) (V c main_v1_3) (V c main_v98) (V c main_v101) 2) (((cfg1.win 12).blk t).view.emb (ix2 p q))
  rw [emb1_12, pay_comb1, pay_col2, col_ld _ _ _ 2 rfl rfl, iblk1_9_eq]
  simp only [iblk1_3_apply, iblk1_6_apply, iblk1_2_apply]

/-- An index of the array is in point `t`'s block iff each coordinate is in the block's range on its axis. -/
theorem mem_blk1_12 (t : Fin cfg1.N) (i : S100000x64.Idx) :
    i ∈ ((cfg1.win 12).blk t).view.set ↔ ∀ a : Fin 2, win1_12.index t a * S5000x64.size a ≤ (i a).val ∧ (i a).val < win1_12.index t a * S5000x64.size a + S5000x64.size a := by
  show i ∈ ((View.whole main_v102_2).slice (win1_12.rect t)).set ↔ _
  rw [View.set_slice_whole, Rect.mem_set_unit]
  exact Iff.rfl

/-- Row `r` lies in block `r / 5000`: the twenty blocks cover the array. -/
theorem covered1_12 (i : S100000x64.Idx) :
    ∃ t : Fin cfg1.N, (cfg1.win 12).flush t = true ∧ i ∈ ((cfg1.win 12).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1⟩ := idx1_12 t
  refine ⟨t, flush1_12 t, ?_⟩
  rw [mem_blk1_12]
  intro a
  match a with
  | ⟨0, _⟩ => show win1_12.index t 0 * 5000 ≤ (i 0).val ∧ (i 0).val < win1_12.index t 0 * 5000 + 5000; rw [e0, ht]; omega
  | ⟨1, _⟩ => show win1_12.index t 1 * 64 ≤ (i 1).val ∧ (i 1).val < win1_12.index t 1 * 64 + 64; rw [e1]; omega

/-- The array after the region. -/
theorem final1_12 (c : Dev nD) : (dat1 V c).arrAt 12 cfg1.N = comb (V c main_v94) (V c main_v1_3) (V c main_v98) (V c main_v101) 2 :=
  (dat1 V c).arrAt_eq_of_cover 12 (comb (V c main_v94) (V c main_v1_3) (V c main_v98) (V c main_v101) 2) (fun t _ => flushed1_12 V c t) (covered1_12)

end Cert.KernelIdeal.Final

end
-- ==== Proof.KValue.lean ====
/-
  The kernel program's four results as the specification's functions of the arguments, at the ideal instance.

  The first launch finds the arguments as launched and the first bias as a one-row matrix; its four results are the linear
  layers. The second launch finds, per branch, the summed messages (a function of the edge array and of the first launch's
  result H), the three factor vectors as the columns of one array, H itself, and the bias as a one-row matrix; its result at
  (n, q) is  es[n, q] · dinv[n] + H[n, q] · (dinv[n] · dinv[n]) + b[q].
-/
import proofs.«157301_j41343355191554_2_alg».proof.Proof.KIRun
import proofs.«157301_j41343355191554_2_alg».proof.Proof.KHostRead
import proofs.«157301_j41343355191554_2_alg».proof.Proof.KFinal0
import proofs.«157301_j41343355191554_2_alg».proof.Proof.KFinal1

set_option maxRecDepth 16384

noncomputable section

namespace Cert.KernelIdeal.KValue

open Cert.KernelIdeal Cert.KernelIdeal.Gen Cert.KernelIdeal.Hand Cert.KernelIdeal.HostChain Cert.KernelIdeal.HostRead
open Idealize.ShloMosaic Idealize.ShloMosaic.TcCoe Idealize.ShloMosaic.ValueIdx Idealize.SL.Sem Idealize.ShloMosaic.StableHlo
open Idealize.ShloMosaic.Pipeline (Dat)
open Cert.KernelIdeal.Final
open scoped BigOperators

variable (m : (ℓ : Loc nD τ sig) → Buf (Elt Ideal) ℓ) (ρ : Dev nD → PrngReg) (c : Dev nD)

/-! ## What each launch finds -/

/-- The one host operation before the first launch reshapes the first bias into a one-row matrix. -/
theorem after0_v0 (W : Valuation τ sig (Elt Ideal)) :
    StableHlo.after hostOps0 W (Proc.devRef .tc main_v0) = brow (F := Ideal) (W (Proc.devRef .tc main_arg5)) := by
  unfold brow
  after_results_simp <;> rfl

/-- The first launch's bias operand is the first bias as a one-row matrix. -/
theorem V1_v0 : V1 m ρ c main_v0 = brow (F := Ideal) (m ((c : Thread nD τ).loc main_arg5)) :=
  after0_v0 (W0 m ρ c)

/-- After the first launch the arguments it does not take are as launched. -/
theorem W2_arg1 : W2 m ρ c (Proc.devRef .tc main_arg1) = m ((c : Thread nD τ).loc main_arg1) :=
  (W2_of_ne m ρ c main_arg1 (by decide)).trans (V1_arg m ρ c main_arg1 (by decide))
theorem W2_arg2 : W2 m ρ c (Proc.devRef .tc main_arg2) = m ((c : Thread nD τ).loc main_arg2) :=
  (W2_of_ne m ρ c main_arg2 (by decide)).trans (V1_arg m ρ c main_arg2 (by decide))
theorem W2_arg3 : W2 m ρ c (Proc.devRef .tc main_arg3) = m ((c : Thread nD τ).loc main_arg3) :=
  (W2_of_ne m ρ c main_arg3 (by decide)).trans (V1_arg m ρ c main_arg3 (by decide))
theorem W2_arg7 : W2 m ρ c (Proc.devRef .tc main_arg7) = m ((c : Thread nD τ).loc main_arg7) :=
  (W2_of_ne m ρ c main_arg7 (by decide)).trans (V1_arg m ρ c main_arg7 (by decide))
theorem W2_arg9 : W2 m ρ c (Proc.devRef .tc main_arg9) = m ((c : Thread nD τ).loc main_arg9) :=
  (W2_of_ne m ρ c main_arg9 (by decide)).trans (V1_arg m ρ c main_arg9 (by decide))
theorem W2_arg11 : W2 m ρ c (Proc.devRef .tc main_arg11) = m ((c : Thread nD τ).loc main_arg11) :=
  (W2_of_ne m ρ c main_arg11 (by decide)).trans (V1_arg m ρ c main_arg11 (by decide))

/-- The second launch's operands, branch by branch. -/
theorem V3_v32 : V3 m ρ c main_v32
    = esArr (F := Ideal) (m ((c : Thread nD τ).loc main_arg1)) ((dat0 (V1 m ρ) c).arrAt 7 cfg0.N) := by
  rw [V3_eq, after_v32, W2_arg1, W2_arr m ρ c 7]
theorem V3_v63 : V3 m ρ c main_v63
    = esArr (F := Ideal) (m ((c : Thread nD τ).loc main_arg2)) ((dat0 (V1 m ρ) c).arrAt 8 cfg0.N) := by
  rw [V3_eq, after_v63, W2_arg2, W2_arr m ρ c 8]
theorem V3_v94 : V3 m ρ c main_v94
    = esArr (F := Ideal) (m ((c : Thread nD τ).loc main_arg3)) ((dat0 (V1 m ρ) c).arrAt 9 cfg0.N) := by
  rw [V3_eq, after_v94, W2_arg3, W2_arr m ρ c 9]
theorem V3_v98 : V3 m ρ c main_v98 = dcat (F := Ideal) (m ((c : Thread nD τ).loc main_arg1))
    (m ((c : Thread nD τ).loc main_arg2)) (m ((c : Thread nD τ).loc main_arg3)) := by
  rw [V3_eq, after_v98, W2_arg1, W2_arg2, W2_arg3]
theorem V3_v99 : V3 m ρ c main_v99 = brow (F := Ideal) (m ((c : Thread nD τ).loc main_arg7)) := by
  rw [V3_eq, after_v99, W2_arg7]
theorem V3_v100 : V3 m ρ c main_v100 = brow (F := Ideal) (m ((c : Thread nD τ).loc main_arg9)) := by
  rw [V3_eq, after_v100, W2_arg9]
theorem V3_v101 : V3 m ρ c main_v101 = brow (F := Ideal) (m ((c : Thread nD τ).loc main_arg11)) := by
  rw [V3_eq, after_v101, W2_arg11]

/-! ## The four results -/

/-- The first result: the linear layer plus its bias. -/
def G0 (c : Dev nD) : Buf (Elt Ideal) ((c.tc : Thread nD τ).loc main_v1_0) :=
  fun i : S100000x64.Idx => Cert.Spec.dense (m ((c.tc : Thread nD τ).loc main_arg0)) (m ((c.tc : Thread nD τ).loc main_arg4))
    (m ((c.tc : Thread nD τ).loc main_arg5)) (i 0) (i 1)

/-- The second result: the graph convolution of the first branch. -/
def G1 (c : Dev nD) : Buf (Elt Ideal) ((c.tc : Thread nD τ).loc main_v102_0) :=
  fun i : S100000x64.Idx => Cert.Spec.gcn (m ((c.tc : Thread nD τ).loc main_arg1))
    (Cert.Spec.lin (m ((c.tc : Thread nD τ).loc main_arg0)) (m ((c.tc : Thread nD τ).loc main_arg6)))
    (m ((c.tc : Thread nD τ).loc main_arg7)) (i 0) (i 1)

/-- The third result: the second branch. -/
def G2 (c : Dev nD) : Buf (Elt Ideal) ((c.tc : Thread nD τ).loc main_v102_1) :=
  fun i : S100000x64.Idx => Cert.Spec.gcn (m ((c.tc : Thread nD τ).loc main_arg2))
    (Cert.Spec.lin (m ((c.tc : Thread nD τ).loc main_arg0)) (m ((c.tc : Thread nD τ).loc main_arg8)))
    (m ((c.tc : Thread nD τ).loc main_arg9)) (i 0) (i 1)

/-- The fourth result: the third branch. -/
def G3 (c : Dev nD) : Buf (Elt Ideal) ((c.tc : Thread nD τ).loc main_v102_2) :=
  fun i : S100000x64.Idx => Cert.Spec.gcn (m ((c.tc : Thread nD τ).loc main_arg3))
    (Cert.Spec.lin (m ((c.tc : Thread nD τ).loc main_arg0)) (m ((c.tc : Thread nD τ).loc main_arg10)))
    (m ((c.tc : Thread nD τ).loc main_arg11)) (i 0) (i 1)

/-- Every index of a 100000 × 64 array is a pair of coordinates. -/
theorem idx_pair (i : S100000x64.Idx) : ∃ (n : Fin 100000) (q : Fin 64), i = ix2 n q := ⟨i 0, i 1, eq_ix2 i⟩

/-- Rows times a weight, read at (n, q). -/
theorem lin_ix2 (A : S100000x64.Idx → EReal) (W : S64x64.Idx → EReal) (n : Fin 100000) (q : Fin 64) :
    Final.lin A W (ix2 n q) = ∑ k : Fin 64, A (ix2 n k) * W (ix2 k q) := rfl

/-- Rows times a weight plus a bias row, read at (n, q). -/
theorem linBias_ix2 (A : S100000x64.Idx → EReal) (W : S64x64.Idx → EReal) (B : S1x64.Idx → EReal) (n : Fin 100000) (q : Fin 64) :
    Final.linBias A W B (ix2 n q) = (∑ k : Fin 64, A (ix2 n k) * W (ix2 k q)) + B (ix2 (0 : Fin 1) q) := rfl

/-- One branch's combination, read at (n, q). -/
theorem comb_ix2 (E H : S100000x64.Idx → EReal) (D : S100000x3.Idx → EReal) (B : S1x64.Idx → EReal) (k : Fin 3)
    (n : Fin 100000) (q : Fin 64) :
    Final.comb E H D B k (ix2 n q)
      = (E (ix2 n q) * D (ix2 n k) + H (ix2 n q) * (D (ix2 n k) * D (ix2 n k))) + B (ix2 (0 : Fin 1) q) := rfl

/-- The first launch's first result is the linear layer plus its bias. -/
theorem kout0 : (dat0 (V1 m ρ) c).arrAt 6 cfg0.N = G0 m c := by
  rw [final0_6]
  funext i
  obtain ⟨n, q, rfl⟩ := idx_pair i
  refine (linBias_ix2 _ _ _ n q).trans ?_
  rw [V1_arg m ρ c main_arg0 (by decide), V1_arg m ρ c main_arg4 (by decide), V1_v0, brow_apply]
  rfl

/-- The first launch's other results are the three branches' linear layers. -/
theorem kH1 (n : Fin 100000) (q : Fin 64) : (dat0 (V1 m ρ) c).arrAt 7 cfg0.N (ix2 n q)
    = Cert.Spec.lin (m ((c.tc : Thread nD τ).loc main_arg0)) (m ((c.tc : Thread nD τ).loc main_arg6)) n q := by
  rw [final0_7]
  refine (lin_ix2 _ _ n q).trans ?_
  rw [V1_arg m ρ c main_arg0 (by decide), V1_arg m ρ c main_arg6 (by decide)]
  rfl
theorem kH2 (n : Fin 100000) (q : Fin 64) : (dat0 (V1 m ρ) c).arrAt 8 cfg0.N (ix2 n q)
    = Cert.Spec.lin (m ((c.tc : Thread nD τ).loc main_arg0)) (m ((c.tc : Thread nD τ).loc main_arg8)) n q := by
  rw [final0_8]
  refine (lin_ix2 _ _ n q).trans ?_
  rw [V1_arg m ρ c main_arg0 (by decide), V1_arg m ρ c main_arg8 (by decide)]
  rfl
theorem kH3 (n : Fin 100000) (q : Fin 64) : (dat0 (V1 m ρ) c).arrAt 9 cfg0.N (ix2 n q)
    = Cert.Spec.lin (m ((c.tc : Thread nD τ).loc main_arg0)) (m ((c.tc : Thread nD τ).loc main_arg10)) n q := by
  rw [final0_9]
  refine (lin_ix2 _ _ n q).trans ?_
  rw [V1_arg m ρ c main_arg0 (by decide), V1_arg m ρ c main_arg10 (by decide)]
  rfl

/-- The projected features of each branch, as a function of the node and the feature. -/
theorem kH1_fun : (fun (n : Fin 100000) (q : Fin 64) => (dat0 (V1 m ρ) c).arrAt 7 cfg0.N (ix2 n q))
    = Cert.Spec.lin (m ((c.tc : Thread nD τ).loc main_arg0)) (m ((c.tc : Thread nD τ).loc main_arg6)) :=
  funext fun n => funext fun q => kH1 m ρ c n q
theorem kH2_fun : (fun (n : Fin 100000) (q : Fin 64) => (dat0 (V1 m ρ) c).arrAt 8 cfg0.N (ix2 n q))
    = Cert.Spec.lin (m ((c.tc : Thread nD τ).loc main_arg0)) (m ((c.tc : Thread nD τ).loc main_arg8)) :=
  funext fun n => funext fun q => kH2 m ρ c n q
theorem kH3_fun : (fun (n : Fin 100000) (q : Fin 64) => (dat0 (V1 m ρ) c).arrAt 9 cfg0.N (ix2 n q))
    = Cert.Spec.lin (m ((c.tc : Thread nD τ).loc main_arg0)) (m ((c.tc : Thread nD τ).loc main_arg10)) :=
  funext fun n => funext fun q => kH3 m ρ c n q

/-- The second launch's first result is the first branch's graph convolution. -/
theorem kout1 : (dat1 (V3 m ρ) c).arrAt 10 cfg1.N = G1 m c := by
  rw [final1_10]
  funext i
  obtain ⟨n, q, rfl⟩ := idx_pair i
  refine (comb_ix2 _ _ _ _ _ n q).trans ?_
  rw [V3_v32, V3_v98, V3_main_v1_1, V3_v99, esArr_apply, dcat_col0, brow_apply, kH1, kH1_fun]
  rfl

/-- The second launch's second result is the second branch's graph convolution. -/
theorem kout2 : (dat1 (V3 m ρ) c).arrAt 11 cfg1.N = G2 m c := by
  rw [final1_11]
  funext i
  obtain ⟨n, q, rfl⟩ := idx_pair i
  refine (comb_ix2 _ _ _ _ _ n q).trans ?_
  rw [V3_v63, V3_v98, V3_main_v1_2, V3_v100, esArr_apply, dcat_col1, brow_apply, kH2, kH2_fun]
  rfl

/-- The second launch's third result is the third branch's graph convolution. -/
theorem kout3 : (dat1 (V3 m ρ) c).arrAt 12 cfg1.N = G3 m c := by
  rw [final1_12]
  funext i
  obtain ⟨n, q, rfl⟩ := idx_pair i
  refine (comb_ix2 _ _ _ _ _ n q).trans ?_
  rw [V3_v94, V3_v98, V3_main_v1_3, V3_v101, esArr_apply, dcat_col2, brow_apply, kH3, kH3_fun]
  rfl

/-! ## The run -/

/-- THE RUN WITH ITS VALUES: every weakly fair execution of @main terminates, nothing faulting; the four results are
    the specification's functions of the arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v1_0) = G0 m c
      ∧ r.2.mem ((c.tc : Thread nD τ).loc main_v102_0) = G1 m c
      ∧ r.2.mem ((c.tc : Thread nD τ).loc main_v102_1) = G2 m c
      ∧ r.2.mem ((c.tc : Thread nD τ).loc main_v102_2) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun r h c => by
    obtain ⟨h0, h1, h2, h3, ha⟩ := h c
    exact ⟨h0.trans (kout0 m ρ c), h1.trans (kout1 m ρ c), h2.trans (kout2 m ρ c), h3.trans (kout3 m ρ c), ha⟩)
    (Hand.run_main (F := Ideal) m ρ)

end Cert.KernelIdeal.KValue

end
-- ==== Proof.RefBranch.lean ====
/-
  One graph-convolution branch of the reference program as a function of its four arguments, in named stages.

  The reference computes each of its three graph-convolution results by the same operations on different arguments
  (an edge array, the node features, a weight matrix, a bias). The stages below are those operations with the
  arguments abstracted: the extended source and destination lists (the E edge words followed by 0 … N-1), the wrap of
  a negative index word, the degree count (a scatter-add of ones), the guarded inverse square root, the per-edge
  coefficient (two gathers and a product), the messages (a row gather times the coefficient), and the result
  (a row scatter-add plus the bias).
-/
import proofs.«157301_j41343355191554_2_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge array (the source words) as a vector of E words. -/
def srcRow (A : (⟨S2x1250000, .i32⟩ : BufTy).Contents (Elt F)) : (⟨S1250000, .i32⟩ : BufTy).Contents (Elt F) :=
  shapeCast _ (extractStridedSlice S1x1250000 ![0, 0] A slices_S2x1250000_S1x1250000_0_0) shapeCasts_S1x1250000_S1250000

/-- Row 1 of the edge array (the destination words) as a vector of E words. -/
def dstRow (A : (⟨S2x1250000, .i32⟩ : BufTy).Contents (Elt F)) : (⟨S1250000, .i32⟩ : BufTy).Contents (Elt F) :=
  shapeCast _ (extractStridedSlice S1x1250000 ![1, 0] A slices_S2x1250000_S1x1250000_1_0) shapeCasts_S1x1250000_S1250000

/-- A vector of E words followed by the words 0 … N-1: the self-loops listed after the edges. -/
def extList (r : (⟨S1250000, .i32⟩ : BufTy).Contents (Elt F)) : (⟨S1350000, .i32⟩ : BufTy).Contents (Elt F) :=
  concatenate S1350000 0 [⟨S1250000, r⟩, ⟨S100000, (iotaInDim S100000 32 0)⟩] concatenates_S1250000_S100000_S1350000_d0

/-- The extended source list. -/
def srcV (A : (⟨S2x1250000, .i32⟩ : BufTy).Contents (Elt F)) : (⟨S1350000, .i32⟩ : BufTy).Contents (Elt F) := extList (F := F) (srcRow (F := F) A)

/-- The extended destination list. -/
def dstV (A : (⟨S2x1250000, .i32⟩ : BufTy).Contents (Elt F)) : (⟨S1350000, .i32⟩ : BufTy).Contents (Elt F) := extList (F := F) (dstRow (F := F) A)

/-- A negative index word wrapped once by the number of nodes, entry by entry. -/
def wrapV (v : (⟨S1350000, .i32⟩ : BufTy).Contents (Elt F)) : (⟨S1350000, .i32⟩ : BufTy).Contents (Elt F) :=
  select (cmpi .slt v (broadcastInDim S1350000 ![] bcast_S_S1350000 (constantI S_ 32 0#32))) (addi v (broadcastInDim S1350000 ![] bcast_S_S1350000 (constantI S_ 32 100000#32))) v

/-- A vector of E + N entries as a one-column matrix. -/
def col {α : Type} (v : S1350000.Idx → α) : S1350000x1.Idx → α :=
  broadcastInDim S1350000x1 ![0] bcast_S1350000_S1350000x1_0 v

/-- The degree count: ones added at the destinations, starting from zero. -/
def degV (A : (⟨S2x1250000, .i32⟩ : BufTy).Contents (Elt F)) : (⟨S100000, .f32⟩ : BufTy).Contents (Elt F) :=
  Host.scatterAdd scatter_S100000_S1350000x1_S1350000_n_0_0_1 (broadcastInDim S100000 ![] bcast_S_S100000 (constant S_ .f32 0x00000000#32)) (col (dstV (F := F) A)) (broadcastInDim S1350000 ![] bcast_S_S1350000 (constant S_ .f32 0x3F800000#32))

/-- The inverse square root of the degree where the degree is positive, zero elsewhere. -/
def dinvV (A : (⟨S2x1250000, .i32⟩ : BufTy).Contents (Elt F)) : (⟨S100000, .f32⟩ : BufTy).Contents (Elt F) :=
  select (cmpf (F := F) .ogt (degV (F := F) A) (broadcastInDim S100000 ![] bcast_S_S100000 (constant S_ .f32 0x00000000#32))) (Host.rsqrt (degV (F := F) A)) (broadcastInDim S100000 ![] bcast_S_S100000 (id (constant S_ .f32 0x00000000#32)))

/-- The coefficient of each listed edge: the source's factor times the destination's. -/
def normV (A : (⟨S2x1250000, .i32⟩ : BufTy).Contents (Elt F)) : (⟨S1350000, .f32⟩ : BufTy).Contents (Elt F) :=
  mulf (Host.gather gather_S100000_S1350000x1_S1350000_n_0_n_n_0_1_1 (dinvV (F := F) A) (col (wrapV (F := F) (srcV (F := F) A)))) (Host.gather gather_S100000_S1350000x1_S1350000_n_0_n_n_0_1_1 (dinvV (F := F) A) (col (wrapV (F := F) (dstV (F := F) A))))

/-- The linear layer's product. -/
def hV (X : (⟨S100000x64, .f32⟩ : BufTy).Contents (Elt F)) (W : (⟨S64x64, .f32⟩ : BufTy).Contents (Elt F)) : (⟨S100000x64, .f32⟩ : BufTy).Contents (Elt F) :=
  Host.dotGeneral dot_S100000x64_S64x64_S100000x64_1_0_0_1_n_n none X W

/-- The message of each listed edge: the source's row of the product times the edge's coefficient. -/
def msgV (A : (⟨S2x1250000, .i32⟩ : BufTy).Contents (Elt F)) (X : (⟨S100000x64, .f32⟩ : BufTy).Contents (Elt F)) (W : (⟨S64x64, .f32⟩ : BufTy).Contents (Elt F)) : (⟨S1350000x64, .f32⟩ : BufTy).Contents (Elt F) :=
  mulf (Host.gather gather_S100000x64_S1350000x1_S1350000x64_1_0_n_n_0_1_164 (hV (F := F) X W) (col (wrapV (F := F) (srcV (F := F) A)))) (broadcastInDim S1350000x64 ![0, 1] bcast_S1350000x1_S1350000x64_0_1 (col (normV (F := F) A)))

/-- The messages added at the destinations, starting from zero. -/
def aggV (A : (⟨S2x1250000, .i32⟩ : BufTy).Contents (Elt F)) (X : (⟨S100000x64, .f32⟩ : BufTy).Contents (Elt F)) (W : (⟨S64x64, .f32⟩ : BufTy).Contents (Elt F)) : (⟨S100000x64, .f32⟩ : BufTy).Contents (Elt F) :=
  Host.scatterAdd scatter_S100000x64_S1350000x1_S1350000x64_1_0_0_1 (broadcastInDim S100000x64 ![] bcast_S_S100000x64 (constant S_ .f32 0x00000000#32)) (col (dstV (F := F) A)) (msgV (F := F) A X W)

/-- One graph-convolution result: the aggregated messages plus the bias spread over the rows. -/
def refBranch (A : (⟨S2x1250000, .i32⟩ : BufTy).Contents (Elt F)) (X : (⟨S100000x64, .f32⟩ : BufTy).Contents (Elt F)) (W : (⟨S64x64, .f32⟩ : BufTy).Contents (Elt F)) (b : (⟨S64, .f32⟩ : BufTy).Contents (Elt F)) : (⟨S100000x64, .f32⟩ : BufTy).Contents (Elt F) :=
  addf (aggV (F := F) A X W) (broadcastInDim S100000x64 ![0, 1] bcast_S1x64_S100000x64_0_1 (broadcastInDim S1x64 ![1] bcast_S64_S1x64_1 b))

end Cert.ReferenceIdeal.RefValue

end
-- ==== Proof.RefReadIdx.lean ====
/-
  The integer stages of a graph-convolution branch read at a position.

  Position j of the extended source (destination) list is the j-th source (destination) word of the edge array for
  j < E and the word j - E after that; the wrap of a list reads the wrap of the word; a list as a one-column
  matrix reads the list.
-/
import proofs.«157301_j41343355191554_2_alg».proof.Proof.RefBranch
import proofs.«157301_j41343355191554_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- What joining E words and N words along their one axis reads at position j: the j-th of the first for j < E, the
    (j - E)-th of the second after that. -/
def ConcatReads : Prop :=
  ∀ (a : IVec S1250000 32) (b : IVec S100000 32) (j : Fin 1350000),
    concatenate S1350000 0 [⟨S1250000, a⟩, ⟨S100000, b⟩] concatenates_S1250000_S100000_S1350000_d0 (ix1 j)
      = if hj : j.val < 1250000 then a (ix1 ⟨j.val, hj⟩) else b (ix1 ⟨j.val - 1250000, by have := j.isLt; omega⟩)

/-- Row 0 of the edge array at position e. -/
theorem srcRow_apply (A : (⟨S2x1250000, .i32⟩ : BufTy).Contents (Elt Ideal)) (e : Fin 1250000) : srcRow (F := Ideal) A (ix1 e) = A (ix2 (0 : Fin 2) e) := by
  unfold srcRow
  rw [shapeCast_apply _ shapeCasts_S1x1250000_S1250000 (ix1 e) (ix2 (0 : Fin 1) e)
    (by rw [Shape.rowMajor_val_two, Shape.rowMajor_val_one]; show 0 * 1250000 + e.val = e.val; omega)]
  exact extractStridedSlice_apply ![0, 0] A slices_S2x1250000_S1x1250000_0_0 (ix2 (0 : Fin 1) e) (ix2 (0 : Fin 2) e) (fun a => match a with
    | ⟨0, _⟩ => by show 0 = 0 + 0; rfl
    | ⟨1, _⟩ => by show e.val = 0 + e.val; omega)

/-- Row 1 of the edge array at position e. -/
theorem dstRow_apply (A : (⟨S2x1250000, .i32⟩ : BufTy).Contents (Elt Ideal)) (e : Fin 1250000) : dstRow (F := Ideal) A (ix1 e) = A (ix2 (1 : Fin 2) e) := by
  unfold dstRow
  rw [shapeCast_apply _ shapeCasts_S1x1250000_S1250000 (ix1 e) (ix2 (0 : Fin 1) e)
    (by rw [Shape.rowMajor_val_two, Shape.rowMajor_val_one]; show 0 * 1250000 + e.val = e.val; omega)]
  exact extractStridedSlice_apply ![1, 0] A slices_S2x1250000_S1x1250000_1_0 (ix2 (0 : Fin 1) e) (ix2 (1 : Fin 2) e) (fun a => match a with
    | ⟨0, _⟩ => by show 1 = 1 + 0; rfl
    | ⟨1, _⟩ => by show e.val = 0 + e.val; omega)

/-- The extended list at position j. -/
theorem extList_apply (hC : ConcatReads) (r : (⟨S1250000, .i32⟩ : BufTy).Contents (Elt Ideal)) (j : Fin 1350000) :
    extList (F := Ideal) r (ix1 j) = if hj : j.val < 1250000 then r (ix1 ⟨j.val, hj⟩) else BitVec.ofNat 32 (j.val - 1250000) := by
  unfold extList
  rw [hC]
  rfl

/-- The extended source list at position j is the specification's source word. -/
theorem srcV_apply (hC : ConcatReads) (A : (⟨S2x1250000, .i32⟩ : BufTy).Contents (Elt Ideal)) (j : Fin 1350000) : srcV (F := Ideal) A (ix1 j) = Spec.srcx A j := by
  unfold srcV Spec.srcx
  rw [extList_apply hC]
  by_cases h : j.val < 1250000
  · rw [dif_pos h, dif_pos h, srcRow_apply]
  · rw [dif_neg h, dif_neg h]

/-- The extended destination list at position j is the specification's destination word. -/
theorem dstV_apply (hC : ConcatReads) (A : (⟨S2x1250000, .i32⟩ : BufTy).Contents (Elt Ideal)) (j : Fin 1350000) : dstV (F := Ideal) A (ix1 j) = Spec.dstx A j := by
  unfold dstV Spec.dstx
  rw [extList_apply hC]
  by_cases h : j.val < 1250000
  · rw [dif_pos h, dif_pos h, dstRow_apply]
  · rw [dif_neg h, dif_neg h]

/-- The wrapped list reads the wrap of the word. -/
theorem wrapV_apply (v : (⟨S1350000, .i32⟩ : BufTy).Contents (Elt Ideal)) (i : S1350000.Idx) :
    wrapV (F := Ideal) v i = Spec.wrap (v i) := by
  show Scalar.select (IntOp.cmpi .slt (v i) 0#32) (IntOp.addi (v i) 100000#32) (v i) = _
  unfold Spec.wrap Scalar.select IntOp.cmpi IntOp.addi
  cases h : (v i).slt 0#32 <;> simp

/-- A list as a one-column matrix reads the list. -/
theorem col_apply {α : Type} (v : S1350000.Idx → α) (j : Fin 1350000) : col v (ix2 j (0 : Fin 1)) = v (ix1 j) := by
  unfold col
  exact broadcastInDim_apply _ bcast_S1350000_S1350000x1_0 v (ix2 j (0 : Fin 1)) (ix1 j) (fun a => match a with
    | ⟨0, _⟩ => by show j.val = if (1350000 : Nat) = 1 then 0 else j.val; rw [if_neg (by decide)])

/-- The row a wrapped word names, after the clamp into the array. -/
theorem row_val (v : BitVec 32) : (Spec.row v).val = min (Spec.wrap v).toInt.toNat 99999 := rfl

end Cert.ReferenceIdeal.RefValue

end
-- ==== Proof.RefReadDeg.lean ====
/-
  The degree count and the guarded inverse square root of a graph-convolution branch, read at a node.

  The degree of node n is the number of positions of the extended destination list whose word is n (ones added
  at the destinations, starting from zero); the factor of node n is the inverse square root of its degree where the
  degree is positive, and zero elsewhere.
-/
import proofs.«157301_j41343355191554_2_alg».proof.Proof.RefReadIdx
import Idealize.ShloMosaic.PureOps.Ideal.Laws
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- What the one-axis scatter-add reads at node i: the operand there plus the updates whose index word is i. -/
def Scatter1Reads : Prop :=
  ∀ (x : FVec Ideal S100000 .f32) (idx : IVec S1350000x1 32) (u : FVec Ideal S1350000 .f32) (i : Fin 100000),
    Host.scatterAdd scatter_S100000_S1350000x1_S1350000_n_0_0_1 x idx u (ix1 i)
      = x (ix1 i) + ∑ e : Fin 1350000, if (idx (ix2 e (0 : Fin 1))).toInt = (i.val : ℤ) then u (ix1 e) else 0

/-- A constant spread over any shape reads the value its word denotes. -/
theorem constV_apply {s : Shape} (h : S_.BroadcastsInDim s ![]) (w : BitVec 32) (j : s.Idx) :
    broadcastInDim s ![] h (constant (F := Ideal) S_ .f32 w) j = Ideal.ofBits .f32 w := by
  rw [broadcastInDim_scalar_apply]
  rfl

/-- The all-zero array reads zero. -/
theorem zeroV_apply {s : Shape} (h : S_.BroadcastsInDim s ![]) (j : s.Idx) :
    broadcastInDim s ![] h (constant (F := Ideal) S_ .f32 0x00000000#32) j = 0 := by
  rw [constV_apply, Ideal.ofBits_zero_f32]

/-- The all-one array reads one. -/
theorem oneV_apply {s : Shape} (h : S_.BroadcastsInDim s ![]) (j : s.Idx) :
    broadcastInDim s ![] h (constant (F := Ideal) S_ .f32 0x3F800000#32) j = 1 := by
  rw [constV_apply, Ideal.ofBits_one_f32]

/-- The degree count at node n is the specification's degree over the extended list. -/
theorem degV_apply (hC : ConcatReads) (hS : Scatter1Reads) (A : (⟨S2x1250000, .i32⟩ : BufTy).Contents (Elt Ideal)) (n : Fin 100000) :
    degV (F := Ideal) A (ix1 n) = Spec.degx A n := by
  unfold degV Spec.degx
  rw [hS, zeroV_apply]
  refine congrArg (fun t : EReal => 0 + t) (Finset.sum_congr rfl fun e _ => ?_)
  rw [col_apply, dstV_apply hC, oneV_apply]

/-- The host's inverse square root at an index. -/
theorem hostRsqrt_apply {s : Shape} {φ : FTy} (x : FVec Ideal s φ) (i : s.Idx) : Host.rsqrt x i = Ideal.rsqrt (x i) := rfl

/-- The guarded inverse square root at node n is the specification's. -/
theorem dinvV_apply (hC : ConcatReads) (hS : Scatter1Reads) (A : (⟨S2x1250000, .i32⟩ : BufTy).Contents (Elt Ideal)) (n : Fin 100000) :
    dinvV (F := Ideal) A (ix1 n) = Spec.dinvx A n := by
  unfold dinvV
  rw [select_apply, cmpf_apply, hostRsqrt_apply, id_eq, zeroV_apply, degV_apply hC hS, Ideal.cmpf_def]
  unfold Spec.dinvx Scalar.select Ideal.cmp
  by_cases h : 0 < Spec.degx A n <;> simp [h]

end Cert.ReferenceIdeal.RefValue

end
-- ==== Proof.RefReadLin.lean ====
/-
  The linear layer's product read at an entry: entry (n, q) of X · W is Σ_k X[n, k] · W[k, q].
-/
import proofs.«157301_j41343355191554_2_alg».proof.Proof.RefBranch
import proofs.«157301_j41343355191554_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

theorem dot_lhs_0 (i : S100000x64.Idx) (r : dot_S100000x64_S64x64_S100000x64_1_0_0_1_n_n.contr.Idx) : (dot_S100000x64_S64x64_S100000x64_1_0_0_1_n_n.lhsIdx i r 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem dot_lhs_1 (i : S100000x64.Idx) (r : dot_S100000x64_S64x64_S100000x64_1_0_0_1_n_n.contr.Idx) : (dot_S100000x64_S64x64_S100000x64_1_0_0_1_n_n.lhsIdx i r 1).val = (r ⟨0, by decide⟩).val :=
  dot_S100000x64_S64x64_S100000x64_1_0_0_1_n_n.lhsIdx_val_of_single rfl i r

theorem dot_rhs_0 (i : S100000x64.Idx) (r : dot_S100000x64_S64x64_S100000x64_1_0_0_1_n_n.contr.Idx) : (dot_S100000x64_S64x64_S100000x64_1_0_0_1_n_n.rhsIdx i r 0).val = (r ⟨0, by decide⟩).val :=
  dot_S100000x64_S64x64_S100000x64_1_0_0_1_n_n.rhsIdx_val_of_single rfl i r

theorem dot_rhs_1 (i : S100000x64.Idx) (r : dot_S100000x64_S64x64_S100000x64_1_0_0_1_n_n.contr.Idx) : (dot_S100000x64_S64x64_S100000x64_1_0_0_1_n_n.rhsIdx i r 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The product at entry (n, q) is the specification's linear layer. -/
theorem hV_apply (X : (⟨S100000x64, .f32⟩ : BufTy).Contents (Elt Ideal)) (W : (⟨S64x64, .f32⟩ : BufTy).Contents (Elt Ideal)) (n : Fin 100000) (q : Fin 64) :
    hV (F := Ideal) X W (ix2 n q) = Spec.lin X W n q := by
  unfold hV Spec.lin
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 n q) ((ValueIdx.contrEquiv1 dot_S100000x64_S64x64_S100000x64_1_0_0_1_n_n 64 rfl rfl).symm k) = ix2 n k := funext fun a => Fin.ext (by
    match a with
    | ⟨0, _⟩ => exact dot_lhs_0 _ _
    | ⟨1, _⟩ => exact (dot_lhs_1 _ _).trans hk)
  have er : dot_S100000x64_S64x64_S100000x64_1_0_0_1_n_n.rhsIdx (ix2 n q) ((ValueIdx.contrEquiv1 dot_S100000x64_S64x64_S100000x64_1_0_0_1_n_n 64 rfl rfl).symm k) = ix2 k q := funext fun a => Fin.ext (by
    match a with
    | ⟨0, _⟩ => exact (dot_rhs_0 _ _).trans hk
    | ⟨1, _⟩ => exact dot_rhs_1 _ _)
  rw [el, er]

end Cert.ReferenceIdeal.RefValue

end
-- ==== Proof.RefReadMsg.lean ====
/-
  The coefficients, the messages and the result of a graph-convolution branch, read at an entry.

  The coefficient of listed edge j is the factor of the row its source word names times the factor of the row its
  destination word names; its message at column q is the source row's entry of the linear layer's product times the
  coefficient; the result at (n, q) is the sum of the messages of the listed edges whose destination word is n, plus
  the bias at q.
-/
import proofs.«157301_j41343355191554_2_alg».proof.Proof.RefReadDeg
import proofs.«157301_j41343355191554_2_alg».proof.Proof.RefReadLin

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- What the one-axis gather reads at position e: the operand at the row its index word names, clamped into the array. -/
def Gather1Reads : Prop :=
  ∀ (x : FVec Ideal S100000 .f32) (idx : IVec S1350000x1 32) (e : Fin 1350000) (r : Fin 100000),
    r.val = min (idx (ix2 e (0 : Fin 1))).toInt.toNat 99999 →
    Host.gather gather_S100000_S1350000x1_S1350000_n_0_n_n_0_1_1 x idx (ix1 e) = x (ix1 r)

/-- What the row gather reads at (e, q): the operand's row its index word names, clamped into the array, at column q. -/
def Gather2Reads : Prop :=
  ∀ (x : FVec Ideal S100000x64 .f32) (idx : IVec S1350000x1 32) (e : Fin 1350000) (q : Fin 64) (r : Fin 100000),
    r.val = min (idx (ix2 e (0 : Fin 1))).toInt.toNat 99999 →
    Host.gather gather_S100000x64_S1350000x1_S1350000x64_1_0_n_n_0_1_164 x idx (ix2 e q) = x (ix2 r q)

/-- What the row scatter-add reads at (i, q): the operand there plus the updates' rows whose index word is i, at column q. -/
def Scatter2Reads : Prop :=
  ∀ (x : FVec Ideal S100000x64 .f32) (idx : IVec S1350000x1 32) (u : FVec Ideal S1350000x64 .f32) (i : Fin 100000) (q : Fin 64),
    Host.scatterAdd scatter_S100000x64_S1350000x1_S1350000x64_1_0_0_1 x idx u (ix2 i q)
      = x (ix2 i q) + ∑ e : Fin 1350000, if (idx (ix2 e (0 : Fin 1))).toInt = (i.val : ℤ) then u (ix2 e q) else 0

/-- The index word the gathers read at position j of a wrapped list. -/
theorem gidx_apply (v : (⟨S1350000, .i32⟩ : BufTy).Contents (Elt Ideal)) (j : Fin 1350000) :
    (Spec.row (v (ix1 j))).val = min (col (wrapV (F := Ideal) v) (ix2 j (0 : Fin 1))).toInt.toNat 99999 := by
  rw [col_apply, wrapV_apply, row_val]

/-- The coefficient of listed edge j. -/
theorem normV_apply (hC : ConcatReads) (hS : Scatter1Reads) (hG : Gather1Reads) (A : (⟨S2x1250000, .i32⟩ : BufTy).Contents (Elt Ideal)) (j : Fin 1350000) :
    normV (F := Ideal) A (ix1 j) = Spec.dinvx A (Spec.row (Spec.srcx A j)) * Spec.dinvx A (Spec.row (Spec.dstx A j)) := by
  unfold normV
  rw [mulf_apply, hG _ _ j _ (gidx_apply _ j), hG _ _ j _ (gidx_apply _ j), dinvV_apply hC hS, dinvV_apply hC hS,
    srcV_apply hC, dstV_apply hC]

/-- The message of listed edge j at column q. -/
theorem msgV_apply (hC : ConcatReads) (hS : Scatter1Reads) (hG : Gather1Reads) (hG2 : Gather2Reads)
    (A : (⟨S2x1250000, .i32⟩ : BufTy).Contents (Elt Ideal)) (X : (⟨S100000x64, .f32⟩ : BufTy).Contents (Elt Ideal)) (W : (⟨S64x64, .f32⟩ : BufTy).Contents (Elt Ideal)) (j : Fin 1350000) (q : Fin 64) :
    msgV (F := Ideal) A X W (ix2 j q)
      = Spec.lin X W (Spec.row (Spec.srcx A j)) q * (Spec.dinvx A (Spec.row (Spec.srcx A j)) * Spec.dinvx A (Spec.row (Spec.dstx A j))) := by
  unfold msgV
  rw [mulf_apply, hG2 _ _ j q _ (gidx_apply _ j), hV_apply, srcV_apply hC,
    broadcastInDim_apply _ bcast_S1350000x1_S1350000x64_0_1 _ (ix2 j q) (ix2 j (0 : Fin 1)) (fun a => match a with
      | ⟨0, _⟩ => by show j.val = if (1350000 : Nat) = 1 then 0 else j.val; rw [if_neg (by decide)]
      | ⟨1, _⟩ => by show 0 = if (1 : Nat) = 1 then 0 else q.val; rw [if_pos rfl]),
    col_apply, normV_apply hC hS hG]

/-- The aggregated messages at (n, q). -/
theorem aggV_apply (hC : ConcatReads) (hS : Scatter1Reads) (hG : Gather1Reads) (hG2 : Gather2Reads) (hS2 : Scatter2Reads)
    (A : (⟨S2x1250000, .i32⟩ : BufTy).Contents (Elt Ideal)) (X : (⟨S100000x64, .f32⟩ : BufTy).Contents (Elt Ideal)) (W : (⟨S64x64, .f32⟩ : BufTy).Contents (Elt Ideal)) (n : Fin 100000) (q : Fin 64) :
    aggV (F := Ideal) A X W (ix2 n q)
      = 0 + ∑ j : Fin 1350000, if (Spec.dstx A j).toInt = (n.val : ℤ) then
          Spec.lin X W (Spec.row (Spec.srcx A j)) q * (Spec.dinvx A (Spec.row (Spec.srcx A j)) * Spec.dinvx A (Spec.row (Spec.dstx A j))) else 0 := by
  unfold aggV
  rw [hS2, zeroV_apply]
  refine congrArg (fun t : EReal => 0 + t) (Finset.sum_congr rfl fun j _ => ?_)
  rw [col_apply, dstV_apply hC, msgV_apply hC hS hG hG2]

/-- The bias spread over the rows reads the bias at the column. -/
theorem biasV_apply (b : (⟨S64, .f32⟩ : BufTy).Contents (Elt Ideal)) (n : Fin 100000) (q : Fin 64) :
    broadcastInDim S100000x64 ![0, 1] bcast_S1x64_S100000x64_0_1 (broadcastInDim S1x64 ![1] bcast_S64_S1x64_1 b) (ix2 n q) = b (ix1 q) := by
  rw [broadcastInDim_apply _ bcast_S1x64_S100000x64_0_1 _ (ix2 n q) (ix2 (0 : Fin 1) q) (fun a => match a with
    | ⟨0, _⟩ => by show 0 = if (1 : Nat) = 1 then 0 else n.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- One graph-convolution result of the reference at (n, q) is the specification's. -/
theorem refBranch_apply (hC : ConcatReads) (hS : Scatter1Reads) (hG : Gather1Reads) (hG2 : Gather2Reads) (hS2 : Scatter2Reads)
    (A : (⟨S2x1250000, .i32⟩ : BufTy).Contents (Elt Ideal)) (X : (⟨S100000x64, .f32⟩ : BufTy).Contents (Elt Ideal)) (W : (⟨S64x64, .f32⟩ : BufTy).Contents (Elt Ideal)) (b : (⟨S64, .f32⟩ : BufTy).Contents (Elt Ideal)) (n : Fin 100000) (q : Fin 64) :
    refBranch (F := Ideal) A X W b (ix2 n q) = Spec.gcnRef A (Spec.lin X W) b n q := by
  unfold refBranch Spec.gcnRef
  rw [addf_apply, aggV_apply hC hS hG hG2 hS2, biasV_apply]

end Cert.ReferenceIdeal.RefValue

end
-- ==== Proof.RefRead.lean ====
/-
  The four results of the reference program, each read at an entry (n, q) as the specification's function of the arguments.

  The first result is the linear layer plus its bias. Each of the other three is one graph-convolution branch: the
  same operations on an edge array, the node features, a weight matrix and a bias, so one reading of the branch with
  its arguments abstracted serves all three. What the host's concatenation, gathers and scatter-adds read at an
  index comes from the general lemmas about those operations, instantiated at the program's dimension records.
-/
import proofs.«157301_j41343355191554_2_alg».proof.Proof.RefReadMsg
import proofs.«157301_j41343355191554_2_alg».proof.Proof.RefRunP
import proofs.«157301_j41343355191554_2_alg».proof.Proof.LibScatterRead
import proofs.«157301_j41343355191554_2_alg».proof.Proof.LibGatherRead
import proofs.«157301_j41343355191554_2_alg».proof.Proof.LibConcatRead

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-! ## The host operations of a branch at an index -/

theorem concatReads : ConcatReads := fun a b j =>
  Idealize.ShloMosaic.ConcatRead.concat2_ix1 (E := 1250000) (n := 100000) (m := 1350000) (by norm_num) a b
    concatenates_S1250000_S100000_S1350000_d0 j

theorem scatter1Reads : Scatter1Reads := fun x idx u i =>
  Idealize.ShloMosaic.ScatterRead.Flat.scatterAdd_ix1 (d := scatter_S100000_S1350000x1_S1350000_n_0_0_1) ⟨rfl, rfl, rfl, rfl⟩ x idx u i

theorem scatter2Reads : Scatter2Reads := fun x idx u i q =>
  Idealize.ShloMosaic.ScatterRead.Rows.scatterAdd_ix2 (d := scatter_S100000x64_S1350000x1_S1350000x64_1_0_0_1) ⟨rfl, rfl, rfl, rfl⟩ x idx u i q

theorem gather1Reads : Gather1Reads := fun x idx e r hr => by
  rw [Idealize.ShloMosaic.GatherRead.Flat.gather_ix1 (d := gather_S100000_S1350000x1_S1350000_n_0_n_n_0_1_1) ⟨rfl, rfl, rfl, rfl, rfl, rfl⟩ (by norm_num) x idx e]
  exact congrArg (fun t : Fin 100000 => x (ix1 t)) (Fin.ext hr.symm)

theorem gather2Reads : Gather2Reads := fun x idx e q r hr => by
  rw [Idealize.ShloMosaic.GatherRead.Rows.gather_ix2 (d := gather_S100000x64_S1350000x1_S1350000x64_1_0_n_n_0_1_164) ⟨rfl, rfl, rfl, rfl, rfl, rfl⟩ (by norm_num) x idx e q]
  exact congrArg (fun t : Fin 100000 => x (ix2 t q)) (Fin.ext hr.symm)

/-- One graph-convolution branch of the reference at (n, q) is the specification's result in the reference's form. -/
theorem refBranch_read (A : (⟨S2x1250000, .i32⟩ : BufTy).Contents (Elt Ideal)) (X : (⟨S100000x64, .f32⟩ : BufTy).Contents (Elt Ideal)) (W : (⟨S64x64, .f32⟩ : BufTy).Contents (Elt Ideal)) (b : (⟨S64, .f32⟩ : BufTy).Contents (Elt Ideal)) (n : Fin 100000) (q : Fin 64) :
    refBranch (F := Ideal) A X W b (ix2 n q) = Spec.gcnRef A (Spec.lin X W) b n q :=
  refBranch_apply concatReads scatter1Reads gather1Reads gather2Reads scatter2Reads A X W b n q

/-! ## The run's terms are the branch at the program's arguments -/

section
variable {F : FTy → Type} [FloatOps F]

theorem res_v50_eq (m : (ℓ : Loc nD τ sig) → Buf (Elt F) ℓ) (c : Dev nD) :
    ValueP.res_main_v50 (F := F) m c = refBranch (F := F) (m ((c.tc : Thread nD τ).loc main_arg1)) (m ((c.tc : Thread nD τ).loc main_arg0)) (m ((c.tc : Thread nD τ).loc main_arg6)) (m ((c.tc : Thread nD τ).loc main_arg7)) := by
  unfold ValueP.res_main_v50; rfl

theorem res_v97_eq (m : (ℓ : Loc nD τ sig) → Buf (Elt F) ℓ) (c : Dev nD) :
    ValueP.res_main_v97 (F := F) m c = refBranch (F := F) (m ((c.tc : Thread nD τ).loc main_arg2)) (m ((c.tc : Thread nD τ).loc main_arg0)) (m ((c.tc : Thread nD τ).loc main_arg8)) (m ((c.tc : Thread nD τ).loc main_arg9)) := by
  unfold ValueP.res_main_v97; rfl

theorem res_v144_eq (m : (ℓ : Loc nD τ sig) → Buf (Elt F) ℓ) (c : Dev nD) :
    ValueP.res_main_v144 (F := F) m c = refBranch (F := F) (m ((c.tc : Thread nD τ).loc main_arg3)) (m ((c.tc : Thread nD τ).loc main_arg0)) (m ((c.tc : Thread nD τ).loc main_arg10)) (m ((c.tc : Thread nD τ).loc main_arg11)) := by
  unfold ValueP.res_main_v144; rfl

end

/-! ## The four results at an entry -/

/-- The first result, as the run states it, at (n, q): the linear layer plus its bias. -/
theorem ref0 (m : (ℓ : Loc nD τ sig) → Buf (Elt Ideal) ℓ) (c : Dev nD) (n : Fin 100000) (q : Fin 64) :
    (addf (F := Ideal) (Host.dotGeneral (F := Ideal) (φ₁ := .f32) (φ₂ := .f32) dot_S100000x64_S64x64_S100000x64_1_0_0_1_n_n none (m ((c.tc : Thread nD τ).loc main_arg0)) (m ((c.tc : Thread nD τ).loc main_arg4))) (broadcastInDim S100000x64 ![0, 1] bcast_S1x64_S100000x64_0_1 (broadcastInDim S1x64 ![1] bcast_S64_S1x64_1 (m ((c.tc : Thread nD τ).loc main_arg5)))) : (⟨S100000x64, .f32⟩ : BufTy).Contents (Elt Ideal)) (ix2 n q)
      = Spec.dense (m ((c.tc : Thread nD τ).loc main_arg0)) (m ((c.tc : Thread nD τ).loc main_arg4)) (m ((c.tc : Thread nD τ).loc main_arg5)) n q := by
  unfold Spec.dense
  rw [addf_apply, biasV_apply]
  exact congrArg (fun t : EReal => t + (m ((c.tc : Thread nD τ).loc main_arg5)) (ix1 q)) (hV_apply (m ((c.tc : Thread nD τ).loc main_arg0)) (m ((c.tc : Thread nD τ).loc main_arg4)) n q)

/-- The second result at (n, q). -/
theorem ref1 (m : (ℓ : Loc nD τ sig) → Buf (Elt Ideal) ℓ) (c : Dev nD) (n : Fin 100000) (q : Fin 64) :
    ValueP.res_main_v50 (F := Ideal) m c (ix2 n q)
      = Spec.gcnRef (m ((c.tc : Thread nD τ).loc main_arg1)) (Spec.lin (m ((c.tc : Thread nD τ).loc main_arg0)) (m ((c.tc : Thread nD τ).loc main_arg6))) (m ((c.tc : Thread nD τ).loc main_arg7)) n q :=
  (congrFun (res_v50_eq (F := Ideal) m c) (ix2 n q)).trans (refBranch_read _ _ _ _ n q)

/-- The third result at (n, q). -/
theorem ref2 (m : (ℓ : Loc nD τ sig) → Buf (Elt Ideal) ℓ) (c : Dev nD) (n : Fin 100000) (q : Fin 64) :
    ValueP.res_main_v97 (F := Ideal) m c (ix2 n q)
      = Spec.gcnRef (m ((c.tc : Thread nD τ).loc main_arg2)) (Spec.lin (m ((c.tc : Thread nD τ).loc main_arg0)) (m ((c.tc : Thread nD τ).loc main_arg8))) (m ((c.tc : Thread nD τ).loc main_arg9)) n q :=
  (congrFun (res_v97_eq (F := Ideal) m c) (ix2 n q)).trans (refBranch_read _ _ _ _ n q)

/-- The fourth result at (n, q). -/
theorem ref3 (m : (ℓ : Loc nD τ sig) → Buf (Elt Ideal) ℓ) (c : Dev nD) (n : Fin 100000) (q : Fin 64) :
    ValueP.res_main_v144 (F := Ideal) m c (ix2 n q)
      = Spec.gcnRef (m ((c.tc : Thread nD τ).loc main_arg3)) (Spec.lin (m ((c.tc : Thread nD τ).loc main_arg0)) (m ((c.tc : Thread nD τ).loc main_arg10))) (m ((c.tc : Thread nD τ).loc main_arg11)) n q :=
  (congrFun (res_v144_eq (F := Ideal) m c) (ix2 n q)).trans (refBranch_read _ _ _ _ n q)

end Cert.ReferenceIdeal.RefValue

end
-- ==== Proof.Algebra.lean ====
/-
  The two forms of the graph-convolution result agree when the projected features are finite.

  Counting: the degree of a node is a natural number plus one, so it is a positive real and its inverse square root is a
  positive real; the guard "degree positive" of the second form always holds. The extended edge list is the E edges
  followed by one self-loop per node: a sum over it is the sum over the edges plus the sum over the nodes, and among the
  self-loops exactly the one at n ends in n. An edge that ends in n reads the destination's factor at n itself.
  With every quantity a real number the factor dinv n moves across the sum over the edges (distributivity, which the
  extended reals have only away from the infinities).
-/
import proofs.«157301_j41343355191554_2_alg».proof.Proof.Spec

noncomputable section

namespace Cert.Algebra

open Cert.Spec Idealize.ShloMosaic Idealize.ShloMosaic.ValueIdx
open scoped BigOperators

/-! ## Coercions and sums -/

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same under a condition on the index. -/
theorem coe_sum_ite {ι : Type} (s : Finset ι) (p : ι → Prop) [DecidablePred p] (f : ι → ℝ) :
    (∑ i ∈ s, if p i then (f i : EReal) else 0) = ((∑ i ∈ s, if p i then f i else 0 : ℝ) : EReal) := by
  rw [coe_sum]
  refine Finset.sum_congr rfl fun i _ => ?_
  split_ifs <;> simp

/-- A sum over the extended list: the edges, then the self-loops. -/
theorem sum_split (f : Fin 1350000 → EReal) :
    ∑ j : Fin 1350000, f j
      = (∑ e : Fin 1250000, f ⟨e.val, by omega⟩) + ∑ k : Fin 100000, f ⟨1250000 + k.val, by omega⟩ :=
  Fin.sum_univ_add (a := 1250000) (b := 100000) f

/-! ## Index words -/

/-- A small natural number written as a 32-bit word reads back, signed, as itself. -/
theorem toInt_ofNat_small (k : ℕ) (hk : k < 100000) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A word that names node n reads row n: it is not negative, and it is inside the array. -/
theorem row_of_hits (v : BitVec 32) (n : Fin 100000) (h : v.toInt = (n.val : ℤ)) : row v = n := by
  have hn := n.isLt
  have hs : v.slt 0#32 = false := by
    simp [BitVec.slt, h]
  have hw : wrap v = v := by unfold wrap; rw [hs]; rfl
  apply Fin.ext
  show min (wrap v).toInt.toNat 99999 = n.val
  rw [hw, h, Int.toNat_natCast]
  omega

/-- The self-loop word of node k reads row k. -/
theorem row_ofNat (k : Fin 100000) : row (BitVec.ofNat 32 k.val) = k :=
  row_of_hits _ k (toInt_ofNat_small k.val k.isLt)

/-! ## Degrees -/

/-- The number of edges whose destination word is n. -/
def cnt (A : IVec SA 32) (n : Fin 100000) : ℕ :=
  (Finset.univ.filter fun e : Fin 1250000 => (A (ix2 (1 : Fin 2) e)).toInt = (n.val : ℤ)).card

/-- The inverse square root of the degree, as a real number. -/
def dR (A : IVec SA 32) (n : Fin 100000) : ℝ := (Real.sqrt ((cnt A n : ℝ) + 1))⁻¹

/-- Counting the edges into n with ones gives the count. -/
theorem edge_count (A : IVec SA 32) (n : Fin 100000) :
    (∑ e : Fin 1250000, if (A (ix2 (1 : Fin 2) e)).toInt = (n.val : ℤ) then (1 : EReal) else 0) = ((cnt A n : ℝ) : EReal) := by
  have h := coe_sum_ite Finset.univ (fun e : Fin 1250000 => (A (ix2 (1 : Fin 2) e)).toInt = (n.val : ℤ)) (fun _ => (1 : ℝ))
  simp only [EReal.coe_one] at h
  rw [h, Finset.sum_boole]
  rfl

/-- Among the self-loops exactly the one at n ends in n. -/
theorem loop_count (n : Fin 100000) (f : Fin 100000 → EReal) :
    (∑ k : Fin 100000, if (BitVec.ofNat 32 k.val).toInt = (n.val : ℤ) then f k else 0) = f n := by
  have h : ∀ k : Fin 100000, ((BitVec.ofNat 32 k.val).toInt = (n.val : ℤ)) ↔ k = n := fun k => by
    rw [toInt_ofNat_small k.val k.isLt]
    constructor
    · intro e; exact Fin.ext (by exact_mod_cast e)
    · intro e; rw [e]
  simp only [h]
  rw [Finset.sum_ite_eq' Finset.univ n f, if_pos (Finset.mem_univ n)]

/-- The degree is the count plus one. -/
theorem deg_eq (A : IVec SA 32) (n : Fin 100000) : deg A n = (((cnt A n : ℝ) + 1 : ℝ) : EReal) := by
  unfold deg
  rw [edge_count, zero_add, EReal.coe_add, EReal.coe_one]

/-- The position of self-loop k in the extended list holds the word k, as source and as destination. -/
theorem dstx_loop (A : IVec SA 32) (k : Fin 100000) : dstx A ⟨1250000 + k.val, by omega⟩ = BitVec.ofNat 32 k.val := by
  unfold dstx
  rw [dif_neg (by simp)]
  simp
theorem srcx_loop (A : IVec SA 32) (k : Fin 100000) : srcx A ⟨1250000 + k.val, by omega⟩ = BitVec.ofNat 32 k.val := by
  unfold srcx
  rw [dif_neg (by simp)]
  simp
/-- The position of edge e in the extended list holds the edge's words. -/
theorem dstx_edge (A : IVec SA 32) (e : Fin 1250000) : dstx A ⟨e.val, by omega⟩ = A (ix2 (1 : Fin 2) e) := by
  unfold dstx
  rw [dif_pos e.isLt]
theorem srcx_edge (A : IVec SA 32) (e : Fin 1250000) : srcx A ⟨e.val, by omega⟩ = A (ix2 (0 : Fin 2) e) := by
  unfold srcx
  rw [dif_pos e.isLt]

/-- The degree counted over the extended list is the same number. -/
theorem degx_eq (A : IVec SA 32) (n : Fin 100000) : degx A n = (((cnt A n : ℝ) + 1 : ℝ) : EReal) := by
  unfold degx
  rw [sum_split]
  simp only [dstx_edge, dstx_loop]
  rw [edge_count, loop_count n (fun _ => (1 : EReal)), zero_add, EReal.coe_add, EReal.coe_one]

/-- The degree is a positive real, so its inverse square root is the real one. -/
theorem rsqrt_deg (A : IVec SA 32) (n : Fin 100000) :
    Ideal.rsqrt ((((cnt A n : ℝ) + 1 : ℝ)) : EReal) = ((dR A n : ℝ) : EReal) := by
  have hpos : (0 : ℝ) < (cnt A n : ℝ) + 1 := by positivity
  rw [Ideal.rsqrt_coe, if_neg (not_lt.2 hpos.le), if_neg hpos.ne']
  rfl

theorem dinv_eq (A : IVec SA 32) (n : Fin 100000) : dinv A n = ((dR A n : ℝ) : EReal) := by
  unfold dinv
  rw [deg_eq, rsqrt_deg]

theorem dinvx_eq (A : IVec SA 32) (n : Fin 100000) : dinvx A n = ((dR A n : ℝ) : EReal) := by
  unfold dinvx
  have hpos : (0 : ℝ) < (cnt A n : ℝ) + 1 := by positivity
  rw [degx_eq, if_pos (by exact_mod_cast hpos), rsqrt_deg]

/-! ## The two forms agree -/

/-- For finite projected features the reference's form is the form with the destination's factor taken out of the sum:
    the self-loop at n gives the middle term, an edge into n reads the destination's factor at n, and the factor moves
    across the sum over the edges because every term is a real number. -/
theorem gcnRef_eq_gcn (A : IVec SA 32) (hR : Fin 100000 → Fin 64 → ℝ) (b : SB.Idx → EReal) (n : Fin 100000) (q : Fin 64) :
    gcnRef A (fun n q => ((hR n q : ℝ) : EReal)) b n q = gcn A (fun n q => ((hR n q : ℝ) : EReal)) b n q := by
  -- the real number an edge contributes before the destination's factor
  let a : Fin 1250000 → ℝ := fun e => hR (row (A (ix2 (0 : Fin 2) e))) q * dR A (row (A (ix2 (0 : Fin 2) e)))
  have hsumR : (∑ e : Fin 1250000, if (dstx A ⟨e.val, by omega⟩).toInt = (n.val : ℤ) then
        ((hR (row (srcx A ⟨e.val, by omega⟩)) q : ℝ) : EReal)
          * (dinvx A (row (srcx A ⟨e.val, by omega⟩)) * dinvx A (row (dstx A ⟨e.val, by omega⟩))) else 0)
      = (((∑ e : Fin 1250000, if (A (ix2 (1 : Fin 2) e)).toInt = (n.val : ℤ) then a e else 0) * dR A n : ℝ) : EReal) := by
    rw [Finset.sum_mul, coe_sum]
    refine Finset.sum_congr rfl fun e _ => ?_
    rw [dstx_edge, srcx_edge]
    split_ifs with h
    · rw [row_of_hits _ n h, dinvx_eq, dinvx_eq, EReal.coe_mul, EReal.coe_mul, mul_assoc]
    · rw [zero_mul, EReal.coe_zero]
  have hsumK : (∑ e : Fin 1250000, if (A (ix2 (1 : Fin 2) e)).toInt = (n.val : ℤ) then
        ((hR (row (A (ix2 (0 : Fin 2) e))) q : ℝ) : EReal) * dinv A (row (A (ix2 (0 : Fin 2) e))) else 0)
      = (((∑ e : Fin 1250000, if (A (ix2 (1 : Fin 2) e)).toInt = (n.val : ℤ) then a e else 0 : ℝ)) : EReal) := by
    rw [coe_sum]
    refine Finset.sum_congr rfl fun e _ => ?_
    split_ifs with h
    · rw [dinv_eq, EReal.coe_mul]
    · rw [EReal.coe_zero]
  have hloop : (∑ k : Fin 100000, if (dstx A ⟨1250000 + k.val, by omega⟩).toInt = (n.val : ℤ) then
        ((hR (row (srcx A ⟨1250000 + k.val, by omega⟩)) q : ℝ) : EReal)
          * (dinvx A (row (srcx A ⟨1250000 + k.val, by omega⟩)) * dinvx A (row (dstx A ⟨1250000 + k.val, by omega⟩))) else 0)
      = ((hR n q : ℝ) : EReal) * (dinv A n * dinv A n) := by
    simp only [dstx_loop, srcx_loop, row_ofNat]
    rw [loop_count n (fun k => ((hR k q : ℝ) : EReal) * (dinvx A k * dinvx A k)), dinvx_eq, dinv_eq]
  unfold gcnRef gcn agg
  rw [sum_split, hsumR, hloop, hsumK, zero_add, zero_add, dinv_eq A n]
  simp only [EReal.coe_mul]

/-! ## Finite arguments -/

/-- The linear layer of real arrays is real. -/
theorem lin_coe (xr : SX.Idx → ℝ) (wr : SW.Idx → ℝ) (n : Fin 100000) (q : Fin 64) :
    lin (fun i => ((xr i : ℝ) : EReal)) (fun i => ((wr i : ℝ) : EReal)) n q
      = ((∑ k : Fin 64, xr (ix2 n k) * wr (ix2 k q) : ℝ) : EReal) := by
  unfold lin
  rw [coe_sum]
  refine Finset.sum_congr rfl fun k _ => ?_
  rw [EReal.coe_mul]

/-- For finite features and weights the reference's form of a graph-convolution result is the factored form. -/
theorem gcnRef_lin (A : IVec SA 32) (X : SX.Idx → EReal) (W : SW.Idx → EReal) (b : SB.Idx → EReal)
    (hX : ∃ xr : SX.Idx → ℝ, X = fun i => ((xr i : ℝ) : EReal)) (hW : ∃ wr : SW.Idx → ℝ, W = fun i => ((wr i : ℝ) : EReal))
    (n : Fin 100000) (q : Fin 64) :
    gcnRef A (lin X W) b n q = gcn A (lin X W) b n q := by
  obtain ⟨xr, rfl⟩ := hX
  obtain ⟨wr, rfl⟩ := hW
  have h : lin (fun i => ((xr i : ℝ) : EReal)) (fun i => ((wr i : ℝ) : EReal))
      = fun n q => ((∑ k : Fin 64, xr (ix2 n k) * wr (ix2 k q) : ℝ) : EReal) :=
    funext fun n => funext fun q => lin_coe xr wr n q
  rw [h]
  exact gcnRef_eq_gcn A _ b n q

end Cert.Algebra

end
-- ==== Proof.Finite.lean ====
/-
  Finiteness of the float inputs, read off the precondition. The precondition is the conjunction, over the nine float
  arguments, of "every entry x has |x| < +∞", each computed as a reduction by `and` of the entrywise comparison of
  |x| = max x (-x) against the pattern 0x7F800000 (which denotes +∞). An extended real x with max x (-x) < ⊤ is neither
  ⊤ nor ⊥, hence the coercion of a real; so each float argument is the coercion of an array of reals.
-/
import proofs.«157301_j41343355191554_2_alg».proof.Pre_finite_inputs
import proofs.«157301_j41343355191554_2_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Cert.Pre_finite_inputs

/-- The scalar shape has exactly one index. -/
instance : Subsingleton S_.Idx := ⟨fun a b => funext fun d => d.elim0⟩

/-- The pattern 0x7F800000 (sign 0, exponent all ones, fraction 0) denotes +∞. -/
theorem inf_bits : (FloatOps.ofBits (F := Ideal) .f32 0x7F800000#32 : Ideal .f32) = (⊤ : EReal) := by
  show Ideal.ofBits .f32 0x7F800000#32 = _
  simp [Ideal.ofBits, Ideal.ieee]

/-- An extended real whose absolute value max x (-x) is below ⊤ is a real: ⊤ fails on x, ⊥ fails on -x. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, for any shape: if the `and` over all entries of |a i| < +∞ is 1, every entry
    of `a` is a real. -/
theorem all_finite {s : Shape} {axes : List (Fin s.rank)} (a : FVec Ideal s .f32)
    (hb : S_.BroadcastsInDim s (![] : Fin 0 → Fin s.rank)) (hr : s.ReducesTo axes S_) (hS : 0 < S_.numel)
    (h : Host.reduce IntOp.andi (cmpf (F := Ideal) .olt (Host.absf a)
          (broadcastInDim s ![] hb (constant S_ .f32 0x7F800000#32))) (constantI S_ 1 1#1) hr hS ValueIdx.ix0 = 1#1) :
    ∀ i, ∃ r : ℝ, a i = (r : EReal) := by
  intro i
  have hi := Host.reduce_andi_all _ _ hr hS _ h i
  apply real_of_abs_lt_top
  have h2 : Ideal.cmp .olt (max (a i) (-(a i))) (⊤ : EReal) = 1#1 := by
    rw [← inf_bits]; exact hi
  by_contra hn
  have h3 : Ideal.cmp .olt (max (a i) (-(a i))) (⊤ : EReal) = 0#1 := by
    show BitVec.ofBool (decide _) = 0#1
    rw [decide_eq_false hn]; rfl
  rw [h3] at h2; exact absurd h2 (by decide)

/-- The same, with the real witnesses chosen: the array is the coercion of a real array. -/
theorem all_real {s : Shape} {axes : List (Fin s.rank)} (a : FVec Ideal s .f32)
    (hb : S_.BroadcastsInDim s (![] : Fin 0 → Fin s.rank)) (hr : s.ReducesTo axes S_) (hS : 0 < S_.numel)
    (h : Host.reduce IntOp.andi (cmpf (F := Ideal) .olt (Host.absf a)
          (broadcastInDim s ![] hb (constant S_ .f32 0x7F800000#32))) (constantI S_ 1 1#1) hr hS ValueIdx.ix0 = 1#1) :
    ∃ r : s.Idx → ℝ, a = fun i => ((r i : ℝ) : EReal) := by
  choose r hr' using all_finite a hb hr hS h
  exact ⟨r, funext hr'⟩

/-- Under the precondition, each of the nine float arguments is the coercion of an array of reals. The precondition's
    value at its one index is a left-nested conjunction of nine reductions; each conjunct is `all_real`'s hypothesis. -/
theorem finite_of_pre (a0 : FVec Ideal S100000x64 .f32) (a1 a2 a3 : IVec S2x1250000 32)
    (a4 : FVec Ideal S64x64 .f32) (a5 : FVec Ideal S64 .f32) (a6 : FVec Ideal S64x64 .f32) (a7 : FVec Ideal S64 .f32)
    (a8 : FVec Ideal S64x64 .f32) (a9 : FVec Ideal S64 .f32) (a10 : FVec Ideal S64x64 .f32) (a11 : FVec Ideal S64 .f32)
    (h : Cert.Pre_finite_inputs.fn (F := Ideal) a0 a1 a2 a3 a4 a5 a6 a7 a8 a9 a10 a11 = fun _ => 1#1) :
    (∃ r : S100000x64.Idx → ℝ, a0 = fun i => ((r i : ℝ) : EReal)) ∧
    (∃ r : S64x64.Idx → ℝ, a4 = fun i => ((r i : ℝ) : EReal)) ∧
    (∃ r : S64.Idx → ℝ, a5 = fun i => ((r i : ℝ) : EReal)) ∧
    (∃ r : S64x64.Idx → ℝ, a6 = fun i => ((r i : ℝ) : EReal)) ∧
    (∃ r : S64.Idx → ℝ, a7 = fun i => ((r i : ℝ) : EReal)) ∧
    (∃ r : S64x64.Idx → ℝ, a8 = fun i => ((r i : ℝ) : EReal)) ∧
    (∃ r : S64.Idx → ℝ, a9 = fun i => ((r i : ℝ) : EReal)) ∧
    (∃ r : S64x64.Idx → ℝ, a10 = fun i => ((r i : ℝ) : EReal)) ∧
    (∃ r : S64.Idx → ℝ, a11 = fun i => ((r i : ℝ) : EReal)) := by
  have h0 := congrFun h ValueIdx.ix0
  dsimp only [fn, fn_part1, fn_part2, andi] at h0
  simp only [IntOp.andi_eq_one] at h0
  obtain ⟨⟨⟨⟨⟨⟨⟨⟨e0, e4⟩, e5⟩, e6⟩, e7⟩, e8⟩, e9⟩, e10⟩, e11⟩ := h0
  exact ⟨all_real a0 _ _ _ e0, all_real a4 _ _ _ e4, all_real a5 _ _ _ e5, all_real a6 _ _ _ e6,
    all_real a7 _ _ _ e7, all_real a8 _ _ _ e8, all_real a9 _ _ _ e9, all_real a10 _ _ _ e10, all_real a11 _ _ _ e11⟩

end Cert.Finite
-- ==== Proof.RefFinal.lean ====
/-
  The reference's four results are the same four arrays as the kernel program's.

  Its run ends with the linear layer plus bias and, per branch, the reference's form of the graph-convolution result, all as
  functions of its own arguments; these agree with the kernel program's arguments, and the float arguments are finite, so
  each branch's form is the factored form (Algebra.lean) — the array the kernel program's run ends with.
-/
import proofs.«157301_j41343355191554_2_alg».proof.Proof.RefRunP
import proofs.«157301_j41343355191554_2_alg».proof.Proof.RefRead
import proofs.«157301_j41343355191554_2_alg».proof.Proof.Algebra
import proofs.«157301_j41343355191554_2_alg».proof.Proof.Finite
import proofs.«157301_j41343355191554_2_alg».proof.Proof.KValue
import proofs.«157301_j41343355191554_2_alg».proof.Defs

set_option maxRecDepth 16384

noncomputable section

namespace Cert.ReferenceIdeal.RefFinal

open Idealize.ShloMosaic Idealize.ShloMosaic.TcCoe Idealize.ShloMosaic.ValueIdx Idealize.SL.Sem

/-- From a memory that agrees with the kernel program's on the arguments, the reference ends with the kernel program's
    four result arrays and its own arguments unchanged. -/
theorem run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = Cert.KernelIdeal.KValue.G0 m c
          ∧ r.2.mem ((c.tc : Thread Cert.ReferenceIdeal.nD Cert.ReferenceIdeal.τ).loc Cert.ReferenceIdeal.main_v50) = Cert.KernelIdeal.KValue.G1 m c
          ∧ r.2.mem ((c.tc : Thread Cert.ReferenceIdeal.nD Cert.ReferenceIdeal.τ).loc Cert.ReferenceIdeal.main_v97) = Cert.KernelIdeal.KValue.G2 m c
          ∧ r.2.mem ((c.tc : Thread Cert.ReferenceIdeal.nD Cert.ReferenceIdeal.τ).loc Cert.ReferenceIdeal.main_v144) = Cert.KernelIdeal.KValue.G3 m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) := by
  refine (θ_run Cert.ReferenceIdeal.defs _ _).mono (fun r h c => ?_) (Cert.ReferenceIdeal.ValueP.run (F := Ideal) m' g')
  obtain ⟨h0, h1, h2, h3, ha⟩ := h c
  obtain ⟨e0, e1, e2, e3, e4, e5, e6, e7, e8, e9, e10, e11⟩ := hagree c
  obtain ⟨hX, hW4, hb5, hW6, hb7, hW8, hb9, hW10, hb11⟩ := Cert.Finite.finite_of_pre _ _ _ _ _ _ _ _ _ _ _ _ (hpre c)
  refine ⟨h0.trans ?_, h1.trans ?_, h2.trans ?_, h3.trans ?_, ha⟩
  · funext i
    obtain ⟨n, q, rfl⟩ : ∃ (n : Fin 100000) (q : Fin 64), i = ix2 n q := ⟨i 0, i 1, eq_ix2 i⟩
    refine (Cert.ReferenceIdeal.RefValue.ref0 m' c n q).trans ?_
    rw [e0, e4, e5]
    rfl
  · funext i
    obtain ⟨n, q, rfl⟩ : ∃ (n : Fin 100000) (q : Fin 64), i = ix2 n q := ⟨i 0, i 1, eq_ix2 i⟩
    refine (Cert.ReferenceIdeal.RefValue.ref1 m' c n q).trans ?_
    rw [e1, e0, e6, e7]
    exact Cert.Algebra.gcnRef_lin _ _ _ _ hX hW6 n q
  · funext i
    obtain ⟨n, q, rfl⟩ : ∃ (n : Fin 100000) (q : Fin 64), i = ix2 n q := ⟨i 0, i 1, eq_ix2 i⟩
    refine (Cert.ReferenceIdeal.RefValue.ref2 m' c n q).trans ?_
    rw [e2, e0, e8, e9]
    exact Cert.Algebra.gcnRef_lin _ _ _ _ hX hW8 n q
  · funext i
    obtain ⟨n, q, rfl⟩ : ∃ (n : Fin 100000) (q : Fin 64), i = ix2 n q := ⟨i 0, i 1, eq_ix2 i⟩
    refine (Cert.ReferenceIdeal.RefValue.ref3 m' c n q).trans ?_
    rw [e3, e0, e10, e11]
    exact Cert.Algebra.gcnRef_lin _ _ _ _ hX hW10 n q

end Cert.ReferenceIdeal.RefFinal

end
-- ==== Proof.lean ====
/-
  A graph-convolution block on 100000 nodes with 64 features and three edge lists of 1250000 edges each:
      x0 = X W_ln + b_ln,      x_k = D_k^{-1/2} (A_k + I) D_k^{-1/2} (X W_k) + b_k   (k = 1, 2, 3),
  D_k the in-degree of A_k + I.

  The kernel program computes the four products X W in one launch tiled over the nodes (20 blocks of 5000 rows), then on
  the host, per branch, the degrees (ones scatter-added at the destinations, plus one for the self-loop), their inverse
  square roots dinv, and the messages H[src e] · dinv[src e] scatter-added at the destinations; a second launch over the
  same tiling finishes each branch as  es · dinv + H · (dinv · dinv) + b.  The reference lists the self-loops as 100000
  further edges, counts degrees over the whole list, guards the inverse square root by "degree positive", and keeps the
  coefficient dinv[src] · dinv[dst] inside the scatter-add.

  At the ideal instance both are the same function of the arguments, entry by entry (Spec.lean): the linear layer is
  Σ_k X[n, k] · W[k, q] on both sides; the degree is a count plus one, a positive real, so the guard always holds;
  among the self-loops exactly the one at n ends in n and it contributes H[n] · dinv[n] · dinv[n]; an edge into n reads
  the destination's factor at n; and the factor dinv[n] moves across the sum over the edges because, the float
  arguments being finite, every term is a real number (Algebra.lean). Edge words are unconstrained 32-bit integers: both
  programs wrap a negative source word by the number of nodes and clamp it into the array when gathering, and drop an
  edge whose destination word names no node when scatter-adding.

  The three frames: the two kernel programs run through their two launches and 125 host operations with the argument
  arrays unchanged (KIRun.lean, KRun.lean: each launch's proof data, the bodies' triples, the contents at every
  boundary of the program); the reference is a straight line of host operations. The ideal pass rewrote nothing, so
  "preserves" asks nothing.
-/
import proofs.«157301_j41343355191554_2_alg».proof.Defs
import proofs.«157301_j41343355191554_2_alg».proof.Proof.Gen.Kernel
import proofs.«157301_j41343355191554_2_alg».proof.Proof.Gen.KernelIdeal
import proofs.«157301_j41343355191554_2_alg».proof.Proof.Gen.ReferenceIdeal
import proofs.«157301_j41343355191554_2_alg».proof.Proof.Gen.Pre_finite_inputs
import proofs.«157301_j41343355191554_2_alg».proof.Proof.KRun
import proofs.«157301_j41343355191554_2_alg».proof.Proof.KValue
import proofs.«157301_j41343355191554_2_alg».proof.Proof.RefFinal

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its reading at the ideal instance. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a line of host operations: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.ValueP.run (F := Ideal) m ρ)

/-- Both programs end with the specification's four arrays of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.G0 m c, fun c => Cert.KernelIdeal.KValue.G1 m c,
    fun c => Cert.KernelIdeal.KValue.G2 m c, fun c => Cert.KernelIdeal.KValue.G3 m c, ?_, ?_⟩
  · exact Cert.KernelIdeal.KValue.run m ρ
  · exact Cert.ReferenceIdeal.RefFinal.run m m' ρ' hpre hagree

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
